-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64 .f32) (main_arg10 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : IVec S800000 32) (main_arg1 : IVec S800000 32) (main_arg2 : FVec F S100000x128 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S800000 : Shape := ⟨1, ![800000]⟩
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x2 : Shape := ⟨2, ![100000, 2]⟩
abbrev S1x64 : Shape := ⟨2, ![1, 64]⟩
abbrev S100000x64 : Shape := ⟨2, ![100000, 64]⟩
abbrev S5000x128 : Shape := ⟨2, ![5000, 128]⟩
abbrev S5000x2 : Shape := ⟨2, ![5000, 2]⟩
abbrev S5000x64 : Shape := ⟨2, ![5000, 64]⟩
abbrev S5000x1 : Shape := ⟨2, ![5000, 1]⟩
abbrev S800000x64 : Shape := ⟨2, ![800000, 64]⟩

abbrev nBuf : Space → Nat
  | .hbm => 89
  | .vmem => 44
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S100000x128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S100000, .f32⟩
  | .hbm, ⟨15, _⟩ => ⟨S800000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S800000x1, .i32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x1, .f32⟩
  | .hbm, ⟨37, _⟩ => ⟨S100000x2, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S_, .f32⟩
  | .hbm, ⟨51, _⟩ => ⟨S100000x64, .f32⟩
  | .hbm, ⟨52, _⟩ => ⟨S800000x1, .i32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x64, .f32⟩
  | .hbm, ⟨66, _⟩ => ⟨S_, .f32⟩
  | .hbm, ⟨67, _⟩ => ⟨S100000x64, .f32⟩
  | .hbm, ⟨68, _⟩ => ⟨S800000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S1x64, .f32⟩
  | .hbm, ⟨73, _⟩ => ⟨S1x64, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S5000x2, .f32⟩
  | .local _ .vmem, ⟨6, _⟩ => ⟨S5000x2, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x2, .f32⟩
  | .local _ .vmem, ⟨16, _⟩ => ⟨S5000x2, .f32⟩
  | .local _ .vmem, ⟨17, _⟩ => ⟨S1x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x2, .f32⟩
  | .local _ .vmem, ⟨28, _⟩ => ⟨S5000x2, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17_0 : Ref sig .tc := ⟨.hbm, 39, rfl⟩
abbrev main_v17_1 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_6 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29_0 : Ref sig .tc := ⟨.hbm, 55, rfl⟩
abbrev main_v29_1 : Ref sig .tc := ⟨.hbm, 56, rfl⟩
abbrev main_c_8 : Ref sig .tc := ⟨.hbm, 57, rfl⟩
abbrev main_v30 : Ref sig .tc := ⟨.hbm, 58, rfl⟩
abbrev main_v31 : Ref sig .tc := ⟨.hbm, 59, rfl⟩
abbrev main_c_9 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_10 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42_0 : Ref sig .tc := ⟨.hbm, 72, rfl⟩
abbrev main_v42_1 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_12 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_1_S5000x1 : S5000x2.Slices ![0, 1] S5000x1
  broadcasts_S5000x1_S5000x64 : S5000x1.Broadcasts S5000x64
  bcast_S_S100000x64 : S_.BroadcastsInDim S100000x64 (![] : Fin 0 → Fin S100000x64.rank)
  slices_S5000x2_o0_0_S5000x1 : S5000x2.Slices ![0, 0] S5000x1
  shapeCasts_S5000x64_S5000x64 : S5000x64.ShapeCasts S5000x64
  reduces_S5000x64_S64 : S5000x64.Reduces [0] S64
  shapeCasts_S1x64_S64 : S1x64.ShapeCasts S64
  bcast_S_S64 : S_.BroadcastsInDim S64 (![] : Fin 0 → Fin S64.rank)
  scatter_S100000_S800000x1_S800000_n_0_0_1_wf : ScatterDims.WF S100000 S800000x1 S800000 [] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x2.size a ≤ S100000x2.size a
  hwx0_4 : ∀ i : grid0.Coords, EltTy.bits .f32 = 32 ∨ (Rect.block (s := S100000x2) S5000x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S100000x2.size a
  hwx1_2 : ∀ i : grid1.Coords, EltTy.bits .f32 = 32 ∨ (Rect.block (s := S100000x2) S5000x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v41) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42_0) S1x64.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42_1) S1x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v41) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v55) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S800000 : Shape := ⟨1, ![800000]⟩
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S800000x1 : Shape := ⟨2, ![800000, 1]⟩
abbrev S100000x64 : Shape := ⟨2, ![100000, 64]⟩
abbrev S1x64 : Shape := ⟨2, ![1, 64]⟩
abbrev S800000x64 : Shape := ⟨2, ![800000, 64]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S800000, .i32⟩
  | 1 => ⟨S800000, .i32⟩
  | 2 => ⟨S100000x128, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S_, .f32⟩
  | 12 => ⟨S800000, .f32⟩
  | 13 => ⟨S_, .f32⟩
  | 14 => ⟨S100000, .f32⟩
  | 15 => ⟨S800000x1, .i32⟩
  | 16 => ⟨S100000, .f32⟩
  | 17 => ⟨S_, .f32⟩
  | 18 => ⟨S_, .f32⟩
  | 19 => ⟨S100000, .f32⟩
  | 20 => ⟨S100000, .f32⟩
  | 21 => ⟨S_, .f32⟩
  | 22 => ⟨S100000, .f32⟩
  | 23 => ⟨S800000x1, .i32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .f32⟩
  | 42 => ⟨S100000, .f32⟩
  | 43 => ⟨S100000, .f32⟩
  | 44 => ⟨S100000x64, .f32⟩
  | 45 => ⟨S1x64, .f32⟩
  | 46 => ⟨S100000x64, .f32⟩
  | 47 => ⟨S100000x64, .f32⟩
  | 48 => ⟨S100000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S800000x1, .f32⟩
  | 59 => ⟨S800000x64, .f32⟩
  | 60 => ⟨S800000x64, .f32⟩
  | 61 => ⟨S_, .f32⟩
  | 62 => ⟨S100000x64, .f32⟩
  | 63 => ⟨S800000x1, .i32⟩
  | 64 => ⟨S100000x64, .f32⟩
  | 65 => ⟨S100000x1, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S800000x1, .f32⟩
  | 86 => ⟨S800000x64, .f32⟩
  | 87 => ⟨S800000x64, .f32⟩
  | 88 => ⟨S_, .f32⟩
  | 89 => ⟨S100000x64, .f32⟩
  | 90 => ⟨S800000x1, .i32⟩
  | 91 => ⟨S100000x64, .f32⟩
  | 92 => ⟨S100000x1, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S_, .f32⟩
  | 103 => ⟨S64, .f32⟩
  | 104 => ⟨S_, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S100000x64, .f32⟩
  | 111 => ⟨S_, .f32⟩
  | 112 => ⟨S64, .f32⟩
  | 113 => ⟨S_, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S64, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S800000, .i32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_5 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_7 : Ref sig .tc := ⟨.hbm, 49, rfl⟩
abbrev main_v25 : Ref sig .tc := ⟨.hbm, 50, rfl⟩
abbrev main_v26 : Ref sig .tc := ⟨.hbm, 51, rfl⟩
abbrev main_c_8 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_19 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

class Facts : Prop extends Facts₀ where

variable [Facts]
-- ==== Proof.KRun.lean ====
/-
  The kernel program's run, with its RESULT named.

  @main is thirteen segments: stretches of host operations and five kernel regions.  The buffer contents at each
  segment boundary are a fold from the launch memory (`W0 … W13`): a host stretch applies its operations, a region
  replaces its arrays by what its write-backs leave.  Every weakly fair execution from a memory with zero counters
  terminates without a fault in a state whose unscoped buffers hold the last boundary's contents `W13`; in particular
  the result buffer holds `W13` at that buffer, and each argument buffer is as launched.
-/
import proofs.«141286_j57346403336483_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result read: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v55) = W13 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v55 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.Run

end
-- ==== Proof.Spec.lean ====
/-
  The closed forms of the kernel's five regions, as functions of whole arrays, entry by entry over the extended reals.

  The network has 100000 nodes.  `lin` is a row-wise linear map plus a bias row; `linScaled` a row-wise linear map
  whose row `r` is then scaled by the node's source-degree normalisation (column 1 of the `[100000, 2]` array of
  per-node scales); `comb` the residual combine `(h + agg · nd + b) · s`, with `nd` the destination-degree
  normalisation (column 0 of the scales) and `s` the literal residual scale; `colSum` and `colSumSq` the column sums
  of a matrix and of its squares over all rows; `bnApply` the normalisation
  `(h − mean) · (var + ε)^(−1/2) · γ + β` with the statistics, scale and shift given as rows.
-/
import Idealize.ShloMosaic.PureOps.Ideal
import Idealize.ShloMosaic.Lib.ValueIdx

noncomputable section

namespace Cert.Spec

open Idealize.ShloMosaic Idealize.ShloMosaic.ValueIdx

/-- An `[a, b]` array of extended reals. -/
abbrev Arr2 (a b : Nat) : Type := (⟨2, ![a, b]⟩ : Shape).Idx → EReal

/-- The residual scale: the one literal both programs multiply by. -/
abbrev sc : EReal := FloatOps.ofBits (F := Ideal) .f32 0x3F3504F3#32
/-- The variance offset: the one literal both programs add. -/
abbrev eps : EReal := FloatOps.ofBits (F := Ideal) .f32 0x3727C5AC#32

/-- One entry of a linear map plus bias. -/
def lin1 (x : Arr2 100000 128) (w : Arr2 128 64) (b : Arr2 1 64) (r : Fin 100000) (q : Fin 64) : EReal :=
  (∑ k : Fin 128, x (ix2 r k) * w (ix2 k q)) + b (ix2 (0 : Fin 1) q)
/-- `x W + b`, row by row. -/
def lin (x : Arr2 100000 128) (w : Arr2 128 64) (b : Arr2 1 64) : Arr2 100000 64 := fun i => lin1 x w b (i 0) (i 1)

/-- One entry of a linear map scaled by the row's source normalisation. -/
def linScaled1 (h : Arr2 100000 64) (w : Arr2 64 64) (ns : Arr2 100000 2) (r : Fin 100000) (q : Fin 64) : EReal :=
  (∑ k : Fin 64, h (ix2 r k) * w (ix2 k q)) * ns (ix2 r (1 : Fin 2))
/-- `(h W)` with row `r` scaled by `ns[r, 1]`. -/
def linScaled (h : Arr2 100000 64) (w : Arr2 64 64) (ns : Arr2 100000 2) : Arr2 100000 64 :=
  fun i => linScaled1 h w ns (i 0) (i 1)

/-- One entry of the residual combine. -/
def comb1 (h agg nd b : EReal) : EReal := (h + agg * nd + b) * sc
/-- `(h + agg · ns[·, 0] + b) · s`. -/
def comb (h agg : Arr2 100000 64) (ns : Arr2 100000 2) (b : Arr2 1 64) : Arr2 100000 64 :=
  fun i => comb1 (h i) (agg i) (ns (ix2 (show Fin 100000 from i 0) (0 : Fin 2))) (b (ix2 (0 : Fin 1) (show Fin 64 from i 1)))

/-- The column sums over all rows, as a row. -/
def colSum (h : Arr2 100000 64) : Arr2 1 64 := fun y => ∑ i : Fin 100000, h (ix2 i (show Fin 64 from y 1))
/-- The column sums of the squares over all rows, as a row. -/
def colSumSq (h : Arr2 100000 64) : Arr2 1 64 :=
  fun y => ∑ i : Fin 100000, h (ix2 i (show Fin 64 from y 1)) * h (ix2 i (show Fin 64 from y 1))

/-- One entry of the normalisation. -/
def bn1 (h mean var gamma beta : EReal) : EReal := (h - mean) * Ideal.rsqrt (var + eps) * gamma + beta
/-- `(h − mean) · (var + ε)^(−1/2) · γ + β`, the four rows spread over the rows of `h`. -/
def bnApply (h : Arr2 100000 64) (mean var gamma beta : Arr2 1 64) : Arr2 100000 64 :=
  fun i => bn1 (h i) (mean (ix2 (0 : Fin 1) (show Fin 64 from i 1))) (var (ix2 (0 : Fin 1) (show Fin 64 from i 1)))
    (gamma (ix2 (0 : Fin 1) (show Fin 64 from i 1))) (beta (ix2 (0 : Fin 1) (show Fin 64 from i 1)))

end Cert.Spec

end
-- ==== Proof.KSpec.lean ====
/-
  The kernel program's result as ONE pure term of its eleven arguments.

  On the host: the out- and in-degrees of the nodes are the accumulated ones along the source and destination
  lists, clipped below at one; their `−1/2` powers are the source and destination normalisations, packed as the two
  columns of a `[100000, 2]` array (column 0 the destination's, column 1 the source's).  An aggregation gathers the
  rows of a node array at the (wrapped) source indices and accumulates them at the destination indices.  The five
  kernel regions contribute their closed forms: the input layer `h0`, two graph-convolution layers whose linear map
  is pre-scaled by the source normalisation before the aggregation and combined with the residual afterwards, the
  column statistics of `h2`, and the normalisation by the mean and by the variance formed as the mean of the squares
  minus the squared mean.
-/
import proofs.«141286_j57346403336483_2_alg».proof.Proof.Gen.KernelIdeal
import proofs.«141286_j57346403336483_2_alg».proof.Proof.Spec

noncomputable section

namespace Cert.KernelIdeal.KSpec

open Cert.KernelIdeal Cert.Spec Idealize.ShloMosaic
open Cert.KernelIdeal.Facts₀

/-- One on every edge. -/
def ones : FVec Ideal S800000 .f32 :=
  broadcastInDim S800000 ![] bcast_S_S800000 (constant (F := Ideal) S_ .f32 0x3F800000#32)

/-- The degree of every node along an index list, clipped below at one. -/
def deg (x : IVec S800000 32) : FVec Ideal S100000 .f32 :=
  maximumf (broadcastInDim S100000 ![] bcast_S_S100000 (id (constant (F := Ideal) S_ .f32 0x3F800000#32)))
    (Host.scatterAdd scatter_S100000_S800000x1_S800000_n_0_0_1
      (broadcastInDim S100000 ![] bcast_S_S100000 (constant (F := Ideal) S_ .f32 0x00000000#32))
      (broadcastInDim S800000x1 ![0] bcast_S800000_S800000x1_0 x) ones)

/-- The degree normalisation `deg ^ (−1/2)`. -/
def norm (x : IVec S800000 32) : FVec Ideal S100000 .f32 :=
  Host.powf (deg x) (broadcastInDim S100000 ![] bcast_S_S100000 (constant (F := Ideal) S_ .f32 0xBF000000#32))

/-- The per-node scales: column 0 the destination normalisation, column 1 the source normalisation. -/
def scales (x0 x1 : IVec S800000 32) : FVec Ideal S100000x2 .f32 :=
  concatenate S100000x2 1 [⟨S100000x1, broadcastInDim S100000x1 ![0] bcast_S100000_S100000x1_0 (norm x1)⟩,
    ⟨S100000x1, broadcastInDim S100000x1 ![0] bcast_S100000_S100000x1_0 (norm x0)⟩] concatenates_S100000x1_S100000x1_S100000x2_d1

/-- The source indices, a negative one wrapped by the node count, as a column. -/
def srcIdx (x0 : IVec S800000 32) : IVec S800000x1 32 :=
  broadcastInDim S800000x1 ![0] bcast_S800000_S800000x1_0
    (select (cmpi .slt x0 (broadcastInDim S800000 ![] bcast_S_S800000 (constantI S_ 32 0#32)))
      (addi x0 (broadcastInDim S800000 ![] bcast_S_S800000 (constantI S_ 32 100000#32))) x0)

/-- The destination indices as a column. -/
def dstIdx (x1 : IVec S800000 32) : IVec S800000x1 32 := broadcastInDim S800000x1 ![0] bcast_S800000_S800000x1_0 x1

/-- The aggregation: rows gathered at the sources, accumulated at the destinations. -/
def agg (x0 x1 : IVec S800000 32) (hws : FVec Ideal S100000x64 .f32) : FVec Ideal S100000x64 .f32 :=
  Host.scatterAdd scatter_S100000x64_S800000x1_S800000x64_1_0_0_1
    (broadcastInDim S100000x64 ![] bcast_S_S100000x64 (constant (F := Ideal) S_ .f32 0x00000000#32)) (dstIdx x1)
    (Host.gather gather_S100000x64_S800000x1_S800000x64_1_0_n_n_0_1_164 hws (srcIdx x0))

/-- A `[64]` vector as a `[1, 64]` row. -/
def row (b : FVec Ideal S64 .f32) : FVec Ideal S1x64 .f32 := shapeCast S1x64 b shapeCasts_S64_S1x64
/-- A `[1, 64]` row as a `[64]` vector. -/
def unrow (b : FVec Ideal S1x64 .f32) : FVec Ideal S64 .f32 := shapeCast S64 b shapeCasts_S1x64_S64

variable (x0 x1 : IVec S800000 32) (x2 : FVec Ideal S100000x128 .f32) (x3 : FVec Ideal S128x64 .f32)
  (x4 : FVec Ideal S64 .f32) (x5 : FVec Ideal S64x64 .f32) (x6 : FVec Ideal S64 .f32) (x7 : FVec Ideal S64x64 .f32)
  (x8 x9 x10 : FVec Ideal S64 .f32)

/-- The input layer. -/
def h0 : FVec Ideal S100000x64 .f32 := lin x2 x3 (row x4)
/-- After the first graph convolution and residual. -/
def h1 : FVec Ideal S100000x64 .f32 :=
  comb (h0 x2 x3 x4) (agg x0 x1 (linScaled (h0 x2 x3 x4) x5 (scales x0 x1))) (scales x0 x1) (row x6)
/-- After the second graph convolution and residual. -/
def h2 : FVec Ideal S100000x64 .f32 :=
  comb (h1 x0 x1 x2 x3 x4 x5 x6) (agg x0 x1 (linScaled (h1 x0 x1 x2 x3 x4 x5 x6) x7 (scales x0 x1))) (scales x0 x1) (row x8)

/-- The node count on every column. -/
def count : FVec Ideal S64 .f32 := broadcastInDim S64 ![] bcast_S_S64 (constant (F := Ideal) S_ .f32 0x47C35000#32)
/-- The column means. -/
def mean : FVec Ideal S64 .f32 := Host.divf (unrow (colSum (h2 x0 x1 x2 x3 x4 x5 x6 x7 x8))) count
/-- The column variances: the mean of the squares minus the squared mean. -/
def var : FVec Ideal S64 .f32 :=
  subf (Host.divf (unrow (colSumSq (h2 x0 x1 x2 x3 x4 x5 x6 x7 x8))) count)
    (mulf (mean x0 x1 x2 x3 x4 x5 x6 x7 x8) (mean x0 x1 x2 x3 x4 x5 x6 x7 x8))
/-- The result. -/
def out : FVec Ideal S100000x64 .f32 :=
  bnApply (h2 x0 x1 x2 x3 x4 x5 x6 x7 x8) (row (mean x0 x1 x2 x3 x4 x5 x6 x7 x8)) (row (var x0 x1 x2 x3 x4 x5 x6 x7 x8)) (row x9) (row x10)

end Cert.KernelIdeal.KSpec

end
-- ==== Proof.Fold0.lean ====
/-
  The kernel program's buffers when its first region is entered, read back to the launch memory.

  Five stretches of host operations precede the first region: the out-degrees (accumulated ones along the source
  list), their clip below at one, the in-degrees, their clip, and then the two `−1/2` powers packed as the two columns
  of the per-node scales, and the first bias as a row.  Each stretch is read for an ARBITRARY entry valuation, so that
  reading one stretch never unfolds the stretches before it.  The two clips are outlined functions whose operations
  address their buffers through typed references; a typed reference transports contents along an equation of buffer
  types that holds by computation, so each clip IS the same three operations on the plain references.
-/
import proofs.«141286_j57346403336483_2_alg».proof.Proof.Gen.KernelIdeal.Frame
import proofs.«141286_j57346403336483_2_alg».proof.Proof.KSpec
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.Spec Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg) (c : Dev nD)

variable (Wv : Valuation τ sig (Elt Ideal))

/-! ## The two clips on plain references -/

/-- The first clip: convert, broadcast, maximum. -/
theorem clip0_ops : (hostOps0_1 : List (HloOp τ sig (Elt Ideal))) =
    [ StableHlo.unary main_cst_1 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.binary main_call0_v1 main_v3 main_v4 (maximumf (F := Ideal) : FVec Ideal S100000 .f32 → FVec Ideal S100000 .f32 → FVec Ideal S100000 .f32) ] := rfl

/-- The second clip: the same on its own buffers. -/
theorem clip1_ops : (hostOps0_3 : List (HloOp τ sig (Elt Ideal))) =
    [ StableHlo.unary main_cst_3 main_call1_v0 (id : (⟨S_, .f32⟩ : BufTy).Contents (Elt Ideal) → (⟨S_, .f32⟩ : BufTy).Contents (Elt Ideal)),
      StableHlo.unary main_call1_v0 main_call1_v1 (broadcastInDim S100000 ![] bcast_S_S100000 : (⟨S_, .f32⟩ : BufTy).Contents (Elt Ideal) → (⟨S100000, .f32⟩ : BufTy).Contents (Elt Ideal)),
      StableHlo.binary main_call1_v1 main_v7 main_v8 (maximumf (F := Ideal) : FVec Ideal S100000 .f32 → FVec Ideal S100000 .f32 → FVec Ideal S100000 .f32) ] := rfl

/-! ## The out-degree stretch and its clip -/

/-- After the first two stretches the clipped out-degree is `KSpec.deg` of the source list. -/
theorem degOut_stage : StableHlo.after hostOps0_1 (StableHlo.after hostOps0 Wv) (Proc.devRef .tc main_v4)
    = KSpec.deg (Wv (Proc.devRef .tc main_arg0)) := by
  rw [clip0_ops]
  after_results
  rfl

/-- … and the ones on the edges are in place. -/
theorem ones_stage : StableHlo.after hostOps0_1 (StableHlo.after hostOps0 Wv) (Proc.devRef .tc main_v0) = KSpec.ones := by
  rw [clip0_ops]
  after_results
  rfl

/-! ## The in-degree stretch and its clip -/

/-- After the next two stretches the clipped in-degree is the accumulation of the entry's edge values along the
    destination list, clipped below at one. -/
theorem degIn_stage : StableHlo.after hostOps0_3 (StableHlo.after hostOps0_2 Wv) (Proc.devRef .tc main_v8)
    = maximumf (F := Ideal) (broadcastInDim S100000 ![] bcast_S_S100000 (id (constant (F := Ideal) S_ .f32 0x3F800000#32)))
        (Host.scatterAdd scatter_S100000_S800000x1_S800000_n_0_0_1
          (broadcastInDim S100000 ![] bcast_S_S100000 (constant (F := Ideal) S_ .f32 0x00000000#32))
          (broadcastInDim S800000x1 ![0] bcast_S800000_S800000x1_0 (Wv (Proc.devRef .tc main_arg1)))
          (Wv (Proc.devRef .tc main_v0))) := by
  rw [clip1_ops]
  after_results

/-- … and the clipped out-degree is untouched. -/
theorem degOut_kept : StableHlo.after hostOps0_3 (StableHlo.after hostOps0_2 Wv) (Proc.devRef .tc main_v4) = Wv (Proc.devRef .tc main_v4) := by
  rw [clip1_ops]
  after_results

/-! ## The powers, the packing and the bias row -/

/-- The last stretch packs the two `−1/2` powers as the columns of the scales. -/
theorem scales_stage : StableHlo.after hostOps0_4 Wv (Proc.devRef .tc main_v15)
    = concatenate S100000x2 1
        [⟨S100000x1, broadcastInDim S100000x1 ![0] bcast_S100000_S100000x1_0
            (Host.powf (F := Ideal) (Wv (Proc.devRef .tc main_v8))
              (broadcastInDim S100000 ![] bcast_S_S100000 (constant (F := Ideal) S_ .f32 0xBF000000#32)))⟩,
         ⟨S100000x1, broadcastInDim S100000x1 ![0] bcast_S100000_S100000x1_0
            (Host.powf (F := Ideal) (Wv (Proc.devRef .tc main_v4))
              (broadcastInDim S100000 ![] bcast_S_S100000 (constant (F := Ideal) S_ .f32 0xBF000000#32)))⟩]
        concatenates_S100000x1_S100000x1_S100000x2_d1 := by
  after_results

/-- … and the first bias as a row. -/
theorem bias_stage : StableHlo.after hostOps0_4 Wv (Proc.devRef .tc main_v16) = KSpec.row (Wv (Proc.devRef .tc main_arg4)) := by
  after_results
  rfl

/-! ## What the five stretches leave alone -/

/-- The destination list is untouched by the first two stretches. -/
theorem keepA_main_arg1 : StableHlo.after hostOps0_1 (StableHlo.after hostOps0 Wv) (Proc.devRef .tc main_arg1) = Wv (Proc.devRef .tc main_arg1) := by
  rw [clip0_ops]
  after_results

/-- The first bias is untouched by the first four stretches. -/
theorem keepAB_main_arg4 : StableHlo.after hostOps0_3 (StableHlo.after hostOps0_2 (StableHlo.after hostOps0_1 (StableHlo.after hostOps0 Wv)))
    (Proc.devRef .tc main_arg4) = Wv (Proc.devRef .tc main_arg4) := by
  rw [clip0_ops, clip1_ops]
  after_results

/-- Argument 0 is untouched by all five stretches. -/
theorem keep5_main_arg0 : StableHlo.after hostOps0_4 (StableHlo.after hostOps0_3 (StableHlo.after hostOps0_2 (StableHlo.after hostOps0_1
    (StableHlo.after hostOps0 Wv)))) (Proc.devRef .tc main_arg0) = Wv (Proc.devRef .tc main_arg0) := by
  rw [clip0_ops, clip1_ops]
  after_results

/-- Argument 1 is untouched by all five stretches. -/
theorem keep5_main_arg1 : StableHlo.after hostOps0_4 (StableHlo.after hostOps0_3 (StableHlo.after hostOps0_2 (StableHlo.after hostOps0_1
    (StableHlo.after hostOps0 Wv)))) (Proc.devRef .tc main_arg1) = Wv (Proc.devRef .tc main_arg1) := by
  rw [clip0_ops, clip1_ops]
  after_results

/-- Argument 2 is untouched by all five stretches. -/
theorem keep5_main_arg2 : StableHlo.after hostOps0_4 (StableHlo.after hostOps0_3 (StableHlo.after hostOps0_2 (StableHlo.after hostOps0_1
    (StableHlo.after hostOps0 Wv)))) (Proc.devRef .tc main_arg2) = Wv (Proc.devRef .tc main_arg2) := by
  rw [clip0_ops, clip1_ops]
  after_results

/-- Argument 3 is untouched by all five stretches. -/
theorem keep5_main_arg3 : StableHlo.after hostOps0_4 (StableHlo.after hostOps0_3 (StableHlo.after hostOps0_2 (StableHlo.after hostOps0_1
    (StableHlo.after hostOps0 Wv)))) (Proc.devRef .tc main_arg3) = Wv (Proc.devRef .tc main_arg3) := by
  rw [clip0_ops, clip1_ops]
  after_results

/-- Argument 5 is untouched by all five stretches. -/
theorem keep5_main_arg5 : StableHlo.after hostOps0_4 (StableHlo.after hostOps0_3 (StableHlo.after hostOps0_2 (StableHlo.after hostOps0_1
    (StableHlo.after hostOps0 Wv)))) (Proc.devRef .tc main_arg5) = Wv (Proc.devRef .tc main_arg5) := by
  rw [clip0_ops, clip1_ops]
  after_results

/-- Argument 6 is untouched by all five stretches. -/
theorem keep5_main_arg6 : StableHlo.after hostOps0_4 (StableHlo.after hostOps0_3 (StableHlo.after hostOps0_2 (StableHlo.after hostOps0_1
    (StableHlo.after hostOps0 Wv)))) (Proc.devRef .tc main_arg6) = Wv (Proc.devRef .tc main_arg6) := by
  rw [clip0_ops, clip1_ops]
  after_results

/-- Argument 7 is untouched by all five stretches. -/
theorem keep5_main_arg7 : StableHlo.after hostOps0_4 (StableHlo.after hostOps0_3 (StableHlo.after hostOps0_2 (StableHlo.after hostOps0_1
    (StableHlo.after hostOps0 Wv)))) (Proc.devRef .tc main_arg7) = Wv (Proc.devRef .tc main_arg7) := by
  rw [clip0_ops, clip1_ops]
  after_results

/-- Argument 8 is untouched by all five stretches. -/
theorem keep5_main_arg8 : StableHlo.after hostOps0_4 (StableHlo.after hostOps0_3 (StableHlo.after hostOps0_2 (StableHlo.after hostOps0_1
    (StableHlo.after hostOps0 Wv)))) (Proc.devRef .tc main_arg8) = Wv (Proc.devRef .tc main_arg8) := by
  rw [clip0_ops, clip1_ops]
  after_results

/-- Argument 9 is untouched by all five stretches. -/
theorem keep5_main_arg9 : StableHlo.after hostOps0_4 (StableHlo.after hostOps0_3 (StableHlo.after hostOps0_2 (StableHlo.after hostOps0_1
    (StableHlo.after hostOps0 Wv)))) (Proc.devRef .tc main_arg9) = Wv (Proc.devRef .tc main_arg9) := by
  rw [clip0_ops, clip1_ops]
  after_results

/-- Argument 10 is untouched by all five stretches. -/
theorem keep5_main_arg10 : StableHlo.after hostOps0_4 (StableHlo.after hostOps0_3 (StableHlo.after hostOps0_2 (StableHlo.after hostOps0_1
    (StableHlo.after hostOps0 Wv)))) (Proc.devRef .tc main_arg10) = Wv (Proc.devRef .tc main_arg10) := by
  rw [clip0_ops, clip1_ops]
  after_results

end Cert.KernelIdeal.Fold

end
-- ==== Proof.FoldStages.lean ====
/-
  The kernel program's three later stretches of host operations, each read for an arbitrary entry valuation.

  After the first region the host gathers the rows of the scaled linear map at the (wrapped) source indices and
  accumulates them at the destination indices, and lays the second bias out as a row; after the second region it does
  the same with the next scaled linear map and the third bias; after the statistics region it divides the two column
  sums by the node count, forms the variance as the mean of the squares minus the squared mean, and lays the mean, the
  variance, the scale and the shift out as rows.  Every other buffer a later region or stretch reads keeps its
  contents across the stretch.  Reading a stretch at an ARBITRARY entry valuation never unfolds the stretches before it.
-/
import proofs.«141286_j57346403336483_2_alg».proof.Proof.Gen.KernelIdeal.Frame
import proofs.«141286_j57346403336483_2_alg».proof.Proof.KSpec
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.Spec Idealize.ShloMosaic Idealize.ShloMosaic.TcCoe Idealize.SL.Sem
open Idealize.ShloMosaic.StableHlo
open Idealize.ShloMosaic.Pipeline (Dat)

variable (Wv : Valuation τ sig (Elt Ideal))

/-! ## The stretch after the first region: the first aggregation and the second bias row -/

/-- The first aggregation: the rows of the first scaled linear map gathered at the sources, accumulated at the
    destinations. -/
theorem agg1_stage : StableHlo.after hostOps1 Wv (Proc.devRef .tc main_v27)
    = KSpec.agg (Wv (Proc.devRef .tc main_arg0)) (Wv (Proc.devRef .tc main_arg1)) (Wv (Proc.devRef .tc main_v17_1)) := by
  after_results
  rfl

/-- The second bias as a row. -/
theorem bias1_stage : StableHlo.after hostOps1 Wv (Proc.devRef .tc main_v28) = KSpec.row (Wv (Proc.devRef .tc main_arg6)) := by
  after_results
  rfl

/-- What the stretch does not write it keeps. -/
theorem keep1_main_v17_0 : StableHlo.after hostOps1 Wv (Proc.devRef .tc main_v17_0) = Wv (Proc.devRef .tc main_v17_0) := by
  after_results

theorem keep1_main_v15 : StableHlo.after hostOps1 Wv (Proc.devRef .tc main_v15) = Wv (Proc.devRef .tc main_v15) := by
  after_results

theorem keep1_main_arg7 : StableHlo.after hostOps1 Wv (Proc.devRef .tc main_arg7) = Wv (Proc.devRef .tc main_arg7) := by
  after_results

theorem keep1_main_arg0 : StableHlo.after hostOps1 Wv (Proc.devRef .tc main_arg0) = Wv (Proc.devRef .tc main_arg0) := by
  after_results

theorem keep1_main_arg1 : StableHlo.after hostOps1 Wv (Proc.devRef .tc main_arg1) = Wv (Proc.devRef .tc main_arg1) := by
  after_results

theorem keep1_main_arg8 : StableHlo.after hostOps1 Wv (Proc.devRef .tc main_arg8) = Wv (Proc.devRef .tc main_arg8) := by
  after_results

theorem keep1_main_arg9 : StableHlo.after hostOps1 Wv (Proc.devRef .tc main_arg9) = Wv (Proc.devRef .tc main_arg9) := by
  after_results

theorem keep1_main_arg10 : StableHlo.after hostOps1 Wv (Proc.devRef .tc main_arg10) = Wv (Proc.devRef .tc main_arg10) := by
  after_results

/-! ## The stretch after the second region: the second aggregation and the third bias row -/

/-- The second aggregation: the rows of the second scaled linear map gathered at the sources, accumulated at the
    destinations. -/
theorem agg2_stage : StableHlo.after hostOps2 Wv (Proc.devRef .tc main_v39)
    = KSpec.agg (Wv (Proc.devRef .tc main_arg0)) (Wv (Proc.devRef .tc main_arg1)) (Wv (Proc.devRef .tc main_v29_1)) := by
  after_results
  rfl

/-- The third bias as a row. -/
theorem bias2_stage : StableHlo.after hostOps2 Wv (Proc.devRef .tc main_v40) = KSpec.row (Wv (Proc.devRef .tc main_arg8)) := by
  after_results
  rfl

/-- What the stretch does not write it keeps. -/
theorem keep2_main_v29_0 : StableHlo.after hostOps2 Wv (Proc.devRef .tc main_v29_0) = Wv (Proc.devRef .tc main_v29_0) := by
  after_results

theorem keep2_main_v15 : StableHlo.after hostOps2 Wv (Proc.devRef .tc main_v15) = Wv (Proc.devRef .tc main_v15) := by
  after_results

theorem keep2_main_arg9 : StableHlo.after hostOps2 Wv (Proc.devRef .tc main_arg9) = Wv (Proc.devRef .tc main_arg9) := by
  after_results

theorem keep2_main_arg10 : StableHlo.after hostOps2 Wv (Proc.devRef .tc main_arg10) = Wv (Proc.devRef .tc main_arg10) := by
  after_results

/-! ## The stretch after the statistics region: the mean, the variance, the scale and the shift as rows -/

/-- The column means: the column sums over the node count, as a row. -/
theorem mean_stage : StableHlo.after hostOps4 Wv (Proc.devRef .tc main_v51)
    = KSpec.row (Host.divf (F := Ideal) (KSpec.unrow (Wv (Proc.devRef .tc main_v42_0))) KSpec.count) := by
  after_results
  rfl

/-- The column variances: the mean of the squares minus the squared mean, as a row. -/
theorem var_stage : StableHlo.after hostOps4 Wv (Proc.devRef .tc main_v52)
    = KSpec.row (subf (Host.divf (F := Ideal) (KSpec.unrow (Wv (Proc.devRef .tc main_v42_1))) KSpec.count)
        (mulf (Host.divf (F := Ideal) (KSpec.unrow (Wv (Proc.devRef .tc main_v42_0))) KSpec.count)
          (Host.divf (F := Ideal) (KSpec.unrow (Wv (Proc.devRef .tc main_v42_0))) KSpec.count))) := by
  after_results
  rfl

/-- The scale as a row. -/
theorem gamma_stage : StableHlo.after hostOps4 Wv (Proc.devRef .tc main_v53) = KSpec.row (Wv (Proc.devRef .tc main_arg9)) := by
  after_results
  rfl

/-- The shift as a row. -/
theorem beta_stage : StableHlo.after hostOps4 Wv (Proc.devRef .tc main_v54) = KSpec.row (Wv (Proc.devRef .tc main_arg10)) := by
  after_results
  rfl

/-- The array the statistics were taken of is untouched. -/
theorem keep4_main_v41 : StableHlo.after hostOps4 Wv (Proc.devRef .tc main_v41) = Wv (Proc.devRef .tc main_v41) := by
  after_results

end Cert.KernelIdeal.Fold

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Region0.lean ====
/-
  The first kernel region: the input linear map and the first layer's scaled linear map.

  The node arrays have 100000 rows; grid point `t` (of 20) holds rows `5000 t … 5000 t + 4999` of `x` ([100000, 128]),
  of the [100000, 2] array of per-node scales and of the two [100000, 64] outputs, and the whole of `w` ([128, 64]),
  the bias row ([1, 64]) and `w1` ([64, 64]).  At row `p` of the block and column `q` the body forms

      h[p, q]  = Σ_k x[p, k] · w[k, q] + b[0, q]                       (first output)
      h'[p, q] = (Σ_k h[p, k] · w1[k, q]) · scale[p, 1]                 (second output)

  over the extended reals (a matrix product into a zero accumulator is the sum of the products over the contraction
  index; the narrowing format changes are the identity there).  So after the region the two output arrays are these
  expressions of the WHOLE input arrays at every `(r, q)`: point `r / 5000` writes row `r`.
-/
import proofs.«141286_j57346403336483_2_alg».proof.Proof.Gen.KernelIdeal.Frame
import proofs.«141286_j57346403336483_2_alg».proof.Proof.LibPlainDot
import proofs.«141286_j57346403336483_2_alg».proof.Proof.LibKeepdims
import proofs.«141286_j57346403336483_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.FcLin

open Cert.KernelIdeal Cert.KernelIdeal.Gen Idealize.ShloMosaic Idealize.ShloMosaic.TcCoe Idealize.SL.Sem
open Idealize.ShloMosaic.ValueIdx Cert.Lib Cert.Spec
open Idealize.ShloMosaic.Pipeline (Dat)
open scoped BigOperators

/-- The two printed dimension-number records are the plain `M×K` by `K×N` ones. -/
theorem dot0_eq : dot_S5000x128_S128x64_S5000x64_1_0_0_1_n_n = DotDims.plain 5000 128 64 := rfl
theorem dot1_eq : dot_S5000x64_S64x64_S5000x64_1_0_0_1_n_n = DotDims.plain 5000 64 64 := rfl

/-- The first output's value at row `p`, column `q` of a block: the row of `x` times the column of `w`, plus the bias
    (the narrowing format changes are the identity on extended reals). -/
theorem pay1_apply (x : FVec Ideal S5000x128 .f32) (w : FVec Ideal S128x64 .f32) (b : FVec Ideal S1x64 .f32)
    (p : Fin 5000) (q : Fin 64) :
    k0_pay1 (F := Ideal) x w b (ix2 p q) = (∑ k : Fin 128, x (ix2 p k) * w (ix2 k q)) + b (ix2 (0 : Fin 1) q) := by
  unfold k0_pay1
  rw [dot0_eq]
  refine (addf_apply _ _ (ix2 p q)).trans ?_
  refine congrArg₂ (· + ·) ?_ ?_
  · refine (plain_matmul_zero_apply 5000 128 64 none _ _ p q).trans ?_
    rfl
  · rw [shapeCast_self]
    exact broadcastTo_1b_ab_apply _ broadcasts_S1x64_S5000x64 p q

/-- The second output's value at row `p`, column `q` of a block: the row of the first output times the column of `w1`,
    scaled by column 1 of the row's scales. -/
theorem pay2_apply (x : FVec Ideal S5000x128 .f32) (w : FVec Ideal S128x64 .f32) (b : FVec Ideal S1x64 .f32)
    (w1 : FVec Ideal S64x64 .f32) (ns : FVec Ideal S5000x2 .f32) (p : Fin 5000) (q : Fin 64) :
    k0_pay2 (F := Ideal) x w b w1 ns (ix2 p q)
      = (∑ k : Fin 64, k0_pay1 (F := Ideal) x w b (ix2 p k) * w1 (ix2 k q)) * ns (ix2 p (1 : Fin 2)) := by
  unfold k0_pay2
  rw [dot1_eq]
  refine (mulf_apply _ _ (ix2 p q)).trans ?_
  refine congrArg₂ (· * ·) ?_ ?_
  · refine (plain_matmul_zero_apply 5000 64 64 none _ _ p q).trans ?_
    rfl
  · rw [shapeCast_self]
    refine (broadcastTo_a1_ab_apply _ broadcasts_S5000x1_S5000x64 p q).trans ?_
    exact slice2_axis1_apply 1 _ slices_S5000x2_o0_1_S5000x1 p (0 : Fin 1) (1 : Fin 2) rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row-blocked windows move with the point, the three one-block windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `5000 t + p` of a row-blocked array. -/
def row (t : Fin cfg0.N) (p : Fin 5000) : Fin 100000 :=
  ⟨5000 * t.val + p.val, by
    have := lt_of_lt_of_eq t.isLt (show cfg0.N = 20 from N_0); have := p.isLt; omega⟩

/-- Block `t` of `x` at `(p, k)` is `x` at `(5000 t + p, k)`. -/
theorem blk0 (c : Dev nD) (t : Fin cfg0.N) (p : Fin 5000) (k : Fin 128) :
    iblk0 V c 0 t (ix2 p k) = V c main_arg2 (ix2 (row t p) k) := by
  obtain ⟨e0, e1, -⟩ := idx_facts t
  unfold iblk0
  rw [View.read_apply]
  show V c main_arg2 _ = V c main_arg2 _
  congr 1
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The one block of `w` is `w`. -/
theorem blk1 (c : Dev nD) (t : Fin cfg0.N) (k : Fin 128) (q : Fin 64) :
    iblk0 V c 1 t (ix2 k q) = V c main_arg3 (ix2 k q) := by
  obtain ⟨-, -, e2, e3, -⟩ := idx_facts t
  unfold iblk0
  rw [View.read_apply]
  show V c main_arg3 _ = V c main_arg3 _
  congr 1
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- The one block of the bias row is the bias row. -/
theorem blk2 (c : Dev nD) (t : Fin cfg0.N) (q : Fin 64) :
    iblk0 V c 2 t (ix2 (0 : Fin 1) q) = V c main_v16 (ix2 (0 : Fin 1) q) := by
  obtain ⟨-, -, -, -, e4, e5, -⟩ := idx_facts t
  unfold iblk0
  rw [View.read_apply]
  show V c main_v16 _ = V c main_v16 _
  congr 1
  funext a; apply Fin.ext
  match a with
  | ⟨0, _⟩ => show win0_2.index t (0 : Fin 2) * 1 + 1 * 0 = 0; omega
  | ⟨1, _⟩ => show win0_2.index t (1 : Fin 2) * 64 + 1 * q.val = q.val; omega

/-- The one block of `w1` is `w1`. -/
theorem blk3 (c : Dev nD) (t : Fin cfg0.N) (k : Fin 64) (q : Fin 64) :
    iblk0 V c 3 t (ix2 k q) = V c main_arg5 (ix2 k q) := by
  obtain ⟨-, -, -, -, -, -, e6, e7, -⟩ := idx_facts t
  unfold iblk0
  rw [View.read_apply]
  show V c main_arg5 _ = V c main_arg5 _
  congr 1
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- Block `t` of the scales at `(p, e)` is the scales at `(5000 t + p, e)`. -/
theorem blk4 (c : Dev nD) (t : Fin cfg0.N) (p : Fin 5000) (e : Fin 2) :
    iblk0 V c 4 t (ix2 p e) = V c main_v15 (ix2 (row t p) e) := by
  obtain ⟨-, -, -, -, -, -, -, -, e8, e9, -⟩ := idx_facts t
  unfold iblk0
  rw [View.read_apply]
  show V c main_v15 _ = V c main_v15 _
  congr 1
  funext a; apply Fin.ext
  match a with
  | ⟨0, _⟩ => show win0_4.index t (0 : Fin 2) * 5000 + 1 * p.val = 5000 * t.val + p.val; omega
  | ⟨1, _⟩ => show win0_4.index t (1 : Fin 2) * 2 + 1 * e.val = e.val; omega

/-- Where element `(p, q)` of point `t`'s block of either output sits in its array: `(5000 t + p, q)`. -/
theorem emb5 (t : Fin cfg0.N) (p : Fin 5000) (q : Fin 64) :
    ((cfg0.win 5).blk t).view.emb (ix2 p q) = ix2 (row t p) q := by
  obtain ⟨-, -, -, -, -, -, -, -, -, -, e10, e11, -⟩ := idx_facts t
  funext a; apply Fin.ext
  match a with
  | ⟨0, _⟩ => show win0_5.index t (0 : Fin 2) * 5000 + 1 * p.val = 5000 * t.val + p.val; omega
  | ⟨1, _⟩ => show win0_5.index t (1 : Fin 2) * 64 + 1 * q.val = q.val; omega

theorem emb6 (t : Fin cfg0.N) (p : Fin 5000) (q : Fin 64) :
    ((cfg0.win 6).blk t).view.emb (ix2 p q) = ix2 (row t p) q := by
  obtain ⟨-, -, -, -, -, -, -, -, -, -, -, -, e12, e13⟩ := idx_facts t
  funext a; apply Fin.ext
  match a with
  | ⟨0, _⟩ => show win0_6.index t (0 : Fin 2) * 5000 + 1 * p.val = 5000 * t.val + p.val; omega
  | ⟨1, _⟩ => show win0_6.index t (1 : Fin 2) * 64 + 1 * q.val = q.val; omega

/-- The first output at row `p`, column `k` of point `t`'s block is the closed form at row `5000 t + p`. -/
theorem point5 (c : Dev nD) (t : Fin cfg0.N) (p : Fin 5000) (k : Fin 64) :
    k0_pay1 (F := Ideal) (iblk0 V c 0 t) (iblk0 V c 1 t) (iblk0 V c 2 t) (ix2 p k)
      = lin1 (V c main_arg2) (V c main_arg3) (V c main_v16) (row t p) k := by
  refine (pay1_apply (iblk0 V c 0 t) (iblk0 V c 1 t) (iblk0 V c 2 t) p k).trans ?_
  unfold lin1
  rw [blk2 V c t k]
  exact congrArg (· + _) (Finset.sum_congr rfl fun j _ => by rw [blk0 V c t p j, blk1 V c t j k])

/-- The second output at row `p`, column `q` of point `t`'s block is the closed form at row `5000 t + p`: the inner
    operand's row is the first output's row, itself the closed form there. -/
theorem point6 (c : Dev nD) (t : Fin cfg0.N) (p : Fin 5000) (q : Fin 64) :
    k0_pay2 (F := Ideal) (iblk0 V c 0 t) (iblk0 V c 1 t) (iblk0 V c 2 t) (iblk0 V c 3 t) (iblk0 V c 4 t) (ix2 p q)
      = linScaled1 (lin (V c main_arg2) (V c main_arg3) (V c main_v16)) (V c main_arg5) (V c main_v15) (row t p) q := by
  refine (pay2_apply (iblk0 V c 0 t) (iblk0 V c 1 t) (iblk0 V c 2 t) (iblk0 V c 3 t) (iblk0 V c 4 t) p q).trans ?_
  unfold linScaled1
  rw [blk4 V c t p (1 : Fin 2)]
  exact congrArg (· * _) (Finset.sum_congr rfl fun k _ => by rw [point5 V c t p k, blk3 V c t k q]; rfl)

/-- WHAT POINT `t` WRITES BACK to the first output is block `t` of `x w + b` of the arrays the region finds. -/
theorem flushed5 (c : Dev nD) (t : Fin cfg0.N) :
    (dat0 V c).flushed 5 t = ((cfg0.win 5).blk t).view.read (Elt Ideal)
      (lin (V c main_arg2) (V c main_arg3) (V c main_v16)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  refine (point5 V c t p q).trans ?_
  rw [View.read_apply]
  show _ = lin (V c main_arg2) (V c main_arg3) (V c main_v16) (((cfg0.win 5).blk t).view.emb (ix2 p q))
  rw [emb5 t p q]
  rfl

/-- WHAT POINT `t` WRITES BACK to the second output is block `t` of the scaled product of the first. -/
theorem flushed6 (c : Dev nD) (t : Fin cfg0.N) :
    (dat0 V c).flushed 6 t = ((cfg0.win 6).blk t).view.read (Elt Ideal)
      (linScaled (lin (V c main_arg2) (V c main_arg3) (V c main_v16)) (V c main_arg5) (V c main_v15)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x64) hz, View.ld_unit_zero (S := S1x64) hz,
    View.ld_unit_zero (S := S64x64) hz, View.ld_unit_zero (S := S5000x2) hz]
  funext j
  obtain ⟨p, q, rfl⟩ : ∃ (p : Fin 5000) (q : Fin 64), j = ix2 p q := ⟨j 0, j 1, eq_ix2 j⟩
  refine (point6 V c t p q).trans ?_
  rw [View.read_apply]
  show _ = linScaled (lin (V c main_arg2) (V c main_arg3) (V c main_v16)) (V c main_arg5) (V c main_v15)
    (((cfg0.win 6).blk t).view.emb (ix2 p q))
  rw [emb6 t p q]
  rfl

/-- An index of an output array is in point `t`'s block iff each coordinate is in the block's range on its axis. -/
theorem mem_blk5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v17_0).slice (win0_5.rect t)).set ↔ _
  rw [View.set_slice_whole, Rect.mem_set_unit]
  exact Iff.rfl

theorem mem_blk6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v17_1).slice (win0_6.rect t)).set ↔ _
  rw [View.set_slice_whole, Rect.mem_set_unit]
  exact Iff.rfl

/-- Every row is some point's: row `r` lies in the block of point `r / 5000`. -/
theorem cover5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have hlt : (i 0).val / 5000 < cfg0.N := by rw [hN]; omega
  refine ⟨⟨(i 0).val / 5000, hlt⟩, flush0_5 _, ?_⟩
  rw [mem_blk5]
  obtain ⟨-, -, -, -, -, -, -, -, -, -, e10, e11, -⟩ := idx_facts ⟨(i 0).val / 5000, hlt⟩
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e10]; show (i 0).val / 5000 * 5000 ≤ (i 0).val ∧ (i 0).val < (i 0).val / 5000 * 5000 + 5000; omega
  | ⟨1, _⟩ =>
    show win0_5.index ⟨(i 0).val / 5000, hlt⟩ (1 : Fin 2) * 64 ≤ (i 1).val
      ∧ (i 1).val < win0_5.index ⟨(i 0).val / 5000, hlt⟩ (1 : Fin 2) * 64 + 64
    rw [e11]; omega

theorem cover6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  have hlt : (i 0).val / 5000 < cfg0.N := by rw [hN]; omega
  refine ⟨⟨(i 0).val / 5000, hlt⟩, flush0_6 _, ?_⟩
  rw [mem_blk6]
  obtain ⟨-, -, -, -, -, -, -, -, -, -, -, -, e12, e13⟩ := idx_facts ⟨(i 0).val / 5000, hlt⟩
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e12]; show (i 0).val / 5000 * 5000 ≤ (i 0).val ∧ (i 0).val < (i 0).val / 5000 * 5000 + 5000; omega
  | ⟨1, _⟩ =>
    show win0_6.index ⟨(i 0).val / 5000, hlt⟩ (1 : Fin 2) * 64 ≤ (i 1).val
      ∧ (i 1).val < win0_6.index ⟨(i 0).val / 5000, hlt⟩ (1 : Fin 2) * 64 + 64
    rw [e13]; omega

/-- THE FIRST OUTPUT ARRAY after the region: `x w + b` of the arrays the region finds. -/
theorem final5 (c : Dev nD) :
    (dat0 V c).arrAt 5 cfg0.N = lin (V c main_arg2) (V c main_arg3) (V c main_v16) :=
  (dat0 V c).arrAt_eq_of_cover 5 _ (fun t _ => flushed5 V c t) cover5

/-- THE SECOND OUTPUT ARRAY after the region: the first times `w1`, row `r` scaled by column 1 of the row's scales. -/
theorem final6 (c : Dev nD) :
    (dat0 V c).arrAt 6 cfg0.N
      = linScaled (lin (V c main_arg2) (V c main_arg3) (V c main_v16)) (V c main_arg5) (V c main_v15) :=
  (dat0 V c).arrAt_eq_of_cover 6 _ (fun t _ => flushed6 V c t) cover6

end Cert.KernelIdeal.FcLin

end
-- ==== Proof.Region1.lean ====
/-
  The second kernel region: the first residual combine `h1 = (h0 + agg1 · nd + b1) · s`, and the next layer's scaled
  linear map of it, `m2 = (h1 W2) · ns`.

  The node arrays have 100000 rows; grid point `t` (of 20) holds rows `5000 t … 5000 t + 4999` of the two
  `[100000, 64]` inputs and of the `[100000, 2]` array of per-node scales, the whole `[1, 64]` bias and the whole
  `[64, 64]` weight matrix.  The first output is pointwise: at row `p` of the block and column `q` it is
  `(h[p,q] + agg[p,q] · scale[p,0] + b[0,q]) · s`.  The second is the matrix product of that block with the weights
  into a zero accumulator (the narrowing of the operands to 16 bits is the identity over the extended reals), its row
  `p` then scaled by `scale[p,1]`: `(Σ_k h1[p,k] · W[k,q]) · scale[p,1]`.  A row of the product reads only the same
  row of the block, so each output array after the region is that same expression of the WHOLE input arrays at every
  `(r, q)`: point `r / 5000` writes row `r`.
-/
import proofs.«141286_j57346403336483_2_alg».proof.Proof.Gen.KernelIdeal.Frame
import proofs.«141286_j57346403336483_2_alg».proof.Proof.LibKeepdims
import proofs.«141286_j57346403336483_2_alg».proof.Proof.LibPlainDot
import proofs.«141286_j57346403336483_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Combine1

open Cert.KernelIdeal Cert.KernelIdeal.Gen Idealize.ShloMosaic Idealize.ShloMosaic.TcCoe Idealize.SL.Sem
open Idealize.ShloMosaic.ValueIdx Cert.Lib Cert.Spec
open Idealize.ShloMosaic.Pipeline (Dat)

/-- The first output's value at row `p`, column `q` of a block: the combine of the entries. -/
theorem pay2_apply (ns : FVec Ideal S5000x2 .f32) (h agg : FVec Ideal S5000x64 .f32) (b : FVec Ideal S1x64 .f32)
    (p : Fin 5000) (q : Fin 64) :
    k1_pay2 (F := Ideal) ns h agg b (ix2 p q)
      = comb1 (h (ix2 p q)) (agg (ix2 p q)) (ns (ix2 p (0 : Fin 2))) (b (ix2 (0 : Fin 1) q)) := by
  unfold k1_pay2 k1_pay1 comb1
  simp only [mulf_apply, addf_apply, broadcast_apply, shapeCast_self]
  rw [broadcastTo_a1_ab_apply, broadcastTo_1b_ab_apply, slice2_axis1_apply 0 _ _ p (0 : Fin 1) (0 : Fin 2) rfl]

/-- The printed dimension numbers of the product are the plain ones of a `5000×64` by `64×64` product. -/
theorem dot_eq : dot_S5000x64_S64x64_S5000x64_1_0_0_1_n_n = DotDims.plain 5000 64 64 := rfl

/-- The second output's value at row `p`, column `q` of a block: row `p` of the first output's block times column
    `q` of the weights, scaled by the row's second scale. -/
theorem pay3_apply (ns : FVec Ideal S5000x2 .f32) (h agg : FVec Ideal S5000x64 .f32) (b : FVec Ideal S1x64 .f32)
    (w : FVec Ideal S64x64 .f32) (p : Fin 5000) (q : Fin 64) :
    k1_pay3 (F := Ideal) ns h agg b w (ix2 p q)
      = (∑ k : Fin 64, comb1 (h (ix2 p k)) (agg (ix2 p k)) (ns (ix2 p (0 : Fin 2))) (b (ix2 (0 : Fin 1) k)) * w (ix2 k q))
          * ns (ix2 p (1 : Fin 2)) := by
  unfold k1_pay3 k1_pay1
  simp only [mulf_apply, shapeCast_self]
  rw [broadcastTo_a1_ab_apply, slice2_axis1_apply 1 _ _ p (0 : Fin 1) (1 : Fin 2) rfl, dot_eq]
  refine congrArg (· * ns (ix2 p (1 : Fin 2))) ?_
  refine (plain_matmul_zero_apply 5000 64 64 none (truncf .bf16 (k1_pay2 (F := Ideal) ns h agg b) bitsLt_bf16_f32)
    (truncf .bf16 w bitsLt_bf16_f32) p q).trans ?_
  refine Finset.sum_congr rfl fun k _ => ?_
  rw [truncf_apply, truncf_apply, pay2_apply]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the two outputs move with the point, the
    bias and the weights stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## The first output: the combine -/

/-- The first input's block and output 5's block at point `t` sit at the same place of their arrays. -/
theorem emb5_h (t : Fin cfg1.N) (p : Fin 5000) (q : Fin 64) :
    ((cfg1.win 0).blk t).view.emb (ix2 p q) = ((cfg1.win 5).blk t).view.emb (ix2 p q) := by
  obtain ⟨e0, e1, e2, e3, e4, e5, e6, e7, e8, e9, e10, e11, e12, e13⟩ := idx_facts t
  funext a; apply Fin.ext
  match a with
  | ⟨0, _⟩ => show win1_0.index t (0 : Fin 2) * 5000 + 1 * p.val = win1_5.index t (0 : Fin 2) * 5000 + 1 * p.val; omega
  | ⟨1, _⟩ => show win1_0.index t (1 : Fin 2) * 64 + 1 * q.val = win1_5.index t (1 : Fin 2) * 64 + 1 * q.val; omega

/-- So do the second input's block and output 5's. -/
theorem emb5_agg (t : Fin cfg1.N) (p : Fin 5000) (q : Fin 64) :
    ((cfg1.win 1).blk t).view.emb (ix2 p q) = ((cfg1.win 5).blk t).view.emb (ix2 p q) := by
  obtain ⟨e0, e1, e2, e3, e4, e5, e6, e7, e8, e9, e10, e11, e12, e13⟩ := idx_facts t
  funext a; apply Fin.ext
  match a with
  | ⟨0, _⟩ => show win1_1.index t (0 : Fin 2) * 5000 + 1 * p.val = win1_5.index t (0 : Fin 2) * 5000 + 1 * p.val; omega
  | ⟨1, _⟩ => show win1_1.index t (1 : Fin 2) * 64 + 1 * q.val = win1_5.index t (1 : Fin 2) * 64 + 1 * q.val; omega

/-- Row `p` of the scales' block is the row of the array that output 5's block puts `(p, q)` at. -/
theorem emb5_ns (t : Fin cfg1.N) (p : Fin 5000) (q : Fin 64) :
    ((cfg1.win 2).blk t).view.emb (ix2 p (0 : Fin 2)) = ix2 (show Fin 100000 from (((cfg1.win 5).blk t).view.emb (ix2 p q)) 0) (0 : Fin 2) := by
  obtain ⟨e0, e1, e2, e3, e4, e5, e6, e7, e8, e9, e10, e11, e12, e13⟩ := idx_facts t
  funext a; apply Fin.ext
  match a with
  | ⟨0, _⟩ => show win1_2.index t (0 : Fin 2) * 5000 + 1 * p.val = win1_5.index t (0 : Fin 2) * 5000 + 1 * p.val; omega
  | ⟨1, _⟩ => show win1_2.index t (1 : Fin 2) * 2 + 1 * 0 = 0; omega

/-- The bias row has one block: its entry `(0, q)` is the array's, at the column output 5's block puts `(p, q)` at. -/
theorem emb5_b (t : Fin cfg1.N) (p : Fin 5000) (q : Fin 64) :
    ((cfg1.win 3).blk t).view.emb (ix2 (0 : Fin 1) q) = ix2 (0 : Fin 1) (show Fin 64 from (((cfg1.win 5).blk t).view.emb (ix2 p q)) 1) := by
  obtain ⟨e0, e1, e2, e3, e4, e5, e6, e7, e8, e9, e10, e11, e12, e13⟩ := idx_facts t
  funext a; apply Fin.ext
  match a with
  | ⟨0, _⟩ => show win1_3.index t (0 : Fin 2) * 1 + 1 * 0 = 0; omega
  | ⟨1, _⟩ => show win1_3.index t (1 : Fin 2) * 64 + 1 * q.val = win1_5.index t (1 : Fin 2) * 64 + 1 * q.val; omega

/-- WHAT POINT `t` WRITES BACK to the first output is block `t` of the combine of the arrays the region finds: row `p`
    of the block is row `5000 t + p` of each row-blocked array, and the bias has one block. -/
theorem flushed5_eq (c : Dev nD) (t : Fin cfg1.N) :
    (dat1 V c).flushed 5 t = ((cfg1.win 5).blk t).view.read (Elt Ideal)
      (comb (V c main_v17_0) (V c main_v27) (V c main_v15) (V c main_v28)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x2) hz, View.ld_unit_zero (S := S1x64) hz]
  funext j
  obtain ⟨p, q, rfl⟩ : ∃ (p : Fin 5000) (q : Fin 64), j = ix2 p q := ⟨j 0, j 1, eq_ix2 j⟩
  refine (pay2_apply (iblk1 V c 2 t) (iblk1 V c 0 t) (iblk1 V c 1 t) (iblk1 V c 3 t) p q).trans ?_
  show comb1 (V c main_v17_0 (((cfg1.win 0).blk t).view.emb (ix2 p q))) (V c main_v27 (((cfg1.win 1).blk t).view.emb (ix2 p q)))
      (V c main_v15 (((cfg1.win 2).blk t).view.emb (ix2 p (0 : Fin 2)))) (V c main_v28 (((cfg1.win 3).blk t).view.emb (ix2 (0 : Fin 1) q)))
    = comb1 (V c main_v17_0 (((cfg1.win 5).blk t).view.emb (ix2 p q))) (V c main_v27 (((cfg1.win 5).blk t).view.emb (ix2 p q)))
      (V c main_v15 (ix2 (show Fin 100000 from (((cfg1.win 5).blk t).view.emb (ix2 p q)) 0) (0 : Fin 2)))
      (V c main_v28 (ix2 (0 : Fin 1) (show Fin 64 from (((cfg1.win 5).blk t).view.emb (ix2 p q)) 1)))
  rw [emb5_h t p q, emb5_agg t p q, emb5_ns t p q, emb5_b t p q]

/-- An index of the array is in point `t`'s block of output 5 iff each coordinate is in the block's range on its axis. -/
theorem mem_blk5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v29_0).slice (win1_5.rect t)).set ↔ _
  rw [View.set_slice_whole, Rect.mem_set_unit]
  exact Iff.rfl

/-- Every row of output 5 is some point's: row `r` lies in the block of point `r / 5000`. -/
theorem cover5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have hlt : (i 0).val / 5000 < cfg1.N := by rw [hN]; omega
  refine ⟨⟨(i 0).val / 5000, hlt⟩, flush1_5 _, ?_⟩
  rw [mem_blk5]
  obtain ⟨-, -, -, -, -, -, -, -, -, -, e10, e11, e12, e13⟩ := idx_facts ⟨(i 0).val / 5000, hlt⟩
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val
      ∧ (i 1).val < win1_5.index ⟨(i 0).val / 5000, hlt⟩ (1 : Fin 2) * 64 + 64
    rw [e11]; omega

/-- THE FIRST OUTPUT ARRAY after the region: the combine of the arrays the region finds. -/
theorem final5 (c : Dev nD) :
    (dat1 V c).arrAt 5 cfg1.N = comb (V c main_v17_0) (V c main_v27) (V c main_v15) (V c main_v28) :=
  (dat1 V c).arrAt_eq_of_cover 5 _ (fun t _ => flushed5_eq V c t) cover5

/-! ## The second output: the scaled linear map of the combine -/

/-- Row `p` of the first input's block is, at every column `k`, the row of the array that output 6's block puts `(p, q)` at. -/
theorem emb6_h (t : Fin cfg1.N) (p : Fin 5000) (q k : Fin 64) :
    ((cfg1.win 0).blk t).view.emb (ix2 p k) = ix2 (show Fin 100000 from (((cfg1.win 6).blk t).view.emb (ix2 p q)) 0) k := by
  obtain ⟨e0, e1, e2, e3, e4, e5, e6, e7, e8, e9, e10, e11, e12, e13⟩ := idx_facts t
  funext a; apply Fin.ext
  match a with
  | ⟨0, _⟩ => show win1_0.index t (0 : Fin 2) * 5000 + 1 * p.val = win1_6.index t (0 : Fin 2) * 5000 + 1 * p.val; omega
  | ⟨1, _⟩ => show win1_0.index t (1 : Fin 2) * 64 + 1 * k.val = k.val; omega

/-- So is row `p` of the second input's block. -/
theorem emb6_agg (t : Fin cfg1.N) (p : Fin 5000) (q k : Fin 64) :
    ((cfg1.win 1).blk t).view.emb (ix2 p k) = ix2 (show Fin 100000 from (((cfg1.win 6).blk t).view.emb (ix2 p q)) 0) k := by
  obtain ⟨e0, e1, e2, e3, e4, e5, e6, e7, e8, e9, e10, e11, e12, e13⟩ := idx_facts t
  funext a; apply Fin.ext
  match a with
  | ⟨0, _⟩ => show win1_1.index t (0 : Fin 2) * 5000 + 1 * p.val = win1_6.index t (0 : Fin 2) * 5000 + 1 * p.val; omega
  | ⟨1, _⟩ => show win1_1.index t (1 : Fin 2) * 64 + 1 * k.val = k.val; omega

/-- And row `p` of the scales' block, at either column `u`. -/
theorem emb6_ns (t : Fin cfg1.N) (p : Fin 5000) (q : Fin 64) (u : Fin 2) :
    ((cfg1.win 2).blk t).view.emb (ix2 p u) = ix2 (show Fin 100000 from (((cfg1.win 6).blk t).view.emb (ix2 p q)) 0) u := by
  obtain ⟨e0, e1, e2, e3, e4, e5, e6, e7, e8, e9, e10, e11, e12, e13⟩ := idx_facts t
  funext a; apply Fin.ext
  match a with
  | ⟨0, _⟩ => show win1_2.index t (0 : Fin 2) * 5000 + 1 * p.val = win1_6.index t (0 : Fin 2) * 5000 + 1 * p.val; omega
  | ⟨1, _⟩ => show win1_2.index t (1 : Fin 2) * 2 + 1 * u.val = u.val; omega

/-- The bias row has one block: its entry `(0, k)` is the array's. -/
theorem emb6_b (t : Fin cfg1.N) (k : Fin 64) :
    ((cfg1.win 3).blk t).view.emb (ix2 (0 : Fin 1) k) = ix2 (0 : Fin 1) k := by
  obtain ⟨e0, e1, e2, e3, e4, e5, e6, e7, e8, e9, e10, e11, e12, e13⟩ := idx_facts t
  funext a; apply Fin.ext
  match a with
  | ⟨0, _⟩ => show win1_3.index t (0 : Fin 2) * 1 + 1 * 0 = 0; omega
  | ⟨1, _⟩ => show win1_3.index t (1 : Fin 2) * 64 + 1 * k.val = k.val; omega

/-- The weight matrix has one block: its entry `(k, q)` is the array's, at the column output 6's block puts `(p, q)` at. -/
theorem emb6_w (t : Fin cfg1.N) (p : Fin 5000) (q k : Fin 64) :
    ((cfg1.win 4).blk t).view.emb (ix2 k q) = ix2 k (show Fin 64 from (((cfg1.win 6).blk t).view.emb (ix2 p q)) 1) := by
  obtain ⟨e0, e1, e2, e3, e4, e5, e6, e7, e8, e9, e10, e11, e12, e13⟩ := idx_facts t
  funext a; apply Fin.ext
  match a with
  | ⟨0, _⟩ => show win1_4.index t (0 : Fin 2) * 64 + 1 * k.val = k.val; omega
  | ⟨1, _⟩ => show win1_4.index t (1 : Fin 2) * 64 + 1 * q.val = win1_6.index t (1 : Fin 2) * 64 + 1 * q.val; omega

/-- WHAT POINT `t` WRITES BACK to the second output is block `t` of the scaled linear map of the combine of the arrays
    the region finds: the product's row `p` reads row `5000 t + p` of each row-blocked array, the whole bias row and
    the whole weight matrix. -/
theorem flushed6_eq (c : Dev nD) (t : Fin cfg1.N) :
    (dat1 V c).flushed 6 t = ((cfg1.win 6).blk t).view.read (Elt Ideal)
      (linScaled (comb (V c main_v17_0) (V c main_v27) (V c main_v15) (V c main_v28)) (V c main_arg7) (V c main_v15)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x2) hz, View.ld_unit_zero (S := S1x64) hz,
    View.ld_unit_zero (S := S64x64) hz]
  funext j
  obtain ⟨p, q, rfl⟩ : ∃ (p : Fin 5000) (q : Fin 64), j = ix2 p q := ⟨j 0, j 1, eq_ix2 j⟩
  refine (pay3_apply (iblk1 V c 2 t) (iblk1 V c 0 t) (iblk1 V c 1 t) (iblk1 V c 3 t) (iblk1 V c 4 t) p q).trans ?_
  show (∑ k : Fin 64, comb1 (V c main_v17_0 (((cfg1.win 0).blk t).view.emb (ix2 p k))) (V c main_v27 (((cfg1.win 1).blk t).view.emb (ix2 p k)))
        (V c main_v15 (((cfg1.win 2).blk t).view.emb (ix2 p (0 : Fin 2)))) (V c main_v28 (((cfg1.win 3).blk t).view.emb (ix2 (0 : Fin 1) k)))
        * V c main_arg7 (((cfg1.win 4).blk t).view.emb (ix2 k q)))
      * V c main_v15 (((cfg1.win 2).blk t).view.emb (ix2 p (1 : Fin 2)))
    = (∑ k : Fin 64, comb1 (V c main_v17_0 (ix2 (show Fin 100000 from (((cfg1.win 6).blk t).view.emb (ix2 p q)) 0) k)) (V c main_v27 (ix2 (show Fin 100000 from (((cfg1.win 6).blk t).view.emb (ix2 p q)) 0) k))
        (V c main_v15 (ix2 (show Fin 100000 from (((cfg1.win 6).blk t).view.emb (ix2 p q)) 0) (0 : Fin 2))) (V c main_v28 (ix2 (0 : Fin 1) k))
        * V c main_arg7 (ix2 k (show Fin 64 from (((cfg1.win 6).blk t).view.emb (ix2 p q)) 1)))
      * V c main_v15 (ix2 (show Fin 100000 from (((cfg1.win 6).blk t).view.emb (ix2 p q)) 0) (1 : Fin 2))
  rw [emb6_ns t p q (0 : Fin 2), emb6_ns t p q (1 : Fin 2)]
  refine congrArg (· * V c main_v15 (ix2 (show Fin 100000 from (((cfg1.win 6).blk t).view.emb (ix2 p q)) 0) (1 : Fin 2))) ?_
  refine Finset.sum_congr rfl fun k _ => ?_
  rw [emb6_h t p q k, emb6_agg t p q k, emb6_b t k, emb6_w t p q k]

/-- An index of the array is in point `t`'s block of output 6 iff each coordinate is in the block's range on its axis. -/
theorem mem_blk6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29_1).slice (win1_6.rect t)).set ↔ _
  rw [View.set_slice_whole, Rect.mem_set_unit]
  exact Iff.rfl

/-- Every row of output 6 is some point's: row `r` lies in the block of point `r / 5000`. -/
theorem cover6 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have hlt : (i 0).val / 5000 < cfg1.N := by rw [hN]; omega
  refine ⟨⟨(i 0).val / 5000, hlt⟩, flush1_6 _, ?_⟩
  rw [mem_blk6]
  obtain ⟨-, -, -, -, -, -, -, -, -, -, e10, e11, e12, e13⟩ := idx_facts ⟨(i 0).val / 5000, hlt⟩
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e12]; show (i 0).val / 5000 * 5000 ≤ (i 0).val ∧ (i 0).val < (i 0).val / 5000 * 5000 + 5000; omega
  | ⟨1, _⟩ =>
    show win1_6.index ⟨(i 0).val / 5000, hlt⟩ (1 : Fin 2) * 64 ≤ (i 1).val
      ∧ (i 1).val < win1_6.index ⟨(i 0).val / 5000, hlt⟩ (1 : Fin 2) * 64 + 64
    rw [e13]; omega

/-- THE SECOND OUTPUT ARRAY after the region: the scaled linear map of the combine of the arrays the region finds. -/
theorem final6 (c : Dev nD) :
    (dat1 V c).arrAt 6 cfg1.N
      = linScaled (comb (V c main_v17_0) (V c main_v27) (V c main_v15) (V c main_v28)) (V c main_arg7) (V c main_v15) :=
  (dat1 V c).arrAt_eq_of_cover 6 _ (fun t _ => flushed6_eq V c t) cover6

end Cert.KernelIdeal.Combine1

end
-- ==== Proof.Region2.lean ====
/-
  The third kernel region: the second residual combine, `h2 = (h1 + agg2 · nd + b2) · s`.

  The node arrays have 100000 rows; grid point `t` (of 20) holds rows `5000 t … 5000 t + 4999` of the two
  `[100000, 64]` inputs and of the `[100000, 2]` array of per-node scales, and the whole `[1, 64]` bias.  The body is
  pointwise: at row `p` of the block and column `q` it forms `(h[p,q] + agg[p,q] · scale[p,0] + b[0,q]) · s`, where
  `scale[·,0]` is the destination-degree normalisation and `s` the literal residual scale.  So the output array after
  the region is that same expression of the WHOLE input arrays at every `(r, q)`: point `r / 5000` writes row `r`.
-/
import proofs.«141286_j57346403336483_2_alg».proof.Proof.Gen.KernelIdeal.Frame
import proofs.«141286_j57346403336483_2_alg».proof.Proof.LibKeepdims
import proofs.«141286_j57346403336483_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Combine2

open Cert.KernelIdeal Cert.KernelIdeal.Gen Idealize.ShloMosaic Idealize.ShloMosaic.TcCoe Idealize.SL.Sem
open Idealize.ShloMosaic.ValueIdx Cert.Lib Cert.Spec
open Idealize.ShloMosaic.Pipeline (Dat)

/-- The body's value at row `p`, column `q` of a block. -/
theorem pay_apply (ns : FVec Ideal S5000x2 .f32) (h agg : FVec Ideal S5000x64 .f32) (b : FVec Ideal S1x64 .f32)
    (p : Fin 5000) (q : Fin 64) :
    k2_pay1 (F := Ideal) ns h agg b (ix2 p q)
      = comb1 (h (ix2 p q)) (agg (ix2 p q)) (ns (ix2 p (0 : Fin 2))) (b (ix2 (0 : Fin 1) q)) := by
  unfold k2_pay1 comb1
  simp only [mulf_apply, addf_apply, broadcast_apply, shapeCast_self]
  rw [broadcastTo_a1_ab_apply, broadcastTo_1b_ab_apply, slice2_axis1_apply 0 _ _ p (0 : Fin 1) (0 : Fin 2) rfl]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows move with the point, the bias stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK is block `t` of the combine of the arrays the region finds: row `p` of the block is row
    `5000 t + p` of each row-blocked array, and the bias has one block. -/
theorem flushed_eq (c : Dev nD) (t : Fin cfg2.N) :
    (dat2 V c).flushed 4 t = ((cfg2.win 4).blk t).view.read (Elt Ideal)
      (comb (V c main_v29_0) (V c main_v39) (V c main_v15) (V c main_v40)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x2) hz, View.ld_unit_zero (S := S1x64) hz]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  refine (pay_apply (iblk2 V c 2 t) (iblk2 V c 0 t) (iblk2 V c 1 t) (iblk2 V c 3 t) p q).trans ?_
  have hp : p.val < 5000 := p.isLt
  have hq : q.val < 64 := q.isLt
  have h0 : ((cfg2.win 0).blk t).view.emb (ix2 p q) = ((cfg2.win 4).blk t).view.emb (ix2 p q) := by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 64 + 1 * q.val = win2_4.index t (1 : Fin 2) * 64 + 1 * q.val; omega
  have h1 : ((cfg2.win 1).blk t).view.emb (ix2 p q) = ((cfg2.win 4).blk t).view.emb (ix2 p q) := by
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 64 + 1 * q.val = win2_4.index t (1 : Fin 2) * 64 + 1 * q.val; omega
  have h2 : ((cfg2.win 2).blk t).view.emb (ix2 p (0 : Fin 2))
      = ix2 (show Fin 100000 from (((cfg2.win 4).blk t).view.emb (ix2 p q)) 0) (0 : Fin 2) := by
    funext a; apply Fin.ext
    match a with
    | ⟨0, _⟩ => show win2_2.index t (0 : Fin 2) * 5000 + 1 * p.val = win2_4.index t (0 : Fin 2) * 5000 + 1 * p.val; omega
    | ⟨1, _⟩ => show win2_2.index t (1 : Fin 2) * 2 + 1 * 0 = 0; omega
  have h3 : ((cfg2.win 3).blk t).view.emb (ix2 (0 : Fin 1) q)
      = ix2 (0 : Fin 1) (show Fin 64 from (((cfg2.win 4).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 64 + 1 * q.val = win2_4.index t (1 : Fin 2) * 64 + 1 * q.val; omega
  show comb1 (V c main_v29_0 (((cfg2.win 0).blk t).view.emb (ix2 p q))) (V c main_v39 (((cfg2.win 1).blk t).view.emb (ix2 p q)))
      (V c main_v15 (((cfg2.win 2).blk t).view.emb (ix2 p (0 : Fin 2)))) (V c main_v40 (((cfg2.win 3).blk t).view.emb (ix2 (0 : Fin 1) q)))
    = comb1 (V c main_v29_0 (((cfg2.win 4).blk t).view.emb (ix2 p q))) (V c main_v39 (((cfg2.win 4).blk t).view.emb (ix2 p q)))
      (V c main_v15 (ix2 (show Fin 100000 from (((cfg2.win 4).blk t).view.emb (ix2 p q)) 0) (0 : Fin 2)))
      (V c main_v40 (ix2 (0 : Fin 1) (show Fin 64 from (((cfg2.win 4).blk t).view.emb (ix2 p q)) 1)))
  rw [h0, h1, h2, h3]

/-- An index of the array is in point `t`'s block iff each coordinate is in the block's range on its axis. -/
theorem mem_blk (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v41).slice (win2_4.rect t)).set ↔ _
  rw [View.set_slice_whole, Rect.mem_set_unit]
  exact Iff.rfl

/-- Every row is some point's: row `r` lies in the block of point `r / 5000`. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  have hlt : (i 0).val / 5000 < cfg2.N := by rw [hN]; omega
  refine ⟨⟨(i 0).val / 5000, hlt⟩, flush2_4 _, ?_⟩
  rw [mem_blk]
  obtain ⟨-, -, -, -, -, -, -, -, e8, e9⟩ := idx_facts ⟨(i 0).val / 5000, hlt⟩
  intro a
  match a with
  | ⟨0, _⟩ =>
    show win2_4.index ⟨(i 0).val / 5000, hlt⟩ (0 : Fin 2) * 5000 ≤ (i 0).val
      ∧ (i 0).val < win2_4.index ⟨(i 0).val / 5000, hlt⟩ (0 : Fin 2) * 5000 + 5000
    rw [e8]; show (i 0).val / 5000 * 5000 ≤ (i 0).val ∧ (i 0).val < (i 0).val / 5000 * 5000 + 5000; omega
  | ⟨1, _⟩ =>
    show win2_4.index ⟨(i 0).val / 5000, hlt⟩ (1 : Fin 2) * 64 ≤ (i 1).val
      ∧ (i 1).val < win2_4.index ⟨(i 0).val / 5000, hlt⟩ (1 : Fin 2) * 64 + 64
    rw [e9]; omega

/-- THE ARRAY after the region: the combine of the arrays the region finds. -/
theorem final (c : Dev nD) :
    (dat2 V c).arrAt 4 cfg2.N = comb (V c main_v29_0) (V c main_v39) (V c main_v15) (V c main_v40) :=
  (dat2 V c).arrAt_eq_of_cover 4 _ (fun t _ => flushed_eq V c t) cover

end Cert.KernelIdeal.Combine2

end
-- ==== Proof.Region4.lean ====
/-
  The fifth kernel region: the normalisation `y = (h − mean) · (var + ε)^(−1/2) · γ + β`.

  The node array has 100000 rows; grid point `t` (of 20) holds rows `5000 t … 5000 t + 4999` of the `[100000, 64]`
  input and the whole of each of the four `[1, 64]` rows (mean, variance, scale, shift).  The body is pointwise: at
  row `p` of the block and column `q` it forms `(h[p,q] − mean[0,q]) · rsqrt(var[0,q] + ε) · γ[0,q] + β[0,q]`, with
  `ε` the literal variance offset.  So the output array after the region is that same expression of the WHOLE input
  arrays at every `(r, q)`: point `r / 5000` writes row `r`.
-/
import proofs.«141286_j57346403336483_2_alg».proof.Proof.Gen.KernelIdeal.Frame
import proofs.«141286_j57346403336483_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Norm

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-- The reciprocal square root of a vector of extended reals, read at an index, is that of the entry. -/
theorem rsqrt_apply {s : Shape} {φ : FTy} (a : FVec Ideal s φ) (i : s.Idx) : rsqrt a i = Ideal.rsqrt (a i) := rfl

/-- The body's value at row `p`, column `q` of a block. -/
theorem pay_apply (h : FVec Ideal S5000x64 .f32) (var mean gamma beta : FVec Ideal S1x64 .f32)
    (p : Fin 5000) (q : Fin 64) :
    k4_pay1 (F := Ideal) h var mean gamma beta (ix2 p q)
      = bn1 (h (ix2 p q)) (mean (ix2 (0 : Fin 1) q)) (var (ix2 (0 : Fin 1) q)) (gamma (ix2 (0 : Fin 1) q))
          (beta (ix2 (0 : Fin 1) q)) := by
  unfold k4_pay1 bn1
  simp only [mulf_apply, addf_apply, subf_apply, shapeCast_self]
  rw [broadcastTo_1b_ab_apply, broadcastTo_1b_ab_apply, broadcastTo_1b_ab_apply, broadcastTo_1b_ab_apply]
  simp only [rsqrt_apply, addf_apply, broadcast_apply]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked input and the output move with the point, the four rows
    stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The input's block and the output's block at point `t` sit at the same place of their arrays. -/
theorem emb_main (t : Fin cfg4.N) (p : Fin 5000) (q : Fin 64) :
    ((cfg4.win 0).blk t).view.emb (ix2 p q) = ((cfg4.win 5).blk t).view.emb (ix2 p q) := by
  obtain ⟨e0, e1, e2, e3, e4, e5, e6, e7, e8, e9, e10, e11⟩ := idx_facts t
  have hp : p.val < 5000 := p.isLt
  have hq : q.val < 64 := q.isLt
  funext a; apply Fin.ext
  match a with
  | ⟨0, _⟩ => show win4_0.index t (0 : Fin 2) * 5000 + 1 * p.val = win4_5.index t (0 : Fin 2) * 5000 + 1 * p.val; omega
  | ⟨1, _⟩ => show win4_0.index t (1 : Fin 2) * 64 + 1 * q.val = win4_5.index t (1 : Fin 2) * 64 + 1 * q.val; omega

/-- Row window 1 has one block: its entry `(0, q)` is the array's entry `(0, q)`, with `q` the column the output's
    block puts `(p, q)` at. -/
theorem emb_row1 (t : Fin cfg4.N) (p : Fin 5000) (q : Fin 64) :
    ((cfg4.win 1).blk t).view.emb (ix2 (0 : Fin 1) q)
      = ix2 (0 : Fin 1) (show Fin 64 from (((cfg4.win 5).blk t).view.emb (ix2 p q)) 1) := by
  obtain ⟨e0, e1, e2, e3, e4, e5, e6, e7, e8, e9, e10, e11⟩ := idx_facts t
  have hq : q.val < 64 := q.isLt
  funext a; apply Fin.ext
  match a with
  | ⟨0, _⟩ => show win4_1.index t (0 : Fin 2) * 1 + 1 * 0 = 0; omega
  | ⟨1, _⟩ => show win4_1.index t (1 : Fin 2) * 64 + 1 * q.val = win4_5.index t (1 : Fin 2) * 64 + 1 * q.val; omega

/-- Row window 2 has one block: its entry `(0, q)` is the array's entry `(0, q)`, with `q` the column the output's
    block puts `(p, q)` at. -/
theorem emb_row2 (t : Fin cfg4.N) (p : Fin 5000) (q : Fin 64) :
    ((cfg4.win 2).blk t).view.emb (ix2 (0 : Fin 1) q)
      = ix2 (0 : Fin 1) (show Fin 64 from (((cfg4.win 5).blk t).view.emb (ix2 p q)) 1) := by
  obtain ⟨e0, e1, e2, e3, e4, e5, e6, e7, e8, e9, e10, e11⟩ := idx_facts t
  have hq : q.val < 64 := q.isLt
  funext a; apply Fin.ext
  match a with
  | ⟨0, _⟩ => show win4_2.index t (0 : Fin 2) * 1 + 1 * 0 = 0; omega
  | ⟨1, _⟩ => show win4_2.index t (1 : Fin 2) * 64 + 1 * q.val = win4_5.index t (1 : Fin 2) * 64 + 1 * q.val; omega

/-- Row window 3 has one block: its entry `(0, q)` is the array's entry `(0, q)`, with `q` the column the output's
    block puts `(p, q)` at. -/
theorem emb_row3 (t : Fin cfg4.N) (p : Fin 5000) (q : Fin 64) :
    ((cfg4.win 3).blk t).view.emb (ix2 (0 : Fin 1) q)
      = ix2 (0 : Fin 1) (show Fin 64 from (((cfg4.win 5).blk t).view.emb (ix2 p q)) 1) := by
  obtain ⟨e0, e1, e2, e3, e4, e5, e6, e7, e8, e9, e10, e11⟩ := idx_facts t
  have hq : q.val < 64 := q.isLt
  funext a; apply Fin.ext
  match a with
  | ⟨0, _⟩ => show win4_3.index t (0 : Fin 2) * 1 + 1 * 0 = 0; omega
  | ⟨1, _⟩ => show win4_3.index t (1 : Fin 2) * 64 + 1 * q.val = win4_5.index t (1 : Fin 2) * 64 + 1 * q.val; omega

/-- Row window 4 has one block: its entry `(0, q)` is the array's entry `(0, q)`, with `q` the column the output's
    block puts `(p, q)` at. -/
theorem emb_row4 (t : Fin cfg4.N) (p : Fin 5000) (q : Fin 64) :
    ((cfg4.win 4).blk t).view.emb (ix2 (0 : Fin 1) q)
      = ix2 (0 : Fin 1) (show Fin 64 from (((cfg4.win 5).blk t).view.emb (ix2 p q)) 1) := by
  obtain ⟨e0, e1, e2, e3, e4, e5, e6, e7, e8, e9, e10, e11⟩ := idx_facts t
  have hq : q.val < 64 := q.isLt
  funext a; apply Fin.ext
  match a with
  | ⟨0, _⟩ => show win4_4.index t (0 : Fin 2) * 1 + 1 * 0 = 0; omega
  | ⟨1, _⟩ => show win4_4.index t (1 : Fin 2) * 64 + 1 * q.val = win4_5.index t (1 : Fin 2) * 64 + 1 * q.val; omega

/-- WHAT POINT `t` WRITES BACK is block `t` of the normalisation of the arrays the region finds: row `p` of the
    block is row `5000 t + p` of the row-blocked array, and each of the four rows has one block. -/
theorem flushed_eq (c : Dev nD) (t : Fin cfg4.N) :
    (dat4 V c).flushed 5 t = ((cfg4.win 5).blk t).view.read (Elt Ideal)
      (bnApply (V c main_v41) (V c main_v51) (V c main_v52) (V c main_v53) (V c main_v54)) := by
  show (cfg4.win 5).cut (grid4.coords t) ((dat4 V c).after 5 t) = _
  rw [after4_5]
  unfold out4_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_apply (iblk4 V c 0 t) (iblk4 V c 2 t) (iblk4 V c 1 t) (iblk4 V c 3 t) (iblk4 V c 4 t) p q).trans ?_
  show bn1 (V c main_v41 (((cfg4.win 0).blk t).view.emb (ix2 p q)))
      (V c main_v51 (((cfg4.win 1).blk t).view.emb (ix2 (0 : Fin 1) q)))
      (V c main_v52 (((cfg4.win 2).blk t).view.emb (ix2 (0 : Fin 1) q)))
      (V c main_v53 (((cfg4.win 3).blk t).view.emb (ix2 (0 : Fin 1) q)))
      (V c main_v54 (((cfg4.win 4).blk t).view.emb (ix2 (0 : Fin 1) q)))
    = bn1 (V c main_v41 (((cfg4.win 5).blk t).view.emb (ix2 p q)))
      (V c main_v51 (ix2 (0 : Fin 1) (show Fin 64 from (((cfg4.win 5).blk t).view.emb (ix2 p q)) 1)))
      (V c main_v52 (ix2 (0 : Fin 1) (show Fin 64 from (((cfg4.win 5).blk t).view.emb (ix2 p q)) 1)))
      (V c main_v53 (ix2 (0 : Fin 1) (show Fin 64 from (((cfg4.win 5).blk t).view.emb (ix2 p q)) 1)))
      (V c main_v54 (ix2 (0 : Fin 1) (show Fin 64 from (((cfg4.win 5).blk t).view.emb (ix2 p q)) 1)))
  rw [emb_main t p q, emb_row1 t p q, emb_row2 t p q, emb_row3 t p q, emb_row4 t p q]

/-- An index of the array is in point `t`'s block iff each coordinate is in the block's range on its axis. -/
theorem mem_blk (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v55).slice (win4_5.rect t)).set ↔ _
  rw [View.set_slice_whole, Rect.mem_set_unit]
  exact Iff.rfl

/-- Every row is some point's: row `r` lies in the block of point `r / 5000`. -/
theorem cover (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 20 := N_4
  have hlt : (i 0).val / 5000 < cfg4.N := by rw [hN]; omega
  refine ⟨⟨(i 0).val / 5000, hlt⟩, flush4_5 _, ?_⟩
  rw [mem_blk]
  obtain ⟨-, -, -, -, -, -, -, -, -, -, e10, e11⟩ := idx_facts ⟨(i 0).val / 5000, hlt⟩
  intro a
  match a with
  | ⟨0, _⟩ =>
    show win4_5.index ⟨(i 0).val / 5000, hlt⟩ (0 : Fin 2) * 5000 ≤ (i 0).val
      ∧ (i 0).val < win4_5.index ⟨(i 0).val / 5000, hlt⟩ (0 : Fin 2) * 5000 + 5000
    rw [e10]; show (i 0).val / 5000 * 5000 ≤ (i 0).val ∧ (i 0).val < (i 0).val / 5000 * 5000 + 5000; omega
  | ⟨1, _⟩ =>
    show win4_5.index ⟨(i 0).val / 5000, hlt⟩ (1 : Fin 2) * 64 ≤ (i 1).val
      ∧ (i 1).val < win4_5.index ⟨(i 0).val / 5000, hlt⟩ (1 : Fin 2) * 64 + 64
    rw [e11]; omega

/-- THE ARRAY after the region: the normalisation of the arrays the region finds. -/
theorem final (c : Dev nD) :
    (dat4 V c).arrAt 5 cfg4.N = bnApply (V c main_v41) (V c main_v51) (V c main_v52) (V c main_v53) (V c main_v54) :=
  (dat4 V c).arrAt_eq_of_cover 5 _ (fun t _ => flushed_eq V c t) cover

end Cert.KernelIdeal.Norm

end
-- ==== Proof.Stats.lean ====
/-
  THE BATCH-NORM STATISTICS REGION, AS TWO CLOSED SUMS.

  The region reads a [100000, 64] array `a` in twenty blocks of 5000 rows and carries two [1, 64] blocks from point
  to point: at the first point it stores zeros and adds the block's column sums (of the block, and of its squares);
  at every later point it adds the block's column sums to what the point before left; the last point's blocks are
  written back and are the two result arrays. Over the extended reals this file proves that the results are

      sum[0, j]   = ∑ i : Fin 100000, a (i, j)              (`sum_arr`)
      sumsq[0, j] = ∑ i : Fin 100000, a (i, j) * a (i, j)    (`sumsq_arr`)

  at ANY contents `V` the region is entered with. The steps:
    1. what each case of the body leaves in each carried block is the payload of the blocks (`out_A_1` … `out_B_2`):
       the covering store's payload, its loads reading the whole buffers;
    2. each payload at column `j`: the accumulator there plus a `Fin 5000`-indexed column sum (`pay4_apply`,
       `pay5_apply`: the reduction over the rows is the sum over the row coordinate, the [64] → [1, 64] cast keeps the
       column), and the zero block reads `0` (`pay1_apply`, `pay2_apply`);
    3. block `t` at `(r, j)` is the array at `(5000 t + r, j)` (`iblk_apply`); by induction on the point the carried
       block after point `n` holds the sum over the first `n + 1` blocks of rows (`outs_1`, `outs_2`), and twenty
       blocks of 5000 rows are the 100000 rows (`part_all`, `partSq_all`: only commutativity and associativity of
       the extended reals' addition — no finiteness is used);
    4. the one write-back, at the last point, writes the whole [1, 64] array (`flushed_1`, `final_1`, and the same
       for the second result).
-/
import proofs.«141286_j57346403336483_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Stats

open Cert.KernelIdeal Cert.KernelIdeal.Gen

section Pieces
variable {F : FTy → Type} [FloatOps F]

/-- The zero offsets, however spelt. -/
theorem hz : (![0, 0] : Fin 2 → Nat) = fun _ => 0 := funext fun a => by fin_cases a <;> rfl

/-- Case B (points 1 … 19), running sum: over the buffer holding `xo1` the body leaves the payload
    `k3_pay4` of the input block and `xo1` (its one covering store; the loads read the whole buffers). -/
theorem out_B_1 (c : Dev nD) (i : grid3.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond3_0 i) (x : Vec F S5000x64 .f32) (xo1 xo2 : Vec F S1x64 .f32) :
    out3_B_1 c i a1 h1 a2 h2 a3 h3 hc x xo1 xo2 = k3_pay4 x xo1 := by
  unfold out3_B_1
  rw [View.read_writes_eq_canon _ _ _ (cover3_B_1 c i a1 h1 a2 h2 a3 h3 hc x xo1 xo2)]
  unfold kernelRun3_B
  dsimp only
  sl_unfold_words
  rw [View.canon_unit_zero hz]
  simp only [View.readAt_eq_ld, h1.read_unread, h2.read_unread, View.ld_unit_zero (S := S5000x64) hz,
    View.ld_unit_zero (S := S1x64) hz]

/-- Case B, running sum of squares: the payload `k3_pay5` of the input block and `xo2`. -/
theorem out_B_2 (c : Dev nD) (i : grid3.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond3_0 i) (x : Vec F S5000x64 .f32) (xo1 xo2 : Vec F S1x64 .f32) :
    out3_B_2 c i a1 h1 a2 h2 a3 h3 hc x xo1 xo2 = k3_pay5 x xo2 := by
  unfold out3_B_2
  rw [View.read_writes_eq_canon _ _ _ (cover3_B_2 c i a1 h1 a2 h2 a3 h3 hc x xo1 xo2)]
  unfold kernelRun3_B
  dsimp only
  sl_unfold_words
  rw [View.canon_unit_zero hz]
  simp only [View.readAt_eq_ld, h1.read_unread, h3.read_unread, View.ld_unit_zero (S := S5000x64) hz,
    View.ld_unit_zero (S := S1x64) hz]

/-- Case A (point 0), running sum: the body stores the zero block `k3_pay1`, reads it back, and leaves
    `k3_pay4` of the input block and that zero block. -/
theorem out_A_1 (c : Dev nD) (i : grid3.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond3_0 i) (x : Vec F S5000x64 .f32) :
    out3_A_1 c i a1 h1 a2 h2 a3 h3 hc x = k3_pay4 x k3_pay1 := by
  unfold out3_A_1
  rw [View.read_writes_eq_canon _ _ _ (cover3_A_1 c i a1 h1 a2 h2 a3 h3 hc x)]
  unfold kernelRun3_A
  dsimp only
  sl_unfold_words
  rw [View.canon_cons_unit_zero (S := S1x64) hz, View.readCov_unit_zero (S := S1x64) _ hz]
  simp only [View.readAt_eq_ld, h1.read_unread, View.ld_unit_zero (S := S5000x64) hz]

/-- Case A, running sum of squares: `k3_pay5` of the input block and the zero block `k3_pay2`. -/
theorem out_A_2 (c : Dev nD) (i : grid3.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond3_0 i) (x : Vec F S5000x64 .f32) :
    out3_A_2 c i a1 h1 a2 h2 a3 h3 hc x = k3_pay5 x k3_pay2 := by
  unfold out3_A_2
  rw [View.read_writes_eq_canon _ _ _ (cover3_A_2 c i a1 h1 a2 h2 a3 h3 hc x)]
  unfold kernelRun3_A
  dsimp only
  sl_unfold_words
  rw [View.canon_cons_unit_zero (S := S1x64) hz, View.readCov_unit_zero (S := S1x64) _ hz]
  simp only [View.readAt_eq_ld, h1.read_unread, View.ld_unit_zero (S := S5000x64) hz]

end Pieces

section Payloads

/-- The index a reduction over the rows inserts: row `r` put in front of column `j`. -/
theorem lift_eq (r : Fin 5000) (j : Fin 64) :
    (reduces_S5000x64_S64.lift (ix1 j) r : S5000x64.Idx) = ix2 r j := by
  funext a
  apply Fin.ext
  match a with
  | ⟨0, _⟩ => rfl
  | ⟨1, _⟩ => rfl

/-- The column sums of a block, at column `j`: over the extended reals the reduction over the rows is the
    `Fin`-indexed sum of the column. -/
theorem colsum_apply (v : FVec Ideal S5000x64 .f32) (hφ : FKind.Formats .f32)
    (hacc : (0x00000000#32 : BitVec 32) = FKind.add.neutral .f32 hφ) (j : Fin 64) :
    multiReduction .add [0] S64 v 0x00000000#32 reduces_S5000x64_S64 hφ hacc (ix1 j)
      = ∑ r : Fin 5000, v (ix2 r j) := by
  refine (Ideal.multiReduction_add_single v 0x00000000#32 reduces_S5000x64_S64 hφ hacc (ix1 j)).trans ?_
  exact Finset.sum_congr rfl fun r _ => congrArg v (lift_eq r j)

/-- The running-sum payload at column `j`: the accumulator there plus the block's column sum. -/
theorem pay4_apply (x : Vec Ideal S5000x64 .f32) (acc : Vec Ideal S1x64 .f32) (j : Fin 64) :
    k3_pay4 (F := Ideal) x acc (ix2 (0 : Fin 1) j) = acc (ix2 (0 : Fin 1) j) + ∑ r : Fin 5000, x (ix2 r j) := by
  unfold k3_pay4 k3_pay3
  dsimp only
  rw [shapeCast_self, shapeCast_self]
  refine (addf_apply _ _ _).trans ?_
  refine congrArg (acc (ix2 (0 : Fin 1) j) + ·) ?_
  refine (shapeCast_a_1a_apply _ shapeCasts_S64_S1x64 (0 : Fin 1) j).trans ?_
  exact colsum_apply x _ _ j

/-- The running-sum-of-squares payload at column `j`: the accumulator there plus the column sum of the squares. -/
theorem pay5_apply (x : Vec Ideal S5000x64 .f32) (acc : Vec Ideal S1x64 .f32) (j : Fin 64) :
    k3_pay5 (F := Ideal) x acc (ix2 (0 : Fin 1) j)
      = acc (ix2 (0 : Fin 1) j) + ∑ r : Fin 5000, x (ix2 r j) * x (ix2 r j) := by
  unfold k3_pay5 k3_pay3
  dsimp only
  rw [shapeCast_self, shapeCast_self]
  refine (addf_apply _ _ _).trans ?_
  refine congrArg (acc (ix2 (0 : Fin 1) j) + ·) ?_
  refine (shapeCast_a_1a_apply _ shapeCasts_S64_S1x64 (0 : Fin 1) j).trans ?_
  exact colsum_apply (mulf x x) _ _ j

/-- The zero block the first point stores reads the extended real `0` everywhere. -/
theorem pay1_apply (y : S1x64.Idx) : k3_pay1 (F := Ideal) y = 0 := by
  unfold k3_pay1
  exact Ideal.ofBits_zero_f32

/-- Likewise the zero block of the sum of squares. -/
theorem pay2_apply (y : S1x64.Idx) : k3_pay2 (F := Ideal) y = 0 := by
  unfold k3_pay2
  exact Ideal.ofBits_zero_f32

end Payloads

section Sums

variable (V : (c : Dev nD) → (b : Ref sig .tc) → Buf (Elt Ideal) ((c : Thread nD τ).loc b))

/-- The region's input array, as a function of its index. -/
abbrev arr (c : Dev nD) : S100000x64.Idx → EReal := V c (Pipeline.arrRef spec3 0)

/-- Column `j` of the input array as a function of every natural row number (`0` past the array: never summed). -/
def rowv (c : Dev nD) (j : Fin 64) (i : ℕ) : EReal := if h : i < 100000 then arr V c (ix2 ⟨i, h⟩ j) else 0

theorem rowv_of_lt (c : Dev nD) (j : Fin 64) (i : ℕ) (h : i < 100000) : rowv V c j i = arr V c (ix2 ⟨i, h⟩ j) :=
  dif_pos h

/-- The input window's block index at point `t` is `(t, 0)`: decided over the grid. -/
theorem index3_0 : ∀ t : Fin cfg3.N, win3_0.index t 0 = t.val ∧ win3_0.index t 1 = 0 :=
  (by decide +kernel : ∀ t : Fin grid3.N, win3_0.index t 0 = t.val ∧ win3_0.index t 1 = 0)

/-- Block `t` of the input at `(r, j)` is the array at `(5000 t + r, j)`. -/
theorem iblk_apply (c : Dev nD) (t : Fin cfg3.N) (r : Fin 5000) (j : Fin 64) :
    iblk3 V c 0 t (ix2 r j) = rowv V c j (5000 * t.val + r.val) := by
  have hN : t.val < 20 := lt_of_lt_of_eq t.isLt (show cfg3.N = 20 from N_3)
  have hr : r.val < 5000 := r.isLt
  rw [rowv_of_lt V c j _ (by omega)]
  unfold iblk3
  rw [View.read_apply]
  show V c (Pipeline.arrRef spec3 0) _ = V c (Pipeline.arrRef spec3 0) _
  congr 1
  funext a
  apply Fin.ext
  match a with
  | ⟨0, _⟩ => show win3_0.index t 0 * 5000 + 1 * r.val = 5000 * t.val + r.val; rw [(index3_0 t).1]; omega
  | ⟨1, _⟩ => show win3_0.index t 1 * 64 + 1 * j.val = j.val; rw [(index3_0 t).2]; omega

end Sums

section Fold

variable (V : (c : Dev nD) → (b : Ref sig .tc) → Buf (Elt Ideal) ((c : Thread nD τ).loc b))

/-- A sum over `m * n` consecutive naturals is the sum over `m` runs of `n` (only the commutative monoid's laws). -/
theorem sum_range_mul {M : Type*} [AddCommMonoid M] (f : ℕ → M) (n : ℕ) :
    ∀ m : ℕ, ∑ i ∈ Finset.range (m * n), f i = ∑ t ∈ Finset.range m, ∑ r ∈ Finset.range n, f (n * t + r)
  | 0 => by simp
  | m + 1 => by
    rw [Nat.succ_mul, Finset.sum_range_add, sum_range_mul f n m, Finset.sum_range_succ, Nat.mul_comm n m]

/-- The sum of column `j` over the first `k` blocks of rows. -/
def part (c : Dev nD) (j : Fin 64) (k : ℕ) : EReal :=
  ∑ t ∈ Finset.range k, ∑ r : Fin 5000, rowv V c j (5000 * t + r.val)

/-- The sum of the squares of column `j` over the first `k` blocks of rows. -/
def partSq (c : Dev nD) (j : Fin 64) (k : ℕ) : EReal :=
  ∑ t ∈ Finset.range k, ∑ r : Fin 5000, rowv V c j (5000 * t + r.val) * rowv V c j (5000 * t + r.val)

/-- What the first point leaves in the running sum, at column `j`: the first block's column sum. -/
theorem first_1 (c : Dev nD) (t : Fin cfg3.N) (h0 : t.val % 20 = 0) (j : Fin 64) :
    (outsAt3 V c t.val t.isLt).1 (ix2 (0 : Fin 1) j) = ∑ r : Fin 5000, rowv V c j (5000 * t.val + r.val) := by
  refine (congrArg (fun p : Vec Ideal S1x64 .f32 × Vec Ideal S1x64 .f32 => p.1 (ix2 (0 : Fin 1) j)) (outsAt3_A V c t h0)).trans ?_
  show out3_A_1 c (grid3.coords t) (ms3_0 t) (hs3_0 t) (ms3_1 t) (hs3_1 t) (ms3_2 t) (hs3_2 t) ((hcond3_0 t).mpr h0) (iblk3 V c 0 t) (ix2 (0 : Fin 1) j) = _
  refine (congrFun (out_A_1 c (grid3.coords t) (ms3_0 t) (hs3_0 t) (ms3_1 t) (hs3_1 t) (ms3_2 t) (hs3_2 t) ((hcond3_0 t).mpr h0) (iblk3 V c 0 t)) (ix2 (0 : Fin 1) j)).trans ?_
  refine (pay4_apply (iblk3 V c 0 t) (k3_pay1 (F := Ideal)) j).trans ?_
  rw [pay1_apply, zero_add]
  exact Finset.sum_congr rfl fun r _ => iblk_apply V c t r j

/-- What a later point leaves in the running sum, at column `j`: what the point before left plus its block's column sum. -/
theorem next_1 (c : Dev nD) (t : Fin cfg3.N) (h0 : ¬t.val % 20 = 0) (j : Fin 64) :
    (outsAt3 V c t.val t.isLt).1 (ix2 (0 : Fin 1) j)
      = (outsAt3 V c (t.val - 1) (Nat.lt_of_le_of_lt (Nat.sub_le _ _) t.isLt)).1 (ix2 (0 : Fin 1) j)
        + ∑ r : Fin 5000, rowv V c j (5000 * t.val + r.val) := by
  refine (congrArg (fun p : Vec Ideal S1x64 .f32 × Vec Ideal S1x64 .f32 => p.1 (ix2 (0 : Fin 1) j)) (outsAt3_B V c t h0)).trans ?_
  show out3_B_1 c (grid3.coords t) (ms3_0 t) (hs3_0 t) (ms3_1 t) (hs3_1 t) (ms3_2 t) (hs3_2 t) (fun h => h0 ((hcond3_0 t).mp h)) (iblk3 V c 0 t)
    (outsAt3 V c (t.val - 1) (Nat.lt_of_le_of_lt (Nat.sub_le _ _) t.isLt)).1 (outsAt3 V c (t.val - 1) (Nat.lt_of_le_of_lt (Nat.sub_le _ _) t.isLt)).2 (ix2 (0 : Fin 1) j) = _
  refine (congrFun (out_B_1 c (grid3.coords t) (ms3_0 t) (hs3_0 t) (ms3_1 t) (hs3_1 t) (ms3_2 t) (hs3_2 t) (fun h => h0 ((hcond3_0 t).mp h)) (iblk3 V c 0 t)
    (outsAt3 V c (t.val - 1) (Nat.lt_of_le_of_lt (Nat.sub_le _ _) t.isLt)).1 (outsAt3 V c (t.val - 1) (Nat.lt_of_le_of_lt (Nat.sub_le _ _) t.isLt)).2) (ix2 (0 : Fin 1) j)).trans ?_
  refine (pay4_apply (iblk3 V c 0 t) (outsAt3 V c (t.val - 1) (Nat.lt_of_le_of_lt (Nat.sub_le _ _) t.isLt)).1 j).trans ?_
  exact congrArg (_ + ·) (Finset.sum_congr rfl fun r _ => iblk_apply V c t r j)

/-- The same two steps for the running sum of squares. -/
theorem first_2 (c : Dev nD) (t : Fin cfg3.N) (h0 : t.val % 20 = 0) (j : Fin 64) :
    (outsAt3 V c t.val t.isLt).2 (ix2 (0 : Fin 1) j)
      = ∑ r : Fin 5000, rowv V c j (5000 * t.val + r.val) * rowv V c j (5000 * t.val + r.val) := by
  refine (congrArg (fun p : Vec Ideal S1x64 .f32 × Vec Ideal S1x64 .f32 => p.2 (ix2 (0 : Fin 1) j)) (outsAt3_A V c t h0)).trans ?_
  show out3_A_2 c (grid3.coords t) (ms3_0 t) (hs3_0 t) (ms3_1 t) (hs3_1 t) (ms3_2 t) (hs3_2 t) ((hcond3_0 t).mpr h0) (iblk3 V c 0 t) (ix2 (0 : Fin 1) j) = _
  refine (congrFun (out_A_2 c (grid3.coords t) (ms3_0 t) (hs3_0 t) (ms3_1 t) (hs3_1 t) (ms3_2 t) (hs3_2 t) ((hcond3_0 t).mpr h0) (iblk3 V c 0 t)) (ix2 (0 : Fin 1) j)).trans ?_
  refine (pay5_apply (iblk3 V c 0 t) (k3_pay2 (F := Ideal)) j).trans ?_
  rw [pay2_apply, zero_add]
  exact Finset.sum_congr rfl fun r _ => by rw [iblk_apply V c t r j]

theorem next_2 (c : Dev nD) (t : Fin cfg3.N) (h0 : ¬t.val % 20 = 0) (j : Fin 64) :
    (outsAt3 V c t.val t.isLt).2 (ix2 (0 : Fin 1) j)
      = (outsAt3 V c (t.val - 1) (Nat.lt_of_le_of_lt (Nat.sub_le _ _) t.isLt)).2 (ix2 (0 : Fin 1) j)
        + ∑ r : Fin 5000, rowv V c j (5000 * t.val + r.val) * rowv V c j (5000 * t.val + r.val) := by
  refine (congrArg (fun p : Vec Ideal S1x64 .f32 × Vec Ideal S1x64 .f32 => p.2 (ix2 (0 : Fin 1) j)) (outsAt3_B V c t h0)).trans ?_
  show out3_B_2 c (grid3.coords t) (ms3_0 t) (hs3_0 t) (ms3_1 t) (hs3_1 t) (ms3_2 t) (hs3_2 t) (fun h => h0 ((hcond3_0 t).mp h)) (iblk3 V c 0 t)
    (outsAt3 V c (t.val - 1) (Nat.lt_of_le_of_lt (Nat.sub_le _ _) t.isLt)).1 (outsAt3 V c (t.val - 1) (Nat.lt_of_le_of_lt (Nat.sub_le _ _) t.isLt)).2 (ix2 (0 : Fin 1) j) = _
  refine (congrFun (out_B_2 c (grid3.coords t) (ms3_0 t) (hs3_0 t) (ms3_1 t) (hs3_1 t) (ms3_2 t) (hs3_2 t) (fun h => h0 ((hcond3_0 t).mp h)) (iblk3 V c 0 t)
    (outsAt3 V c (t.val - 1) (Nat.lt_of_le_of_lt (Nat.sub_le _ _) t.isLt)).1 (outsAt3 V c (t.val - 1) (Nat.lt_of_le_of_lt (Nat.sub_le _ _) t.isLt)).2) (ix2 (0 : Fin 1) j)).trans ?_
  refine (pay5_apply (iblk3 V c 0 t) (outsAt3 V c (t.val - 1) (Nat.lt_of_le_of_lt (Nat.sub_le _ _) t.isLt)).2 j).trans ?_
  exact congrArg (_ + ·) (Finset.sum_congr rfl fun r _ => by rw [iblk_apply V c t r j])

/-- THE INVARIANT: after point `n` the running sum holds, at column `j`, the sum of the first `n + 1` blocks of rows —
    by induction on the point. -/
theorem outs_1 (c : Dev nD) (j : Fin 64) : ∀ (n : ℕ) (hn : n < cfg3.N),
    (outsAt3 V c n hn).1 (ix2 (0 : Fin 1) j) = part V c j (n + 1)
  | 0, hn => by
    refine (first_1 V c ⟨0, hn⟩ rfl j).trans ?_
    unfold part
    rw [Finset.sum_range_one]
  | n + 1, hn => by
    have hN : n + 1 < 20 := lt_of_lt_of_eq hn (show cfg3.N = 20 from N_3)
    have hB : ¬(⟨n + 1, hn⟩ : Fin cfg3.N).val % 20 = 0 := by dsimp only; omega
    refine (next_1 V c ⟨n + 1, hn⟩ hB j).trans ?_
    show (outsAt3 V c n _).1 (ix2 (0 : Fin 1) j) + _ = _
    rw [outs_1 c j n]
    unfold part
    rw [Finset.sum_range_succ _ (n + 1)]

theorem outs_2 (c : Dev nD) (j : Fin 64) : ∀ (n : ℕ) (hn : n < cfg3.N),
    (outsAt3 V c n hn).2 (ix2 (0 : Fin 1) j) = partSq V c j (n + 1)
  | 0, hn => by
    refine (first_2 V c ⟨0, hn⟩ rfl j).trans ?_
    unfold partSq
    rw [Finset.sum_range_one]
  | n + 1, hn => by
    have hN : n + 1 < 20 := lt_of_lt_of_eq hn (show cfg3.N = 20 from N_3)
    have hB : ¬(⟨n + 1, hn⟩ : Fin cfg3.N).val % 20 = 0 := by dsimp only; omega
    refine (next_2 V c ⟨n + 1, hn⟩ hB j).trans ?_
    show (outsAt3 V c n _).2 (ix2 (0 : Fin 1) j) + _ = _
    rw [outs_2 c j n]
    unfold partSq
    rw [Finset.sum_range_succ _ (n + 1)]

/-- All twenty blocks of rows are the whole column. -/
theorem part_all (c : Dev nD) (j : Fin 64) : part V c j 20 = ∑ i : Fin 100000, arr V c (ix2 i j) := by
  unfold part
  have e : ∀ t : ℕ, ∑ r : Fin 5000, rowv V c j (5000 * t + r.val) = ∑ r ∈ Finset.range 5000, rowv V c j (5000 * t + r) :=
    fun t => Fin.sum_univ_eq_sum_range (fun r => rowv V c j (5000 * t + r)) 5000
  rw [Finset.sum_congr rfl fun t _ => e t, ← sum_range_mul (rowv V c j) 5000 20,
    ← Fin.sum_univ_eq_sum_range (rowv V c j) (20 * 5000)]
  exact Finset.sum_congr rfl fun i _ => rowv_of_lt V c j i.val i.isLt

theorem partSq_all (c : Dev nD) (j : Fin 64) :
    partSq V c j 20 = ∑ i : Fin 100000, arr V c (ix2 i j) * arr V c (ix2 i j) := by
  unfold partSq
  have e : ∀ t : ℕ, ∑ r : Fin 5000, rowv V c j (5000 * t + r.val) * rowv V c j (5000 * t + r.val)
      = ∑ r ∈ Finset.range 5000, rowv V c j (5000 * t + r) * rowv V c j (5000 * t + r) :=
    fun t => Fin.sum_univ_eq_sum_range (fun r => rowv V c j (5000 * t + r) * rowv V c j (5000 * t + r)) 5000
  rw [Finset.sum_congr rfl fun t _ => e t, ← sum_range_mul (fun i => rowv V c j i * rowv V c j i) 5000 20,
    ← Fin.sum_univ_eq_sum_range (fun i => rowv V c j i * rowv V c j i) (20 * 5000)]
  exact Finset.sum_congr rfl fun i _ => by rw [rowv_of_lt V c j i.val i.isLt]

end Fold

section Final

variable (V : (c : Dev nD) → (b : Ref sig .tc) → Buf (Elt Ideal) ((c : Thread nD τ).loc b))

/-- The column sums of the input array, as a [1, 64] block. -/
def colSum (c : Dev nD) : S1x64.Idx → EReal := fun y => ∑ i : Fin 100000, arr V c (ix2 i (y 1))

/-- The column sums of the squares of the input array, as a [1, 64] block. -/
def colSumSq (c : Dev nD) : S1x64.Idx → EReal := fun y => ∑ i : Fin 100000, arr V c (ix2 i (y 1)) * arr V c (ix2 i (y 1))

/-- The two result windows' block index is `(0, 0)` at every point: decided over the grid. -/
theorem index3_1 : ∀ t : Fin cfg3.N, win3_1.index t 0 = 0 ∧ win3_1.index t 1 = 0 :=
  (by decide +kernel : ∀ t : Fin grid3.N, win3_1.index t 0 = 0 ∧ win3_1.index t 1 = 0)
theorem index3_2 : ∀ t : Fin cfg3.N, win3_2.index t 0 = 0 ∧ win3_2.index t 1 = 0 :=
  (by decide +kernel : ∀ t : Fin grid3.N, win3_2.index t 0 = 0 ∧ win3_2.index t 1 = 0)

/-- After the last point the running sum is the column sums. -/
theorem last_1 (c : Dev nD) (t : Fin cfg3.N) (h19 : t.val = 19) : (outsAt3 V c t.val t.isLt).1 = colSum V c := by
  funext y
  obtain ⟨u, j, rfl⟩ : ∃ (u : Fin 1) (j : Fin 64), y = ix2 u j := ⟨y 0, y 1, eq_ix2 y⟩
  obtain rfl : u = 0 := Subsingleton.elim _ _
  refine (outs_1 V c j t.val t.isLt).trans ?_
  rw [h19]
  exact part_all V c j

theorem last_2 (c : Dev nD) (t : Fin cfg3.N) (h19 : t.val = 19) : (outsAt3 V c t.val t.isLt).2 = colSumSq V c := by
  funext y
  obtain ⟨u, j, rfl⟩ : ∃ (u : Fin 1) (j : Fin 64), y = ix2 u j := ⟨y 0, y 1, eq_ix2 y⟩
  obtain rfl : u = 0 := Subsingleton.elim _ _
  refine (outs_2 V c j t.val t.isLt).trans ?_
  rw [h19]
  exact partSq_all V c j

/-- The column sums as contents of the first result array (its one block is the array). -/
abbrev result1 (c : Dev nD) : Buf (Elt Ideal) ((c : Thread nD τ).loc main_v42_0) := colSum V c
abbrev result2 (c : Dev nD) : Buf (Elt Ideal) ((c : Thread nD τ).loc main_v42_1) := colSumSq V c

/-- The one write-back of the first result, at the last point, writes the column sums: block (0, 0) of the [1, 64] array
    read through zero offsets is the array. -/
theorem flushed_1 (c : Dev nD) (t : Fin cfg3.N) (hf : (cfg3.win 1).flush t = true) :
    (dat3 V c).flushed 1 t = ((cfg3.win 1).blk t).view.read (Elt Ideal) (result1 V c) := by
  have hN : t.val < 20 := lt_of_lt_of_eq t.isLt (show cfg3.N = 20 from N_3)
  have h19 : t.val = 19 := by have := (flush3_1 t).mp hf; omega
  show (cfg3.win 1).cut (grid3.coords t) ((dat3 V c).after 1 t) = _
  rw [after3_1, last_1 V c t h19]
  have hz' : (fun a => win3_1.index t a * main_v42_0.ty.shape.size a) = fun _ => 0 := funext fun a => by
    match a with
    | ⟨0, _⟩ => show win3_1.index t 0 * _ = 0; rw [(index3_1 t).1, Nat.zero_mul]
    | ⟨1, _⟩ => show win3_1.index t 1 * _ = 0; rw [(index3_1 t).2, Nat.zero_mul]
  exact (Memref.read_access_unit_zero (Elt Ideal) main_v42_0 hz' (fun a => by rw [congrFun hz' a]; simp) (result1 V c)).symm

theorem flushed_2 (c : Dev nD) (t : Fin cfg3.N) (hf : (cfg3.win 2).flush t = true) :
    (dat3 V c).flushed 2 t = ((cfg3.win 2).blk t).view.read (Elt Ideal) (result2 V c) := by
  have hN : t.val < 20 := lt_of_lt_of_eq t.isLt (show cfg3.N = 20 from N_3)
  have h19 : t.val = 19 := by have := (flush3_2 t).mp hf; omega
  show (cfg3.win 2).cut (grid3.coords t) ((dat3 V c).after 2 t) = _
  rw [after3_2, last_2 V c t h19]
  have hz' : (fun a => win3_2.index t a * main_v42_1.ty.shape.size a) = fun _ => 0 := funext fun a => by
    match a with
    | ⟨0, _⟩ => show win3_2.index t 0 * _ = 0; rw [(index3_2 t).1, Nat.zero_mul]
    | ⟨1, _⟩ => show win3_2.index t 1 * _ = 0; rw [(index3_2 t).2, Nat.zero_mul]
  exact (Memref.read_access_unit_zero (Elt Ideal) main_v42_1 hz' (fun a => by rw [congrFun hz' a]; simp) (result2 V c)).symm

end Final

section Arrays

variable (V : (c : Dev nD) → (b : Ref sig .tc) → Buf (Elt Ideal) ((c : Thread nD τ).loc b))

/-- The last point: the one whose block is written back. -/
abbrev tLast : Fin cfg3.N := ⟨19, by rw [show cfg3.N = 20 from N_3]; decide⟩

/-- So the first result array ends holding the column sums (the last point's block covers it). -/
theorem final_1 (c : Dev nD) : (dat3 V c).arrAt 1 cfg3.N = result1 V c :=
  (dat3 V c).arrAt_eq_of_cover 1 (result1 V c) (flushed_1 V c) fun i =>
    ⟨tLast, (flush3_1 tLast).mpr rfl, by
      show i ∈ ((View.whole main_v42_0).slice (win3_1.rect tLast)).set
      rw [View.set_slice_whole, Rect.mem_set_unit]
      intro a
      have h0 : (i 0 : Nat) < 1 := (i 0).isLt
      have h1 : (i 1 : Nat) < 64 := (i 1).isLt
      match a with
      | ⟨0, _⟩ => show win3_1.index tLast 0 * win3_1.size 0 ≤ (i 0 : Nat) ∧ (i 0 : Nat) < win3_1.index tLast 0 * win3_1.size 0 + win3_1.xsize (grid3.coords tLast) 0
                  rw [show win3_1.index tLast 0 * win3_1.size 0 = 0 from by decide +kernel, show win3_1.xsize (grid3.coords tLast) 0 = 1 from by decide +kernel]; omega
      | ⟨1, _⟩ => show win3_1.index tLast 1 * win3_1.size 1 ≤ (i 1 : Nat) ∧ (i 1 : Nat) < win3_1.index tLast 1 * win3_1.size 1 + win3_1.xsize (grid3.coords tLast) 1
                  rw [show win3_1.index tLast 1 * win3_1.size 1 = 0 from by decide +kernel, show win3_1.xsize (grid3.coords tLast) 1 = 64 from by decide +kernel]; omega⟩

/-- and the second the column sums of the squares. -/
theorem final_2 (c : Dev nD) : (dat3 V c).arrAt 2 cfg3.N = result2 V c :=
  (dat3 V c).arrAt_eq_of_cover 2 (result2 V c) (flushed_2 V c) fun i =>
    ⟨tLast, (flush3_2 tLast).mpr rfl, by
      show i ∈ ((View.whole main_v42_1).slice (win3_2.rect tLast)).set
      rw [View.set_slice_whole, Rect.mem_set_unit]
      intro a
      have h0 : (i 0 : Nat) < 1 := (i 0).isLt
      have h1 : (i 1 : Nat) < 64 := (i 1).isLt
      match a with
      | ⟨0, _⟩ => show win3_2.index tLast 0 * win3_2.size 0 ≤ (i 0 : Nat) ∧ (i 0 : Nat) < win3_2.index tLast 0 * win3_2.size 0 + win3_2.xsize (grid3.coords tLast) 0
                  rw [show win3_2.index tLast 0 * win3_2.size 0 = 0 from by decide +kernel, show win3_2.xsize (grid3.coords tLast) 0 = 1 from by decide +kernel]; omega
      | ⟨1, _⟩ => show win3_2.index tLast 1 * win3_2.size 1 ≤ (i 1 : Nat) ∧ (i 1 : Nat) < win3_2.index tLast 1 * win3_2.size 1 + win3_2.xsize (grid3.coords tLast) 1
                  rw [show win3_2.index tLast 1 * win3_2.size 1 = 0 from by decide +kernel, show win3_2.xsize (grid3.coords tLast) 1 = 64 from by decide +kernel]; omega⟩

/-- THE STATISTICS REGION'S FIRST RESULT: at column `y 1`, the sum of that column of the region's input array over all
    100000 rows — a closed sum over the extended reals, at any contents `V` the region is entered with. -/
theorem sum_arr (c : Dev nD) :
    (dat3 (F := Ideal) V c).arrAt 1 cfg3.N
      = (fun y => ∑ i : Fin 100000, arr V c (ix2 i (y 1)) : S1x64.Idx → EReal) :=
  final_1 V c

/-- THE SECOND RESULT: at column `y 1`, the sum of the squares of that column over all 100000 rows. -/
theorem sumsq_arr (c : Dev nD) :
    (dat3 (F := Ideal) V c).arrAt 2 cfg3.N
      = (fun y => ∑ i : Fin 100000, arr V c (ix2 i (y 1)) * arr V c (ix2 i (y 1)) : S1x64.Idx → EReal) :=
  final_2 V c

/-- The same two, read at a column `j` (the unit row coordinate `u` is `0`). -/
theorem sum_arr_apply (c : Dev nD) (u : Fin 1) (j : Fin 64) :
    (dat3 (F := Ideal) V c).arrAt 1 cfg3.N (ix2 u j) = ∑ i : Fin 100000, arr V c (ix2 i j) :=
  congrFun (final_1 V c) (ix2 u j)

theorem sumsq_arr_apply (c : Dev nD) (u : Fin 1) (j : Fin 64) :
    (dat3 (F := Ideal) V c).arrAt 2 cfg3.N (ix2 u j) = ∑ i : Fin 100000, arr V c (ix2 i j) * arr V c (ix2 i j) :=
  congrFun (final_2 V c) (ix2 u j)

end Arrays

end Cert.KernelIdeal.Stats

end
-- ==== Proof.Fold.lean ====
/-
  The kernel program's result buffer, read back to the arguments.

  The buffer contents at the boundaries of @main's thirteen segments are a fold from the launch memory: a host
  stretch applies its operations, a region replaces each of its output arrays by what its write-backs leave and keeps
  every other buffer.  Walking the fold forward: at the first region's entry the scales and the bias row are the host's
  terms and every argument is as launched; the region leaves the input layer and its pre-scaled linear map; the next
  stretch aggregates the latter along the edges; the second region combines and maps again; the third combines; the
  fourth sums the columns of the result and of its squares; the last stretch forms the mean and the variance as rows;
  the fifth region normalises.  So after the run the result buffer holds `KSpec.out` of the eleven arguments.
-/
import proofs.«141286_j57346403336483_2_alg».proof.Proof.Gen.KernelIdeal.Frame
import proofs.«141286_j57346403336483_2_alg».proof.Proof.KSpec
import proofs.«141286_j57346403336483_2_alg».proof.Proof.Fold0
import proofs.«141286_j57346403336483_2_alg».proof.Proof.FoldStages
import proofs.«141286_j57346403336483_2_alg».proof.Proof.Region0
import proofs.«141286_j57346403336483_2_alg».proof.Proof.Region1
import proofs.«141286_j57346403336483_2_alg».proof.Proof.Region2
import proofs.«141286_j57346403336483_2_alg».proof.Proof.Region4
import proofs.«141286_j57346403336483_2_alg».proof.Proof.Stats
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.Spec Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg) (c : Dev nD)

/-! ## The first region's entry -/

theorem degOut_2 : W2 m ρ c (Proc.devRef .tc main_v4) = KSpec.deg (m ((c : Thread nD τ).loc main_arg0)) := degOut_stage (W0 m ρ c)
theorem ones_2 : W2 m ρ c (Proc.devRef .tc main_v0) = KSpec.ones := ones_stage (W0 m ρ c)
theorem arg1_2 : W2 m ρ c (Proc.devRef .tc main_arg1) = (m ((c : Thread nD τ).loc main_arg1)) := keepA_main_arg1 (W0 m ρ c)

theorem degIn_4 : W4 m ρ c (Proc.devRef .tc main_v8) = KSpec.deg (m ((c : Thread nD τ).loc main_arg1)) := by
  refine (degIn_stage (W2 m ρ c)).trans ?_
  rw [arg1_2, ones_2]
  rfl
theorem degOut_4 : W4 m ρ c (Proc.devRef .tc main_v4) = KSpec.deg (m ((c : Thread nD τ).loc main_arg0)) := (degOut_kept (W2 m ρ c)).trans (degOut_2 m ρ c)
theorem arg4_4 : W4 m ρ c (Proc.devRef .tc main_arg4) = (m ((c : Thread nD τ).loc main_arg4)) := keepAB_main_arg4 (W0 m ρ c)

theorem scales_5 : W5 m ρ c (Proc.devRef .tc main_v15) = (KSpec.scales (m ((c : Thread nD τ).loc main_arg0)) (m ((c : Thread nD τ).loc main_arg1))) := by
  refine (scales_stage (W4 m ρ c)).trans ?_
  rw [degIn_4, degOut_4]
  rfl
theorem bias_5 : W5 m ρ c (Proc.devRef .tc main_v16) = KSpec.row (m ((c : Thread nD τ).loc main_arg4)) := by
  refine (bias_stage (W4 m ρ c)).trans ?_
  rw [arg4_4]
theorem arg0_5 : W5 m ρ c (Proc.devRef .tc main_arg0) = (m ((c : Thread nD τ).loc main_arg0)) := keep5_main_arg0 (W0 m ρ c)
theorem arg1_5 : W5 m ρ c (Proc.devRef .tc main_arg1) = (m ((c : Thread nD τ).loc main_arg1)) := keep5_main_arg1 (W0 m ρ c)
theorem arg2_5 : W5 m ρ c (Proc.devRef .tc main_arg2) = (m ((c : Thread nD τ).loc main_arg2)) := keep5_main_arg2 (W0 m ρ c)
theorem arg3_5 : W5 m ρ c (Proc.devRef .tc main_arg3) = (m ((c : Thread nD τ).loc main_arg3)) := keep5_main_arg3 (W0 m ρ c)
theorem arg5_5 : W5 m ρ c (Proc.devRef .tc main_arg5) = (m ((c : Thread nD τ).loc main_arg5)) := keep5_main_arg5 (W0 m ρ c)
theorem arg6_5 : W5 m ρ c (Proc.devRef .tc main_arg6) = (m ((c : Thread nD τ).loc main_arg6)) := keep5_main_arg6 (W0 m ρ c)
theorem arg7_5 : W5 m ρ c (Proc.devRef .tc main_arg7) = (m ((c : Thread nD τ).loc main_arg7)) := keep5_main_arg7 (W0 m ρ c)
theorem arg8_5 : W5 m ρ c (Proc.devRef .tc main_arg8) = (m ((c : Thread nD τ).loc main_arg8)) := keep5_main_arg8 (W0 m ρ c)
theorem arg9_5 : W5 m ρ c (Proc.devRef .tc main_arg9) = (m ((c : Thread nD τ).loc main_arg9)) := keep5_main_arg9 (W0 m ρ c)
theorem arg10_5 : W5 m ρ c (Proc.devRef .tc main_arg10) = (m ((c : Thread nD τ).loc main_arg10)) := keep5_main_arg10 (W0 m ρ c)

/-! ## The first region: the input layer and its pre-scaled linear map -/

theorem h0_6 : W6 m ρ c (Proc.devRef .tc main_v17_0) = (KSpec.h0 (m ((c : Thread nD τ).loc main_arg2)) (m ((c : Thread nD τ).loc main_arg3)) (m ((c : Thread nD τ).loc main_arg4))) := by
  refine (W6_arr m ρ c 5).trans ((FcLin.final5 (V5 m ρ) c).trans ?_)
  show lin (W5 m ρ c (Proc.devRef .tc main_arg2)) (W5 m ρ c (Proc.devRef .tc main_arg3)) (W5 m ρ c (Proc.devRef .tc main_v16)) = _
  rw [arg2_5, arg3_5, bias_5]
  rfl
theorem hw1_6 : W6 m ρ c (Proc.devRef .tc main_v17_1) = linScaled (KSpec.h0 (m ((c : Thread nD τ).loc main_arg2)) (m ((c : Thread nD τ).loc main_arg3)) (m ((c : Thread nD τ).loc main_arg4))) (m ((c : Thread nD τ).loc main_arg5)) (KSpec.scales (m ((c : Thread nD τ).loc main_arg0)) (m ((c : Thread nD τ).loc main_arg1))) := by
  refine (W6_arr m ρ c 6).trans ((FcLin.final6 (V5 m ρ) c).trans ?_)
  show linScaled (lin (W5 m ρ c (Proc.devRef .tc main_arg2)) (W5 m ρ c (Proc.devRef .tc main_arg3)) (W5 m ρ c (Proc.devRef .tc main_v16)))
    (W5 m ρ c (Proc.devRef .tc main_arg5)) (W5 m ρ c (Proc.devRef .tc main_v15)) = _
  rw [arg2_5, arg3_5, bias_5, arg5_5, scales_5]
  rfl
theorem scales_6 : W6 m ρ c (Proc.devRef .tc main_v15) = (KSpec.scales (m ((c : Thread nD τ).loc main_arg0)) (m ((c : Thread nD τ).loc main_arg1))) :=
  (W6_arr m ρ c 4).trans (((dat0 (V5 m ρ) c).arrAt_in 4 rfl _).trans ((A_eq0 (V5 m ρ) c 4).trans (scales_5 m ρ c)))
theorem arg0_6 : W6 m ρ c (Proc.devRef .tc main_arg0) = (m ((c : Thread nD τ).loc main_arg0)) := (W6_of_ne m ρ c main_arg0 (by decide)).trans (arg0_5 m ρ c)
theorem arg1_6 : W6 m ρ c (Proc.devRef .tc main_arg1) = (m ((c : Thread nD τ).loc main_arg1)) := (W6_of_ne m ρ c main_arg1 (by decide)).trans (arg1_5 m ρ c)
theorem arg6_6 : W6 m ρ c (Proc.devRef .tc main_arg6) = (m ((c : Thread nD τ).loc main_arg6)) := (W6_of_ne m ρ c main_arg6 (by decide)).trans (arg6_5 m ρ c)
theorem arg7_6 : W6 m ρ c (Proc.devRef .tc main_arg7) = (m ((c : Thread nD τ).loc main_arg7)) := (W6_of_ne m ρ c main_arg7 (by decide)).trans (arg7_5 m ρ c)
theorem arg8_6 : W6 m ρ c (Proc.devRef .tc main_arg8) = (m ((c : Thread nD τ).loc main_arg8)) := (W6_of_ne m ρ c main_arg8 (by decide)).trans (arg8_5 m ρ c)
theorem arg9_6 : W6 m ρ c (Proc.devRef .tc main_arg9) = (m ((c : Thread nD τ).loc main_arg9)) := (W6_of_ne m ρ c main_arg9 (by decide)).trans (arg9_5 m ρ c)
theorem arg10_6 : W6 m ρ c (Proc.devRef .tc main_arg10) = (m ((c : Thread nD τ).loc main_arg10)) := (W6_of_ne m ρ c main_arg10 (by decide)).trans (arg10_5 m ρ c)

/-! ## The first aggregation, the second region -/

theorem h0_7 : W7 m ρ c (Proc.devRef .tc main_v17_0) = (KSpec.h0 (m ((c : Thread nD τ).loc main_arg2)) (m ((c : Thread nD τ).loc main_arg3)) (m ((c : Thread nD τ).loc main_arg4))) := (keep1_main_v17_0 (W6 m ρ c)).trans (h0_6 m ρ c)
theorem agg1_7 : W7 m ρ c (Proc.devRef .tc main_v27) = KSpec.agg (m ((c : Thread nD τ).loc main_arg0)) (m ((c : Thread nD τ).loc main_arg1)) (linScaled (KSpec.h0 (m ((c : Thread nD τ).loc main_arg2)) (m ((c : Thread nD τ).loc main_arg3)) (m ((c : Thread nD τ).loc main_arg4))) (m ((c : Thread nD τ).loc main_arg5)) (KSpec.scales (m ((c : Thread nD τ).loc main_arg0)) (m ((c : Thread nD τ).loc main_arg1)))) := by
  refine (agg1_stage (W6 m ρ c)).trans ?_
  rw [arg0_6, arg1_6, hw1_6]
theorem scales_7 : W7 m ρ c (Proc.devRef .tc main_v15) = (KSpec.scales (m ((c : Thread nD τ).loc main_arg0)) (m ((c : Thread nD τ).loc main_arg1))) := (keep1_main_v15 (W6 m ρ c)).trans (scales_6 m ρ c)
theorem bias1_7 : W7 m ρ c (Proc.devRef .tc main_v28) = KSpec.row (m ((c : Thread nD τ).loc main_arg6)) := by
  refine (bias1_stage (W6 m ρ c)).trans ?_
  rw [arg6_6]
theorem arg7_7 : W7 m ρ c (Proc.devRef .tc main_arg7) = (m ((c : Thread nD τ).loc main_arg7)) := (keep1_main_arg7 (W6 m ρ c)).trans (arg7_6 m ρ c)
theorem arg0_7 : W7 m ρ c (Proc.devRef .tc main_arg0) = (m ((c : Thread nD τ).loc main_arg0)) := (keep1_main_arg0 (W6 m ρ c)).trans (arg0_6 m ρ c)
theorem arg1_7 : W7 m ρ c (Proc.devRef .tc main_arg1) = (m ((c : Thread nD τ).loc main_arg1)) := (keep1_main_arg1 (W6 m ρ c)).trans (arg1_6 m ρ c)
theorem arg8_7 : W7 m ρ c (Proc.devRef .tc main_arg8) = (m ((c : Thread nD τ).loc main_arg8)) := (keep1_main_arg8 (W6 m ρ c)).trans (arg8_6 m ρ c)
theorem arg9_7 : W7 m ρ c (Proc.devRef .tc main_arg9) = (m ((c : Thread nD τ).loc main_arg9)) := (keep1_main_arg9 (W6 m ρ c)).trans (arg9_6 m ρ c)
theorem arg10_7 : W7 m ρ c (Proc.devRef .tc main_arg10) = (m ((c : Thread nD τ).loc main_arg10)) := (keep1_main_arg10 (W6 m ρ c)).trans (arg10_6 m ρ c)

theorem h1_8 : W8 m ρ c (Proc.devRef .tc main_v29_0) = (KSpec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W8_arr m ρ c 5).trans ((Combine1.final5 (V7 m ρ) c).trans ?_)
  show comb (W7 m ρ c (Proc.devRef .tc main_v17_0)) (W7 m ρ c (Proc.devRef .tc main_v27)) (W7 m ρ c (Proc.devRef .tc main_v15)) (W7 m ρ c (Proc.devRef .tc main_v28)) = _
  rw [h0_7, agg1_7, scales_7, bias1_7]
  rfl
theorem hw2_8 : W8 m ρ c (Proc.devRef .tc main_v29_1) = linScaled (KSpec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (KSpec.scales (m ((c : Thread nD τ).loc main_arg0)) (m ((c : Thread nD τ).loc main_arg1))) := by
  refine (W8_arr m ρ c 6).trans ((Combine1.final6 (V7 m ρ) c).trans ?_)
  show linScaled (comb (W7 m ρ c (Proc.devRef .tc main_v17_0)) (W7 m ρ c (Proc.devRef .tc main_v27)) (W7 m ρ c (Proc.devRef .tc main_v15)) (W7 m ρ c (Proc.devRef .tc main_v28)))
    (W7 m ρ c (Proc.devRef .tc main_arg7)) (W7 m ρ c (Proc.devRef .tc main_v15)) = _
  rw [h0_7, agg1_7, scales_7, bias1_7, arg7_7]
  rfl
theorem scales_8 : W8 m ρ c (Proc.devRef .tc main_v15) = (KSpec.scales (m ((c : Thread nD τ).loc main_arg0)) (m ((c : Thread nD τ).loc main_arg1))) :=
  (W8_arr m ρ c 2).trans (((dat1 (V7 m ρ) c).arrAt_in 2 rfl _).trans ((A_eq1 (V7 m ρ) c 2).trans (scales_7 m ρ c)))
theorem arg0_8 : W8 m ρ c (Proc.devRef .tc main_arg0) = (m ((c : Thread nD τ).loc main_arg0)) := (W8_of_ne m ρ c main_arg0 (by decide)).trans (arg0_7 m ρ c)
theorem arg1_8 : W8 m ρ c (Proc.devRef .tc main_arg1) = (m ((c : Thread nD τ).loc main_arg1)) := (W8_of_ne m ρ c main_arg1 (by decide)).trans (arg1_7 m ρ c)
theorem arg8_8 : W8 m ρ c (Proc.devRef .tc main_arg8) = (m ((c : Thread nD τ).loc main_arg8)) := (W8_of_ne m ρ c main_arg8 (by decide)).trans (arg8_7 m ρ c)
theorem arg9_8 : W8 m ρ c (Proc.devRef .tc main_arg9) = (m ((c : Thread nD τ).loc main_arg9)) := (W8_of_ne m ρ c main_arg9 (by decide)).trans (arg9_7 m ρ c)
theorem arg10_8 : W8 m ρ c (Proc.devRef .tc main_arg10) = (m ((c : Thread nD τ).loc main_arg10)) := (W8_of_ne m ρ c main_arg10 (by decide)).trans (arg10_7 m ρ c)

/-! ## The second aggregation, the third region -/

theorem h1_9 : W9 m ρ c (Proc.devRef .tc main_v29_0) = (KSpec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := (keep2_main_v29_0 (W8 m ρ c)).trans (h1_8 m ρ c)
theorem agg2_9 : W9 m ρ c (Proc.devRef .tc main_v39) = KSpec.agg (m ((c : Thread nD τ).loc main_arg0)) (m ((c : Thread nD τ).loc main_arg1)) (linScaled (KSpec.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (KSpec.scales (m ((c : Thread nD τ).loc main_arg0)) (m ((c : Thread nD τ).loc main_arg1)))) := by
  refine (agg2_stage (W8 m ρ c)).trans ?_
  rw [arg0_8, arg1_8, hw2_8]
theorem scales_9 : W9 m ρ c (Proc.devRef .tc main_v15) = (KSpec.scales (m ((c : Thread nD τ).loc main_arg0)) (m ((c : Thread nD τ).loc main_arg1))) := (keep2_main_v15 (W8 m ρ c)).trans (scales_8 m ρ c)
theorem bias2_9 : W9 m ρ c (Proc.devRef .tc main_v40) = KSpec.row (m ((c : Thread nD τ).loc main_arg8)) := by
  refine (bias2_stage (W8 m ρ c)).trans ?_
  rw [arg8_8]
theorem arg9_9 : W9 m ρ c (Proc.devRef .tc main_arg9) = (m ((c : Thread nD τ).loc main_arg9)) := (keep2_main_arg9 (W8 m ρ c)).trans (arg9_8 m ρ c)
theorem arg10_9 : W9 m ρ c (Proc.devRef .tc main_arg10) = (m ((c : Thread nD τ).loc main_arg10)) := (keep2_main_arg10 (W8 m ρ c)).trans (arg10_8 m ρ c)

theorem h2_10 : W10 m ρ c (Proc.devRef .tc main_v41) = (KSpec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W10_arr m ρ c 4).trans ((Combine2.final (V9 m ρ) c).trans ?_)
  show comb (W9 m ρ c (Proc.devRef .tc main_v29_0)) (W9 m ρ c (Proc.devRef .tc main_v39)) (W9 m ρ c (Proc.devRef .tc main_v15)) (W9 m ρ c (Proc.devRef .tc main_v40)) = _
  rw [h1_9, agg2_9, scales_9, bias2_9]
  rfl
theorem arg9_10 : W10 m ρ c (Proc.devRef .tc main_arg9) = (m ((c : Thread nD τ).loc main_arg9)) := (W10_of_ne m ρ c main_arg9 (by decide)).trans (arg9_9 m ρ c)
theorem arg10_10 : W10 m ρ c (Proc.devRef .tc main_arg10) = (m ((c : Thread nD τ).loc main_arg10)) := (W10_of_ne m ρ c main_arg10 (by decide)).trans (arg10_9 m ρ c)

/-! ## The statistics, the last stretch, the normalisation -/

theorem h2_11 : W11 m ρ c (Proc.devRef .tc main_v41) = (KSpec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W11_arr m ρ c 0).trans (((dat3 (V10 m ρ) c).arrAt_in 0 rfl _).trans ((A_eq3 (V10 m ρ) c 0).trans (h2_10 m ρ c)))
theorem stats_arr : Stats.arr (V10 m ρ) c = (KSpec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := h2_10 m ρ c
theorem sum_11 : W11 m ρ c (Proc.devRef .tc main_v42_0) = colSum (KSpec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W11_arr m ρ c 1).trans ((Stats.sum_arr (V10 m ρ) c).trans ?_)
  rw [stats_arr]
  rfl
theorem sumsq_11 : W11 m ρ c (Proc.devRef .tc main_v42_1) = colSumSq (KSpec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W11_arr m ρ c 2).trans ((Stats.sumsq_arr (V10 m ρ) c).trans ?_)
  rw [stats_arr]
  rfl
theorem arg9_11 : W11 m ρ c (Proc.devRef .tc main_arg9) = (m ((c : Thread nD τ).loc main_arg9)) := (W11_of_ne m ρ c main_arg9 (by decide)).trans (arg9_10 m ρ c)
theorem arg10_11 : W11 m ρ c (Proc.devRef .tc main_arg10) = (m ((c : Thread nD τ).loc main_arg10)) := (W11_of_ne m ρ c main_arg10 (by decide)).trans (arg10_10 m ρ c)

theorem h2_12 : W12 m ρ c (Proc.devRef .tc main_v41) = (KSpec.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := (keep4_main_v41 (W11 m ρ c)).trans (h2_11 m ρ c)
theorem mean_12 : W12 m ρ c (Proc.devRef .tc main_v51) = KSpec.row (KSpec.mean (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (mean_stage (W11 m ρ c)).trans ?_
  rw [sum_11]
  rfl
theorem var_12 : W12 m ρ c (Proc.devRef .tc main_v52) = KSpec.row (KSpec.var (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (var_stage (W11 m ρ c)).trans ?_
  rw [sum_11, sumsq_11]
  rfl
theorem gamma_12 : W12 m ρ c (Proc.devRef .tc main_v53) = KSpec.row (m ((c : Thread nD τ).loc main_arg9)) := by
  refine (gamma_stage (W11 m ρ c)).trans ?_
  rw [arg9_11]
theorem beta_12 : W12 m ρ c (Proc.devRef .tc main_v54) = KSpec.row (m ((c : Thread nD τ).loc main_arg10)) := by
  refine (beta_stage (W11 m ρ c)).trans ?_
  rw [arg10_11]

/-- The last boundary's contents at the result buffer are the kernel's composed term of the launched arguments. -/
theorem result_eq :
    W13 m ρ c (Proc.devRef .tc main_v55)
      = KSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W13_arr m ρ c 5).trans ((Norm.final (V12 m ρ) c).trans ?_)
  show bnApply (W12 m ρ c (Proc.devRef .tc main_v41)) (W12 m ρ c (Proc.devRef .tc main_v51)) (W12 m ρ c (Proc.devRef .tc main_v52))
    (W12 m ρ c (Proc.devRef .tc main_v53)) (W12 m ρ c (Proc.devRef .tc main_v54)) = _
  rw [h2_12, mean_12, var_12, gamma_12, beta_12]
  rfl

end Cert.KernelIdeal.Fold

end
-- ==== Proof.RealArr.lean ====
/-
  Arrays of extended reals all of whose entries are real numbers, and the closure of that property
  under the host operations a reference program applies: constants whose pattern is finite,
  re-indexings (broadcast, gather), finite sums and products (scatter-add, the general dot product,
  reductions), and the pointwise operations `+`, `-`, `*`, `max`, real power and division by a
  non-zero real. A finite sum, a product, a difference or a maximum of real numbers, taken in the
  extended reals, is the coercion of the same expression over `ℝ`; that is all that is used.
-/
import Idealize.ShloMosaic.PureOps.Ideal
import Idealize.ShloMosaic.PureOps.Ideal.Laws

noncomputable section

namespace Cert.RealArr

open Idealize.ShloMosaic
open scoped BigOperators

/-- Every entry of the array is (the coercion of) a real number. -/
@[reducible] def AllReal {s : Shape} (x : s.Idx → EReal) : Prop := ∀ i, ∃ r : ℝ, x i = (r : EReal)

/-! ### Scalars -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

/-- The maximum of two extended reals is one of them. -/
theorem real_max {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

/-- A real base to a real exponent is Mathlib's real power. -/
theorem real_pow {a b : EReal} (ha : ∃ r : ℝ, a = (r : EReal)) (hb : ∃ r : ℝ, b = (r : EReal)) :
    ∃ r : ℝ, Ideal.pow a b = (r : EReal) := by
  obtain ⟨x, rfl⟩ := ha; obtain ⟨y, rfl⟩ := hb; exact ⟨Real.rpow x y, rfl⟩

/-- A real divided by a non-zero real is the product with the reciprocal. -/
theorem real_div {a : EReal} {y : ℝ} (ha : ∃ r : ℝ, a = (r : EReal)) (hy : y ≠ 0) :
    ∃ r : ℝ, Ideal.div a (y : EReal) = (r : EReal) := by
  rw [Ideal.div_coe hy]; exact real_mul ha ⟨_, rfl⟩

/-- A finite sum of real numbers is a real number. -/
theorem real_sum {ι : Type} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    rw [Finset.sum_insert ha]
    exact real_add (h a (Finset.mem_insert_self a S)) (ih fun i hi => h i (Finset.mem_insert_of_mem hi))

/-! ### Constants -/

/-- A pattern whose exponent field is not all ones (neither an infinity nor a NaN) denotes a real number. -/
theorem ieee_real (e m : Nat) {w : Nat} (b : BitVec w) (h : (b.extractLsb' m e).toNat ≠ 2 ^ e - 1) :
    ∃ r : ℝ, Ideal.ieee e m b = (r : EReal) := by
  simp only [Ideal.ieee]
  rw [if_neg h]
  split_ifs <;> exact ⟨_, rfl⟩

/-- An `f32` pattern whose exponent field is not `255` denotes a real number. -/
theorem ofBits_f32_real (b : BitVec 32) (h : (b.extractLsb' 23 8).toNat ≠ 255) :
    ∃ r : ℝ, Ideal.ofBits .f32 b = (r : EReal) :=
  ieee_real 8 23 b h

/-- The splat of a finite `f32` pattern. -/
theorem allReal_const {s : Shape} {b : BitVec 32} (h : (b.extractLsb' 23 8).toNat ≠ 255) :
    AllReal (constant (F := Ideal) s .f32 b) :=
  fun _ => ofBits_f32_real b h

theorem allReal_const_one {s : Shape} : AllReal (constant (F := Ideal) s .f32 0x3F800000#32) :=
  allReal_const (by decide)
theorem allReal_const_zero {s : Shape} : AllReal (constant (F := Ideal) s .f32 0x00000000#32) :=
  allReal_const (by decide)
theorem allReal_const_neghalf {s : Shape} : AllReal (constant (F := Ideal) s .f32 0xBF000000#32) :=
  allReal_const (by decide)
theorem allReal_const_scale {s : Shape} : AllReal (constant (F := Ideal) s .f32 0x3F3504F3#32) :=
  allReal_const (by decide)

/-! ### Re-indexings: every result entry is an operand entry -/

theorem allReal_broadcastInDim {s t : Shape} {dims : Fin s.rank → Fin t.rank} {h : s.BroadcastsInDim t dims}
    {x : s.Idx → EReal} (hx : AllReal x) : AllReal (broadcastInDim t dims h x) :=
  fun _ => hx _

theorem allReal_gather {s si t : Shape} {w : Nat} {d : GatherDims s si t} {x : s.Idx → EReal} {idx : IVec si w}
    (hx : AllReal x) : AllReal (Host.gather d x idx) :=
  fun _ => hx _

theorem allReal_id {s : Shape} {x : s.Idx → EReal} (hx : AllReal x) : AllReal (id x) := hx

/-! ### Sums -/

/-- The accumulating scatter: each operand entry plus the sum of the updates landing on it. -/
theorem allReal_scatterAdd {s si u : Shape} {w : Nat} {d : ScatterDims s si u} {x : FVec Ideal s .f32} {idx : IVec si w}
    {upd : FVec Ideal u .f32} (hx : AllReal x) (hu : AllReal upd) :
    AllReal (Host.scatterAdd (F := Ideal) d x idx upd) :=
  fun i => real_add (hx i) (real_sum _ _ fun j _ => hu j)

/-- The general dot product: at each result index a finite sum of products. -/
theorem allReal_dotGeneral {sl sr so : Shape} {d : DotDims sl sr so} {prec : Option ContractPrecision}
    {l : FVec Ideal sl .f32} {r : FVec Ideal sr .f32} (hl : AllReal l) (hr : AllReal r) :
    AllReal (Host.dotGeneral (F := Ideal) d prec l r) := by
  intro j
  show ∃ q : ℝ, FloatOps.dotGeneral (F := Ideal) d prec .single l r j = (q : EReal)
  rw [Ideal.dotGeneral_apply]
  exact real_sum _ _ fun k _ => real_mul (hl _) (hr _)

/-- The host's sum along axes: the initial value plus the sum of the entries reducing to each index. -/
theorem allReal_reduceAdd {s t u : Shape} {axes : List (Fin s.rank)} {x : FVec Ideal s .f32} {init : u.Idx → Ideal .f32}
    {h : s.ReducesTo axes t} {hu : 0 < u.numel} (hx : AllReal x) (hi : AllReal init) :
    AllReal (Host.reduceAdd (F := Ideal) x init h hu) :=
  fun _ => real_add (hi _) (real_sum _ _ fun i _ => hx i)

/-! ### Pointwise operations -/

theorem allReal_addf {s : Shape} {x y : FVec Ideal s .f32} (hx : AllReal x) (hy : AllReal y) :
    AllReal (addf (F := Ideal) x y) :=
  fun i => real_add (hx i) (hy i)

theorem allReal_subf {s : Shape} {x y : FVec Ideal s .f32} (hx : AllReal x) (hy : AllReal y) :
    AllReal (subf (F := Ideal) x y) :=
  fun i => real_sub (hx i) (hy i)

theorem allReal_mulf {s : Shape} {x y : FVec Ideal s .f32} (hx : AllReal x) (hy : AllReal y) :
    AllReal (mulf (F := Ideal) x y) :=
  fun i => real_mul (hx i) (hy i)

theorem allReal_maximumf {s : Shape} {x y : FVec Ideal s .f32} (hx : AllReal x) (hy : AllReal y) :
    AllReal (maximumf (F := Ideal) x y) :=
  fun i => real_max (hx i) (hy i)

theorem allReal_powf {s : Shape} {x y : FVec Ideal s .f32} (hx : AllReal x) (hy : AllReal y) :
    AllReal (Host.powf (F := Ideal) x y) :=
  fun i => real_pow (hx i) (hy i)

/-- The host's quotient by an array every entry of which is one non-zero real. -/
theorem allReal_divf_const {s : Shape} {x y : FVec Ideal s .f32} {c : ℝ} (hc : c ≠ 0) (hx : AllReal x)
    (hy : ∀ i, y i = (c : EReal)) : AllReal (Host.divf (F := Ideal) x y) := by
  intro i
  show ∃ q : ℝ, Ideal.div (x i) (y i) = (q : EReal)
  rw [hy i]; exact real_div (hx i) hc

end Cert.RealArr

end
-- ==== Proof.LibRowGather.lean ====
/-
  The gather of WHOLE ROWS of a matrix, read at an index.

  For a matrix `x : [N, C]` and an integer column `idx : [R, 1]`, the gather with offset axes `[1]`, collapsed slice
  axes `[0]`, start index map `[0]`, index vector axis `1` and slice sizes `[1, C]` is the matrix `[R, C]` whose
  element `(r, c)` is `x` at row `idx[r, 0]` — read as a signed integer and clamped into `[0, N − 1]`, as a gather
  clamps every start index so that the slice fits — and column `c`. The statement is general in the extents `N`, `R`,
  `C`, in the index width `w` and in the element type, and is meant to be reused: `rowGather_apply` for the dimension
  numbers written out (`rowGatherDims`), `rowGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of whole rows: operand `[N, C]`, start indices `[R, 1]` (one row number per
    result row, on the index vector's axis `1`), result `[R, C]`; operand axis `0` is collapsed and is the one the
    start index addresses, operand axis `1` is the result's offset axis `1`, read whole (slice sizes `[1, C]`). Their
    conditions `wf` are decidable on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. On operand axis `0` (collapsed, in the start index map) the operand index is the clamped start, with
    no batching and no offset part; on operand axis `1` (the offset axis, not in the start index map) the start is `0`
    and the index is the result's column. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N R C wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowGatherDims N R C wf).start (ix2 r c) idx 0 + (rowGatherDims N R C wf).batchCoord (ix2 r c) 0
        + (rowGatherDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r c) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r c) idx 1 + (rowGatherDims N R C wf).batchCoord (ix2 r c) 1
        + (rowGatherDims N R C wf).offCoord (ix2 r c) 1 = _
    rw [GatherDims.batchCoord_eq_zero _ _ _ List.not_mem_nil]
    have hst : (rowGatherDims N R C wf).start (ix2 r c) idx 1 = 0 := by
      unfold GatherDims.start
      rw [dif_neg (fun h => Nat.one_ne_zero (congrArg Fin.val (List.mem_singleton.mp h)))]
    have hmem : (1 : Fin 2) ∈ (rowGatherDims N R C wf).sKept :=
      (GatherDims.mem_sKept _ _).mpr ⟨fun h => Nat.one_ne_zero (congrArg Fin.val (List.mem_singleton.mp h)), List.not_mem_nil⟩
    have hoff : (rowGatherDims N R C wf).offCoord (ix2 r c) 1 = c.val := by
      unfold GatherDims.offCoord
      rw [dif_pos hmem]
      rfl
    rw [hst, hoff]
    simp only [Nat.add_zero, Nat.zero_add]

/-- The same for ANY record of gather dimension numbers over those three shapes whose fields are the row gather's (for a
    record given by its literal fields the seven equations hold by `rfl`). -/
theorem rowGather_apply' {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 (⟨min (idx (ix2 r (0 : Fin 1))).toInt.toNat (N - 1), by omega⟩ : Fin N) c) := by
  obtain ⟨od, cd, ob, sb, sm, iv, ss, wf⟩ := d
  simp only at h1 h2 h3 h4 h5 h6 h7
  subst h1 h2 h3 h4 h5 h6 h7
  exact rowGather_apply hN wf x idx r c

end Cert.Lib
-- ==== Proof.LibTakeGather.lean ====
/-
  The gather of SINGLE ENTRIES of a vector, read at an index.

  For a vector `x : [N]` and an integer column `idx : [R, 1]`, the gather with no offset axis, collapsed slice axes
  `[0]`, start index map `[0]`, index vector axis `1` and slice sizes `[1]` is the vector `[R]` whose element `e` is
  `x` at entry `idx[e, 0]` — read as a signed integer and clamped into `[0, N − 1]`, as a gather clamps every start
  index so that the slice fits. The statement is general in the extents `N`, `R`, in the index width `w` and in the
  element type, and is meant to be reused: `takeGather_apply` for the dimension numbers written out
  (`takeGatherDims`), `takeGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of single entries of a vector: operand `[N]`, start indices `[R, 1]` (one entry
    number per result entry, on the index vector's axis `1`), result `[R]`; the operand's one axis is collapsed and is
    the one the start index addresses (slice sizes `[1]`), and there is no offset axis. Their conditions `wf` are
    decidable on literal shapes. -/
abbrev takeGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at entry `idx[e, 0]`, read signed and clamped into `[0, N − 1]`. On the
    operand's one axis (collapsed, in the start index map) the operand index is the clamped start, with no batching and
    no offset part. -/
theorem takeGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (takeGatherDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (takeGatherDims N R wf).start (ix1 e) idx 0 + (takeGatherDims N R wf).batchCoord (ix1 e) 0
      + (takeGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeGatherDims N R wf).startIndexMap from List.mem_singleton.mpr rfl)]
  have hsi : (takeGatherDims N R wf).siIdx (ix1 e) ⟨List.idxOf (0 : Fin 1) (takeGatherDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same for ANY record of gather dimension numbers over those three shapes whose fields are the entry gather's (for
    a record given by its literal fields the seven equations hold by `rfl`). -/
theorem takeGather_apply' {α : Type} {N R w : Nat} (hN : 0 < N)
    (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (e : Fin R) :
    Host.gather d x idx (ix1 e)
      = x (ix1 (⟨min (idx (ix2 e (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact takeGather_apply hN wf x idx e

end Cert.Lib
-- ==== Proof.Bridge1.lean ====
/-
  THE BRIDGE, part 1: the kernel program's closed form agrees with the reference up to the second graph-convolution
  layer, and that array is real when the inputs are.

  The two programs compute the same degree normalisations and the same wrapped index columns operation by operation.
  They differ in ONE arrangement: the kernel scales row `r` of `h W` by the source normalisation of node `r` before
  gathering the rows at the sources, the reference gathers the rows and the normalisations separately and multiplies
  edge by edge. Both gathers read the same clamped source, so the edge messages agree entry by entry; the aggregation is
  then the same accumulating scatter of equal messages, and the residual combine differs by one re-association of a
  sum, which holds in the extended reals. One lemma (`layer_eq`) states this for an arbitrary layer input and is used for
  both layers.
-/
import proofs.«141286_j57346403336483_2_alg».proof.Proof.KSpec
import proofs.«141286_j57346403336483_2_alg».proof.Proof.Spec
import proofs.«141286_j57346403336483_2_alg».proof.Proof.RealArr
import proofs.«141286_j57346403336483_2_alg».proof.Proof.LibPlainDot
import proofs.«141286_j57346403336483_2_alg».proof.Proof.LibRowGather
import proofs.«141286_j57346403336483_2_alg».proof.Proof.LibTakeGather
import proofs.«141286_j57346403336483_2_alg».proof.Proof.Gen.ReferenceIdeal.Read
import Idealize.ShloMosaic.Lib.ValueLayout
import Idealize.ShloMosaic.Lib.Pipeline.Value

noncomputable section

namespace Cert.Bridge

open Idealize.ShloMosaic Idealize.ShloMosaic.ValueIdx Cert.Lib Cert.RealArr
open Cert.ReferenceIdeal Cert.ReferenceIdeal.Gen Cert.ReferenceIdeal.Read

/-! ### Broadcasts read at an index -/

section Bcast
variable {α : Type}

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- An `[a]` array broadcast to a column `[a, 1]` reads, at `(i, u)`, the operand at `i`. -/
theorem bcast_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A `[b]` array broadcast to a row `[1, b]` reads, at `(u, j)`, the operand at `j`. -/
theorem bcast_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) :=
  broadcastInDim_apply _ h x (ix2 u j) (ix1 j) (fun c => match c with
    | ⟨0, _⟩ => by
      show j.val = if b = 1 then 0 else j.val
      split
      · have := j.isLt; omega
      · rfl)

/-- A row `[1, b]` broadcast over `a` rows reads, at `(i, j)`, the row's entry `j`. -/
theorem bcast_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) :=
  broadcastInDim_apply _ h x (ix2 i j) (ix2 (0 : Fin 1) j) (fun c => match c with
    | ⟨0, _⟩ => by
      show 0 = if (1 : ℕ) = 1 then 0 else i.val
      rw [if_pos rfl]
    | ⟨1, _⟩ => by
      show j.val = if b = 1 then 0 else j.val
      split
      · have := j.isLt; omega
      · rfl)

/-- A column `[a, 1]` broadcast over `b` columns reads, at `(i, j)`, the column's entry `i`. -/
theorem bcast_cols_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply _ h x (ix2 i j) (ix2 i (0 : Fin 1)) (fun c => match c with
    | ⟨0, _⟩ => by
      show i.val = if a = 1 then 0 else i.val
      split
      · have := i.isLt; omega
      · rfl
    | ⟨1, _⟩ => by
      show 0 = if (1 : ℕ) = 1 then 0 else j.val
      rw [if_pos rfl])

end Bcast

open Cert.KernelIdeal.KSpec Cert.Spec

/-! ### The reference's layer -/

/-- One graph-convolution layer with its residual, as the reference arranges it: the rows of `h W` gathered at the
    sources and THEN scaled by the gathered source normalisation, accumulated at the destinations, scaled by the
    destination normalisation, the bias added, the residual added, and the literal scale applied. -/
def refLayer (x0 x1 : IVec S800000 32) (h : FVec Ideal S100000x64 .f32) (w : FVec Ideal S64x64 .f32)
    (b : FVec Ideal S64 .f32) : FVec Ideal S100000x64 .f32 :=
  mulf (addf h (addf (mulf
      (Host.scatterAdd scatter_S100000x64_S800000x1_S800000x64_1_0_0_1
        (broadcastInDim S100000x64 ![] bcast_S_S100000x64 (constant (F := Ideal) S_ .f32 0x00000000#32))
        (val_main_v36 (F := Ideal) x1)
        (mulf (Host.gather gather_S100000x64_S800000x1_S800000x64_1_0_n_n_0_1_164
                (Host.dotGeneral dot_S100000x64_S64x64_S100000x64_1_0_0_1_n_n none h w) (val_main_v16 (F := Ideal) x0))
              (broadcastInDim S800000x64 ![0, 1] bcast_S800000x1_S800000x64_0_1
                (broadcastInDim S800000x1 ![0] bcast_S800000_S800000x1_0 (val_main_v17 (F := Ideal) x0)))))
      (broadcastInDim S100000x64 ![0, 1] bcast_S100000x1_S100000x64_0_1
        (broadcastInDim S100000x1 ![0] bcast_S100000_S100000x1_0 (val_main_v19 (F := Ideal) x1))))
    (broadcastInDim S100000x64 ![0, 1] bcast_S1x64_S100000x64_0_1 (broadcastInDim S1x64 ![1] bcast_S64_S1x64_1 b))))
  (broadcastInDim S100000x64 ![] bcast_S_S100000x64 (constant (F := Ideal) S_ .f32 0x3F3504F3#32))

section
variable (x0 x1 : IVec S800000 32) (x2 : FVec Ideal S100000x128 .f32) (x3 : FVec Ideal S128x64 .f32)
  (x4 : FVec Ideal S64 .f32) (x5 : FVec Ideal S64x64 .f32) (x6 : FVec Ideal S64 .f32) (x7 : FVec Ideal S64x64 .f32)
  (x8 : FVec Ideal S64 .f32)

/-- The reference's first layer is `refLayer` of its input layer. -/
theorem v46_eq : val_main_v46 (F := Ideal) x0 x1 x2 x3 x4 x5 x6
    = refLayer x0 x1 (val_main_v23 (F := Ideal) x2 x3 x4) x5 x6 := rfl

/-- The reference's second layer is `refLayer` of its first. -/
theorem v69_eq : val_main_v69 (F := Ideal) x0 x1 x2 x3 x4 x5 x6 x7 x8
    = refLayer x0 x1 (val_main_v46 (F := Ideal) x0 x1 x2 x3 x4 x5 x6) x7 x8 := rfl
end

/-! ### The per-node scales, column by column -/

/-- Column 0 of the scales is the destination normalisation. -/
theorem scales_col0 (x0 x1 : IVec S800000 32) (r : Fin 100000) :
    scales x0 x1 (ix2 r (0 : Fin 2)) = val_main_v19 (F := Ideal) x1 (ix1 r) := by
  unfold scales
  refine (concatenate_pair_apply_left (t := ⟨2, ![100000, 2]⟩) (s₁ := ⟨2, ![100000, 1]⟩) (s₂ := ⟨2, ![100000, 1]⟩)
    (1 : Fin 2) _ _ _ (ix2 r (0 : Fin 2)) rfl (ix2 r (0 : Fin 1))
    (fun b => match b with | ⟨0, _⟩ => rfl | ⟨1, _⟩ => rfl)).trans ?_
  rw [bcast_col_apply]
  rfl

/-- Column 1 of the scales is the source normalisation. -/
theorem scales_col1 (x0 x1 : IVec S800000 32) (r : Fin 100000) :
    scales x0 x1 (ix2 r (1 : Fin 2)) = val_main_v10 (F := Ideal) x0 (ix1 r) := by
  unfold scales
  refine (concatenate_pair_apply_right (t := ⟨2, ![100000, 2]⟩) (s₁ := ⟨2, ![100000, 1]⟩) (s₂ := ⟨2, ![100000, 1]⟩)
    (1 : Fin 2) _ _ _ (ix2 r (1 : Fin 2)) rfl rfl (ix2 r (0 : Fin 1))
    (fun b => match b with | ⟨0, _⟩ => fun _ => rfl | ⟨1, _⟩ => fun hb => absurd rfl hb) rfl).trans ?_
  rw [bcast_col_apply]
  rfl

/-- A `[64]` vector as a `[1, 64]` row, read at `(0, q)`. -/
theorem row_apply (b : FVec Ideal S64 .f32) (q : Fin 64) : row b (ix2 (0 : Fin 1) q) = b (ix1 q) := by
  unfold row
  exact shapeCast_a_1a_apply b _ 0 q

/-! ### The edge messages -/

/-- THE RE-ARRANGEMENT. Scaling row `r` of `h W` by the source normalisation of node `r` and then gathering the rows at
    the sources is gathering the rows of `h W` and the source normalisations separately, both at the same clamped
    source, and multiplying edge by edge. -/
theorem msg_eq (x0 x1 : IVec S800000 32) (h : FVec Ideal S100000x64 .f32) (w : FVec Ideal S64x64 .f32) :
    Host.gather Cert.KernelIdeal.gather_S100000x64_S800000x1_S800000x64_1_0_n_n_0_1_164
        (linScaled h w (scales x0 x1)) (srcIdx x0)
      = mulf (Host.gather gather_S100000x64_S800000x1_S800000x64_1_0_n_n_0_1_164
                (Host.dotGeneral dot_S100000x64_S64x64_S100000x64_1_0_0_1_n_n none h w) (val_main_v16 (F := Ideal) x0))
              (broadcastInDim S800000x64 ![0, 1] bcast_S800000x1_S800000x64_0_1
                (broadcastInDim S800000x1 ![0] bcast_S800000_S800000x1_0 (val_main_v17 (F := Ideal) x0))) := by
  funext i
  obtain ⟨e, c, rfl⟩ : ∃ (e : Fin 800000) (c : Fin 64), i = ix2 e c := ⟨i 0, i 1, eq_ix2 i⟩
  rw [ValueIdx.mulf_apply, bcast_cols_apply, bcast_col_apply]
  rw [rowGather_apply' (by decide) _ rfl rfl rfl rfl rfl rfl rfl,
    rowGather_apply' (by decide) _ rfl rfl rfl rfl rfl rfl rfl]
  unfold val_main_v17
  rw [takeGather_apply' (by decide) _ rfl rfl rfl rfl rfl rfl rfl]
  show linScaled1 h w (scales x0 x1) _ c = _
  unfold linScaled1
  rw [scales_col1]
  rw [show dot_S100000x64_S64x64_S100000x64_1_0_0_1_n_n = DotDims.plain 100000 64 64 from rfl,
    plain_dotGeneral_apply]
  rfl

/-! ### One layer -/

/-- THE LAYER: the kernel's arrangement of a graph-convolution layer is the reference's. -/
theorem layer_eq (x0 x1 : IVec S800000 32) (h : FVec Ideal S100000x64 .f32) (w : FVec Ideal S64x64 .f32)
    (b : FVec Ideal S64 .f32) :
    comb h (agg x0 x1 (linScaled h w (scales x0 x1))) (scales x0 x1) (row b) = refLayer x0 x1 h w b := by
  have hagg : agg x0 x1 (linScaled h w (scales x0 x1))
      = Host.scatterAdd scatter_S100000x64_S800000x1_S800000x64_1_0_0_1
        (broadcastInDim S100000x64 ![] bcast_S_S100000x64 (constant (F := Ideal) S_ .f32 0x00000000#32))
        (val_main_v36 (F := Ideal) x1)
        (mulf (Host.gather gather_S100000x64_S800000x1_S800000x64_1_0_n_n_0_1_164
                (Host.dotGeneral dot_S100000x64_S64x64_S100000x64_1_0_0_1_n_n none h w) (val_main_v16 (F := Ideal) x0))
              (broadcastInDim S800000x64 ![0, 1] bcast_S800000x1_S800000x64_0_1
                (broadcastInDim S800000x1 ![0] bcast_S800000_S800000x1_0 (val_main_v17 (F := Ideal) x0)))) := by
    unfold agg
    rw [msg_eq]
    rfl
  funext i
  obtain ⟨r, q, rfl⟩ : ∃ (r : Fin 100000) (q : Fin 64), i = ix2 r q := ⟨i 0, i 1, eq_ix2 i⟩
  unfold refLayer
  rw [ValueIdx.mulf_apply, ValueIdx.addf_apply, ValueIdx.addf_apply, ValueIdx.mulf_apply, bcast_cols_apply,
    bcast_col_apply, bcast_rows_apply, bcast_row_apply, bcast_scalar_apply, ← hagg]
  show comb1 (h (ix2 r q)) (agg x0 x1 (linScaled h w (scales x0 x1)) (ix2 r q)) (scales x0 x1 (ix2 r (0 : Fin 2)))
      (row b (ix2 (0 : Fin 1) q)) = _
  unfold comb1
  rw [scales_col0, row_apply, add_assoc]
  rfl

/-! ### The input layer, and the two layers -/

section
variable (x0 x1 : IVec S800000 32) (x2 : FVec Ideal S100000x128 .f32) (x3 : FVec Ideal S128x64 .f32)
  (x4 : FVec Ideal S64 .f32) (x5 : FVec Ideal S64x64 .f32) (x6 : FVec Ideal S64 .f32) (x7 : FVec Ideal S64x64 .f32)
  (x8 : FVec Ideal S64 .f32)

/-- The input layer: the same sums of products plus the same bias entry. -/
theorem h0_eq : h0 x2 x3 x4 = val_main_v23 (F := Ideal) x2 x3 x4 := by
  funext i
  obtain ⟨r, q, rfl⟩ : ∃ (r : Fin 100000) (q : Fin 64), i = ix2 r q := ⟨i 0, i 1, eq_ix2 i⟩
  unfold val_main_v23 val_main_v22 val_main_v21 val_main_v20
  rw [ValueIdx.addf_apply, bcast_rows_apply, bcast_row_apply,
    show dot_S100000x128_S128x64_S100000x64_1_0_0_1_n_n = DotDims.plain 100000 128 64 from rfl,
    plain_dotGeneral_apply]
  show lin1 x2 x3 (row x4) r q = _
  unfold lin1
  rw [row_apply]

/-- After the first layer. -/
theorem h1_eq : h1 x0 x1 x2 x3 x4 x5 x6 = val_main_v46 (F := Ideal) x0 x1 x2 x3 x4 x5 x6 := by
  unfold h1
  rw [h0_eq, layer_eq, v46_eq]

/-- After the second layer. -/
theorem h2_eq : h2 x0 x1 x2 x3 x4 x5 x6 x7 x8 = val_main_v69 (F := Ideal) x0 x1 x2 x3 x4 x5 x6 x7 x8 := by
  unfold h2
  rw [h1_eq, layer_eq, v69_eq]

end

/-! ### Every entry is real, up to the second layer -/

/-- The source normalisation is real: a real power of a maximum of sums of ones. -/
theorem allReal_v10 (x0 : IVec S800000 32) : AllReal (val_main_v10 (F := Ideal) x0) := by
  unfold val_main_v10 val_main_v4 val_main_v3 val_main_call0_v1 val_main_call0_v0 val_main_v9 val_main_v1 val_main_v0
    val_main_cst val_main_cst_0 val_main_cst_1 val_main_cst_4
  exact allReal_powf (allReal_maximumf (allReal_broadcastInDim (allReal_id allReal_const_one))
    (allReal_scatterAdd (allReal_broadcastInDim allReal_const_zero) (allReal_broadcastInDim allReal_const_one)))
    (allReal_broadcastInDim allReal_const_neghalf)

/-- The destination normalisation is real. -/
theorem allReal_v19 (x1 : IVec S800000 32) : AllReal (val_main_v19 (F := Ideal) x1) := by
  unfold val_main_v19 val_main_v8 val_main_v7 val_main_call1_v1 val_main_call1_v0 val_main_v18 val_main_v5 val_main_v0
    val_main_cst val_main_cst_2 val_main_cst_3 val_main_cst_6
  exact allReal_powf (allReal_maximumf (allReal_broadcastInDim (allReal_id allReal_const_one))
    (allReal_scatterAdd (allReal_broadcastInDim allReal_const_zero) (allReal_broadcastInDim allReal_const_one)))
    (allReal_broadcastInDim allReal_const_neghalf)

/-- A layer of real arrays is real. -/
theorem allReal_refLayer (x0 x1 : IVec S800000 32) {h : FVec Ideal S100000x64 .f32} {w : FVec Ideal S64x64 .f32}
    {b : FVec Ideal S64 .f32} (hh : AllReal h) (hw : AllReal w) (hb : AllReal b) : AllReal (refLayer x0 x1 h w b) := by
  unfold refLayer val_main_v17
  exact allReal_mulf (allReal_addf hh (allReal_addf (allReal_mulf
      (allReal_scatterAdd (allReal_broadcastInDim allReal_const_zero)
        (allReal_mulf (allReal_gather (allReal_dotGeneral hh hw))
          (allReal_broadcastInDim (allReal_broadcastInDim (allReal_gather (allReal_v10 x0))))))
      (allReal_broadcastInDim (allReal_broadcastInDim (allReal_v19 x1))))
    (allReal_broadcastInDim (allReal_broadcastInDim hb)))) (allReal_broadcastInDim allReal_const_scale)

section
variable (x0 x1 : IVec S800000 32) {x2 : FVec Ideal S100000x128 .f32} {x3 : FVec Ideal S128x64 .f32}
  {x4 : FVec Ideal S64 .f32} {x5 : FVec Ideal S64x64 .f32} {x6 : FVec Ideal S64 .f32} {x7 : FVec Ideal S64x64 .f32}
  {x8 : FVec Ideal S64 .f32}

/-- The input layer of real inputs is real. -/
theorem allReal_v23 (h2 : AllReal x2) (h3 : AllReal x3) (h4 : AllReal x4) :
    AllReal (val_main_v23 (F := Ideal) x2 x3 x4) := by
  unfold val_main_v23 val_main_v22 val_main_v21 val_main_v20
  exact allReal_addf (allReal_dotGeneral h2 h3) (allReal_broadcastInDim (allReal_broadcastInDim h4))

/-- The reference's second layer of real inputs is real. -/
theorem allReal_v69 (h2 : AllReal x2) (h3 : AllReal x3) (h4 : AllReal x4) (h5 : AllReal x5) (h6 : AllReal x6)
    (h7 : AllReal x7) (h8 : AllReal x8) : AllReal (val_main_v69 (F := Ideal) x0 x1 x2 x3 x4 x5 x6 x7 x8) := by
  rw [v69_eq, v46_eq]
  exact allReal_refLayer x0 x1 (allReal_refLayer x0 x1 (allReal_v23 h2 h3 h4) h5 h6) h7 h8

end

end Cert.Bridge

end
-- ==== Proof.VarLaw.lean ====
/-
  The variance law over the reals, read in the extended reals. For a finite family of real numbers
  `h` indexed by a type with `n ≠ 0` elements and mean `μ = (∑ h) / n`, the mean of the squared
  deviations `(∑ (h - μ)²) / n` equals the mean of the squares minus the squared mean,
  `(∑ h²) / n - μ²`. Every entry is a real number, so every sum, product, difference and quotient
  below is the coercion of the same expression over `ℝ`, and the law is the textbook identity there:
  expanding the square gives `∑ h² - 2 μ ∑ h + n μ²`, and `∑ h = n μ`.

  The law fails as soon as one entry is infinite (one side is `⊥`, the other `⊤`), which is why it is
  stated for a family of reals and not of extended reals.
-/
import Idealize.ShloMosaic.PureOps.Ideal
import Mathlib.Tactic.FieldSimp
import Mathlib.Tactic.Ring
import Mathlib.Tactic.NormNum

noncomputable section

namespace Cert.VarLaw

open Idealize.ShloMosaic
open scoped BigOperators

/-- A finite sum of real numbers, taken in the extended reals, is the coercion of the real sum. -/
theorem coe_sum {ι : Type} (S : Finset ι) (f : ι → ℝ) :
    (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The variance identity over `ℝ`, with every division written as a product with `1 / n`. -/
theorem var_real {ι : Type} [Fintype ι] (h : ι → ℝ) (n : ℝ) (hn : (Fintype.card ι : ℝ) = n) (hn0 : n ≠ 0) :
    (∑ i, (h i - (∑ i, h i) * (1 / n)) * (h i - (∑ i, h i) * (1 / n))) * (1 / n)
      = (∑ i, h i * h i) * (1 / n) - (∑ i, h i) * (1 / n) * ((∑ i, h i) * (1 / n)) := by
  have h1 : ∀ i, (h i - (∑ i, h i) * (1 / n)) * (h i - (∑ i, h i) * (1 / n))
      = h i * h i - 2 * ((∑ i, h i) * (1 / n)) * h i + (∑ i, h i) * (1 / n) * ((∑ i, h i) * (1 / n)) :=
    fun i => by ring
  simp only [h1]
  rw [Finset.sum_add_distrib, Finset.sum_sub_distrib, ← Finset.mul_sum, Finset.sum_const, Finset.card_univ,
    nsmul_eq_mul, hn]
  field_simp
  ring

/-- THE VARIANCE LAW in the extended reals, for a family of real numbers: the mean of the squared
    deviations from the mean is the mean of the squares minus the squared mean. -/
theorem var_law {ι : Type} [Fintype ι] (h : ι → ℝ) (n : ℝ) (hn : (Fintype.card ι : ℝ) = n) (hn0 : n ≠ 0) :
    Ideal.div (∑ i, ((h i : EReal) - Ideal.div (∑ i, (h i : EReal)) (n : EReal))
        * ((h i : EReal) - Ideal.div (∑ i, (h i : EReal)) (n : EReal))) (n : EReal)
      = Ideal.div (∑ i, (h i : EReal) * (h i : EReal)) (n : EReal)
        - Ideal.div (∑ i, (h i : EReal)) (n : EReal) * Ideal.div (∑ i, (h i : EReal)) (n : EReal) := by
  simp only [Ideal.div_coe hn0, coe_sum, ← EReal.coe_mul, ← EReal.coe_sub]
  exact congrArg _ (var_real h n hn hn0)

/-- The same law with every sum taken onto a zero initial value, `0 + ∑ …`, as a reduction with a zero
    initial value reads. -/
theorem var_law_zero {ι : Type} [Fintype ι] (h : ι → ℝ) (n : ℝ) (hn : (Fintype.card ι : ℝ) = n) (hn0 : n ≠ 0) :
    Ideal.div (0 + ∑ i, ((h i : EReal) - Ideal.div (0 + ∑ i, (h i : EReal)) (n : EReal))
        * ((h i : EReal) - Ideal.div (0 + ∑ i, (h i : EReal)) (n : EReal))) (n : EReal)
      = Ideal.div (0 + ∑ i, (h i : EReal) * (h i : EReal)) (n : EReal)
        - Ideal.div (0 + ∑ i, (h i : EReal)) (n : EReal) * Ideal.div (0 + ∑ i, (h i : EReal)) (n : EReal) := by
  simp only [zero_add]
  exact var_law h n hn hn0

/-- The law for a batch of `100000` rows. -/
theorem var_law_100000 (h : Fin 100000 → ℝ) :
    Ideal.div (∑ i, ((h i : EReal) - Ideal.div (∑ i, (h i : EReal)) ((100000 : ℝ) : EReal))
        * ((h i : EReal) - Ideal.div (∑ i, (h i : EReal)) ((100000 : ℝ) : EReal))) ((100000 : ℝ) : EReal)
      = Ideal.div (∑ i, (h i : EReal) * (h i : EReal)) ((100000 : ℝ) : EReal)
        - Ideal.div (∑ i, (h i : EReal)) ((100000 : ℝ) : EReal)
          * Ideal.div (∑ i, (h i : EReal)) ((100000 : ℝ) : EReal) :=
  var_law h 100000 (by rw [Fintype.card_fin]; norm_num) (by norm_num)

/-- The `f32` pattern of `100000.0` (exponent field `143`, significand field `0x435000`:
    `(2²³ + 4411392) · 2⁻⁷ = 100000`) denotes the real number `100000`. -/
theorem real_of_ofBits_n : Ideal.ofBits .f32 0x47C35000#32 = ((100000 : ℝ) : EReal) := by
  simp [Ideal.ofBits, Ideal.ieee, -EReal.coe_mul]; norm_num

end Cert.VarLaw

end
-- ==== Proof.Bridge2.lean ====
/-
  THE BRIDGE, part 2: the normalisation, and the two programs' results.

  Both programs normalise the second layer's array column by column with the same mean. The kernel forms the variance
  as the mean of the squares minus the squared mean, the reference as the mean of the squared deviations; they agree
  because every entry is a real number (part 1), by the variance law over a column of 100000 reals. The rest of the
  normalisation is the same expression of the same entries on both sides.
-/
import proofs.«141286_j57346403336483_2_alg».proof.Proof.Bridge1
import proofs.«141286_j57346403336483_2_alg».proof.Proof.VarLaw

noncomputable section

namespace Cert.Bridge

open Idealize.ShloMosaic Idealize.ShloMosaic.ValueIdx Cert.Lib Cert.RealArr
open Cert.ReferenceIdeal Cert.ReferenceIdeal.Gen Cert.ReferenceIdeal.Read

open Cert.KernelIdeal.KSpec Cert.Spec Cert.VarLaw

/-! ### The two normalisations of an array `g` -/

/-- The kernel's column means of `g`: the column sums over the node count. -/
def kMean (g : FVec Ideal S100000x64 .f32) : FVec Ideal S64 .f32 := Host.divf (unrow (colSum g)) Cert.KernelIdeal.KSpec.count
/-- The kernel's column variances of `g`: the mean of the squares minus the squared mean. -/
def kVar (g : FVec Ideal S100000x64 .f32) : FVec Ideal S64 .f32 :=
  subf (Host.divf (unrow (colSumSq g)) Cert.KernelIdeal.KSpec.count) (mulf (kMean g) (kMean g))

/-- The reference's column means of `g`. -/
def refMean (g : FVec Ideal S100000x64 .f32) : FVec Ideal S64 .f32 :=
  Host.divf (Host.reduceAdd g (constant (F := Ideal) S_ .f32 0x00000000#32) reducesTo_S100000x64_S64_d0 h_S_)
    (broadcastInDim S64 ![] bcast_S_S64 (constant (F := Ideal) S_ .f32 0x47C35000#32))
/-- `g` less its column means. -/
def refCentered (g : FVec Ideal S100000x64 .f32) : FVec Ideal S100000x64 .f32 :=
  subf g (broadcastInDim S100000x64 ![0, 1] bcast_S1x64_S100000x64_0_1
    (broadcastInDim S1x64 ![1] bcast_S64_S1x64_1 (refMean g)))
/-- The reference's column variances of `g`: the mean of the squared deviations. -/
def refVar (g : FVec Ideal S100000x64 .f32) : FVec Ideal S64 .f32 :=
  Host.divf (Host.reduceAdd (mulf (refCentered g) (refCentered g)) (constant (F := Ideal) S_ .f32 0x00000000#32)
      reducesTo_S100000x64_S64_d0 h_S_)
    (broadcastInDim S64 ![] bcast_S_S64 (constant (F := Ideal) S_ .f32 0x47C35000#32))
/-- The reference's normalisation of `g` with scale `x9` and shift `x10`. -/
def refBN (g : FVec Ideal S100000x64 .f32) (x9 x10 : FVec Ideal S64 .f32) : FVec Ideal S100000x64 .f32 :=
  addf (mulf (mulf (refCentered g)
      (broadcastInDim S100000x64 ![0, 1] bcast_S1x64_S100000x64_0_1 (broadcastInDim S1x64 ![1] bcast_S64_S1x64_1
        (Host.rsqrt (addf (refVar g) (broadcastInDim S64 ![] bcast_S_S64 (constant (F := Ideal) S_ .f32 0x3727C5AC#32)))))))
      (broadcastInDim S100000x64 ![0, 1] bcast_S1x64_S100000x64_0_1 (broadcastInDim S1x64 ![1] bcast_S64_S1x64_1 x9)))
    (broadcastInDim S100000x64 ![0, 1] bcast_S1x64_S100000x64_0_1 (broadcastInDim S1x64 ![1] bcast_S64_S1x64_1 x10))

section
variable (x0 x1 : IVec S800000 32) (x2 : FVec Ideal S100000x128 .f32) (x3 : FVec Ideal S128x64 .f32)
  (x4 : FVec Ideal S64 .f32) (x5 : FVec Ideal S64x64 .f32) (x6 : FVec Ideal S64 .f32) (x7 : FVec Ideal S64x64 .f32)
  (x8 x9 x10 : FVec Ideal S64 .f32)

/-- The reference's result is `refBN` of its second layer. -/
theorem v94_eq : val_main_v94 (F := Ideal) x0 x1 x2 x3 x4 x5 x6 x7 x8 x9 x10
    = refBN (val_main_v69 (F := Ideal) x0 x1 x2 x3 x4 x5 x6 x7 x8) x9 x10 := rfl

/-- The kernel's result is its normalisation of its second layer. -/
theorem out_def : out x0 x1 x2 x3 x4 x5 x6 x7 x8 x9 x10
    = bnApply (h2 x0 x1 x2 x3 x4 x5 x6 x7 x8) (row (kMean (h2 x0 x1 x2 x3 x4 x5 x6 x7 x8)))
        (row (kVar (h2 x0 x1 x2 x3 x4 x5 x6 x7 x8))) (row x9) (row x10) := rfl
end

/-! ### Reading the pieces at an index -/

theorem hdivf_apply {s : Shape} (x y : FVec Ideal s .f32) (i : s.Idx) : Host.divf x y i = Ideal.div (x i) (y i) := rfl
theorem hrsqrt_apply {s : Shape} (x : FVec Ideal s .f32) (i : s.Idx) : Host.rsqrt x i = Ideal.rsqrt (x i) := rfl

/-- A `[1, 64]` row as a `[64]` vector, read at `q`. -/
theorem unrow_apply (b : FVec Ideal S1x64 .f32) (q : Fin 64) : unrow b (ix1 q) = b (ix2 (0 : Fin 1) q) := by
  unfold unrow
  exact shapeCast_1a_a_apply b _ q

/-- The node count reads the real number `100000`. -/
theorem count_apply (q : Fin 64) : Cert.KernelIdeal.KSpec.count (ix1 q) = ((100000 : ℝ) : EReal) := by
  unfold Cert.KernelIdeal.KSpec.count
  rw [bcast_scalar_apply]
  exact real_of_ofBits_n

theorem colSum_apply (g : FVec Ideal S100000x64 .f32) (q : Fin 64) :
    colSum g (ix2 (0 : Fin 1) q) = ∑ i : Fin 100000, g (ix2 i q) := rfl
theorem colSumSq_apply (g : FVec Ideal S100000x64 .f32) (q : Fin 64) :
    colSumSq g (ix2 (0 : Fin 1) q) = ∑ i : Fin 100000, g (ix2 i q) * g (ix2 i q) := rfl

/-- The host's sum over the rows, read at column `q`: the initial value plus the sum over the rows. -/
theorem reduce_col_apply (y : FVec Ideal S100000x64 .f32) (init : S_.Idx → EReal) (q : Fin 64) :
    Host.reduceAdd (F := Ideal) y init reducesTo_S100000x64_S64_d0 h_S_ (ix1 q)
      = init ix0 + ∑ k : Fin 100000, y (ix2 k q) := by
  simp only [Host.reduceAdd, Ideal.hostReduceAdd_def]
  rw [Ideal.hostReduceAdd_single reducesTo_S100000x64_S64_d0 (by decide)]
  refine congr (congrArg _ (congrArg init (funext fun a => a.elim0))) (Finset.sum_congr rfl fun k _ => ?_)
  exact congrArg y (funext fun a => Fin.ext (by match a with | ⟨0, _⟩ => rfl | ⟨1, _⟩ => rfl))

/-- The kernel's mean at column `q`. -/
theorem kMean_apply (g : FVec Ideal S100000x64 .f32) (q : Fin 64) :
    kMean g (ix1 q) = Ideal.div (∑ i : Fin 100000, g (ix2 i q)) ((100000 : ℝ) : EReal) := by
  unfold kMean
  rw [hdivf_apply, unrow_apply, count_apply, colSum_apply]

/-- The reference's mean at column `q`. -/
theorem refMean_apply (g : FVec Ideal S100000x64 .f32) (q : Fin 64) :
    refMean g (ix1 q) = Ideal.div (∑ i : Fin 100000, g (ix2 i q)) ((100000 : ℝ) : EReal) := by
  unfold refMean
  rw [hdivf_apply, reduce_col_apply, bcast_scalar_apply, ValueIdx.constant_apply, ValueIdx.constant_apply,
    Ideal.ofBits_zero_f32, zero_add, real_of_ofBits_n]

/-- The means agree. -/
theorem mean_eq (g : FVec Ideal S100000x64 .f32) (q : Fin 64) : kMean g (ix1 q) = refMean g (ix1 q) := by
  rw [kMean_apply, refMean_apply]

/-- An entry less its column's mean. -/
theorem refCentered_apply (g : FVec Ideal S100000x64 .f32) (r : Fin 100000) (q : Fin 64) :
    refCentered g (ix2 r q) = g (ix2 r q) - refMean g (ix1 q) := by
  unfold refCentered
  rw [ValueIdx.subf_apply, bcast_rows_apply, bcast_row_apply]

/-- THE VARIANCES AGREE when every entry of `g` is real: the variance law, column by column. -/
theorem var_eq (g : FVec Ideal S100000x64 .f32) (hg : AllReal g) (q : Fin 64) : kVar g (ix1 q) = refVar g (ix1 q) := by
  choose hr hhr using fun i : Fin 100000 => hg (ix2 i q)
  have hsum : (∑ i : Fin 100000, g (ix2 i q)) = ∑ i : Fin 100000, ((hr i : ℝ) : EReal) :=
    Finset.sum_congr rfl fun i _ => hhr i
  have hsq : (∑ i : Fin 100000, g (ix2 i q) * g (ix2 i q)) = ∑ i : Fin 100000, ((hr i : ℝ) : EReal) * ((hr i : ℝ) : EReal) :=
    Finset.sum_congr rfl fun i _ => by rw [hhr i]
  have hdev : (∑ k : Fin 100000, mulf (refCentered g) (refCentered g) (ix2 k q))
      = ∑ i : Fin 100000, (((hr i : ℝ) : EReal) - Ideal.div (∑ i : Fin 100000, ((hr i : ℝ) : EReal)) ((100000 : ℝ) : EReal))
          * (((hr i : ℝ) : EReal) - Ideal.div (∑ i : Fin 100000, ((hr i : ℝ) : EReal)) ((100000 : ℝ) : EReal)) :=
    Finset.sum_congr rfl fun k _ => by rw [ValueIdx.mulf_apply, refCentered_apply, refMean_apply, hsum, hhr k]
  unfold kVar refVar
  rw [ValueIdx.subf_apply, ValueIdx.mulf_apply, hdivf_apply, hdivf_apply, unrow_apply, count_apply, colSumSq_apply,
    kMean_apply, reduce_col_apply, bcast_scalar_apply, ValueIdx.constant_apply, ValueIdx.constant_apply,
    Ideal.ofBits_zero_f32, zero_add, real_of_ofBits_n, hsum, hsq, hdev]
  exact (var_law_100000 hr).symm

/-! ### The normalisation, and the result -/

/-- The kernel's normalisation of a real array is the reference's. -/
theorem bn_eq (g : FVec Ideal S100000x64 .f32) (hg : AllReal g) (x9 x10 : FVec Ideal S64 .f32) :
    bnApply g (row (kMean g)) (row (kVar g)) (row x9) (row x10) = refBN g x9 x10 := by
  funext i
  obtain ⟨r, q, rfl⟩ : ∃ (r : Fin 100000) (q : Fin 64), i = ix2 r q := ⟨i 0, i 1, eq_ix2 i⟩
  unfold refBN
  rw [ValueIdx.addf_apply, ValueIdx.mulf_apply, ValueIdx.mulf_apply, refCentered_apply, bcast_rows_apply,
    bcast_rows_apply, bcast_rows_apply, bcast_row_apply, bcast_row_apply, bcast_row_apply, hrsqrt_apply,
    ValueIdx.addf_apply, bcast_scalar_apply, ValueIdx.constant_apply]
  show bn1 (g (ix2 r q)) (row (kMean g) (ix2 (0 : Fin 1) q)) (row (kVar g) (ix2 (0 : Fin 1) q))
    (row x9 (ix2 (0 : Fin 1) q)) (row x10 (ix2 (0 : Fin 1) q)) = _
  unfold bn1
  rw [row_apply, row_apply, row_apply, row_apply, mean_eq, var_eq g hg]
  rfl

/-- THE BRIDGE: on real inputs the kernel program's closed form is the reference's result. -/
theorem out_eq (x0 x1 : IVec S800000 32) (x2 : FVec Ideal S100000x128 .f32) (x3 : FVec Ideal S128x64 .f32)
    (x4 : FVec Ideal S64 .f32) (x5 : FVec Ideal S64x64 .f32) (x6 : FVec Ideal S64 .f32) (x7 : FVec Ideal S64x64 .f32)
    (x8 x9 x10 : FVec Ideal S64 .f32)
    (r2 : AllReal x2) (r3 : AllReal x3) (r4 : AllReal x4) (r5 : AllReal x5) (r6 : AllReal x6) (r7 : AllReal x7)
    (r8 : AllReal x8) (r9 : AllReal x9) (r10 : AllReal x10) :
    Cert.KernelIdeal.KSpec.out x0 x1 x2 x3 x4 x5 x6 x7 x8 x9 x10
      = Cert.ReferenceIdeal.Read.val_main_v94 (F := Ideal) x0 x1 x2 x3 x4 x5 x6 x7 x8 x9 x10 := by
  rw [out_def, v94_eq, h2_eq]
  exact bn_eq _ (allReal_v69 x0 x1 r2 r3 r4 r5 r6 r7 r8) x9 x10

end Cert.Bridge

end
-- ==== Proof.PreReal.lean ====
/-
  The precondition `finite_inputs`, decoded: when its one-bit result is `1`, every entry of each of the
  nine float inputs is a real number. The printed predicate computes, for each float array `a`, the
  conjunction over all entries of `|a| < +∞` (a reduction by `and` from `1`), and the conjunction of
  the nine bits. A conjunction of bits that is `1` has every bit `1`; a reduction by `and` over all
  axes that is `1` met `1` at every entry; and an extended real `x` with `max x (-x) < ⊤` is neither
  `⊤` nor `⊥`, so it is a real number.
-/
import proofs.«141286_j57346403336483_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreReal

open Idealize.ShloMosaic
open Cert.Pre_finite_inputs

/-- The rank-0 shape has one index. -/
instance subsingleton_S_ : Subsingleton S_.Idx := ⟨fun a b => funext fun d => d.elim0⟩

/-- The `f32` pattern `0x7F800000` denotes `+∞`. -/
theorem ofBits_inf : Ideal.ofBits .f32 0x7F800000#32 = ⊤ := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  have h' : max x (-x) < ⊤ := by
    by_contra hc
    simp [Ideal.cmp, hc] at h
  induction x using EReal.rec with
  | bot => simp at h'
  | coe r => exact ⟨r, rfl⟩
  | top => simp at h'

/-- One array's `jnp.all(|a| < +∞)`: when the reduction by `and` over all axes is `1`, every entry is real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf (F := Ideal) .olt (Host.absf a) (broadcastInDim s ![] hb (constant S_ .f32 0x7F800000#32)))
          (constantI S_ 1 1#1) hr hu ValueIdx.ix0 = 1#1) :
    ∀ i, ∃ r : ℝ, a i = (r : EReal) := fun i =>
  real_of_abs_lt_inf (a i) (Host.reduce_andi_all _ _ hr hu _ e i)

theorem inputs_real (a0 a1 : IVec S800000 32) (a2 : FVec Ideal S100000x128 .f32) (a3 : FVec Ideal S128x64 .f32)
    (a4 : FVec Ideal S64 .f32) (a5 : FVec Ideal S64x64 .f32) (a6 : FVec Ideal S64 .f32) (a7 : FVec Ideal S64x64 .f32)
    (a8 : FVec Ideal S64 .f32) (a9 : FVec Ideal S64 .f32) (a10 : FVec Ideal S64 .f32)
    (h : Cert.Pre_finite_inputs.fn (F := Ideal) a0 a1 a2 a3 a4 a5 a6 a7 a8 a9 a10 = fun _ => 1#1) :
    (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal)) := by
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨e2, e3⟩, e4⟩, e5⟩, e6⟩, e7⟩, e8⟩, e9⟩, e10⟩ := h0
  exact ⟨real_of_all a2 _ _ _ e2, real_of_all a3 _ _ _ e3, real_of_all a4 _ _ _ e4, real_of_all a5 _ _ _ e5,
    real_of_all a6 _ _ _ e6, real_of_all a7 _ _ _ e7, real_of_all a8 _ _ _ e8, real_of_all a9 _ _ _ e9,
    real_of_all a10 _ _ _ e10⟩

end Cert.PreReal

end
-- ==== Proof.Claims.lean ====
/-
  THE CLAIMS, assembled. The three programs run and leave their arguments unchanged (the generated frames and the
  reference's generated run); the idealized kernel is the kernel's own text read over the extended reals (nothing was
  rewritten); and, from memories agreeing on the arguments and satisfying the precondition, the idealized kernel and
  the idealized reference end with equal results: the kernel's result buffer holds its closed form of the launched
  arguments, the reference's holds its operations' composed term of them, the precondition makes every float argument
  entry real, and on real arguments the closed form is the reference's term.
-/
import proofs.«141286_j57346403336483_2_alg».proof.Defs
import proofs.«141286_j57346403336483_2_alg».proof.Proof.Gen.Kernel
import proofs.«141286_j57346403336483_2_alg».proof.Proof.Gen.Kernel.Frame
import proofs.«141286_j57346403336483_2_alg».proof.Proof.Gen.KernelIdeal
import proofs.«141286_j57346403336483_2_alg».proof.Proof.Gen.KernelIdeal.Frame
import proofs.«141286_j57346403336483_2_alg».proof.Proof.Gen.ReferenceIdeal
import proofs.«141286_j57346403336483_2_alg».proof.Proof.Gen.ReferenceIdeal.Run
import proofs.«141286_j57346403336483_2_alg».proof.Proof.Gen.ReferenceIdeal.Read
import proofs.«141286_j57346403336483_2_alg».proof.Proof.Gen.Pre_finite_inputs
import proofs.«141286_j57346403336483_2_alg».proof.Proof.KRun
import proofs.«141286_j57346403336483_2_alg».proof.Proof.Fold
import proofs.«141286_j57346403336483_2_alg».proof.Proof.Bridge2
import proofs.«141286_j57346403336483_2_alg».proof.Proof.PreReal

noncomputable section

namespace Cert.Proof.Claims

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the arguments and satisfy the precondition, the two programs
    end with equal results: the kernel's closed form of the launched arguments. -/
theorem algebraic : Cert.algebraic_KernelIdeal_ReferenceIdeal := by
  intro m ρ m' ρ' hpre hagree
  refine ⟨fun c => Cert.KernelIdeal.KSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    (θ_run Cert.KernelIdeal.defs _ _).mono
      (fun _ h c => ⟨(h c).1.trans (Cert.KernelIdeal.Fold.result_eq m ρ c), (h c).2⟩)
      (Cert.KernelIdeal.Run.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq]
  obtain ⟨e0, e1, e2, e3, e4, e5, e6, e7, e8, e9, e10⟩ := hagree c
  rw [e0, e1, e2, e3, e4, e5, e6, e7, e8, e9, e10]
  obtain ⟨r2, r3, r4, r5, r6, r7, r8, r9, r10⟩ := Cert.PreReal.inputs_real _ _ _ _ _ _ _ _ _ _ _ (hpre c)
  exact (Cert.Bridge.out_eq _ _ _ _ _ _ _ _ _ _ _ r2 r3 r4 r5 r6 r7 r8 r9 r10).symm

end Cert.Proof.Claims

end
-- ==== Proof.lean ====
/-
  A two-layer graph convolution network over 100000 nodes and 800000 edges, followed by a batch normalisation:
  the tiled kernel program against the plain reference, over the extended reals.

  Both programs normalise by the clipped node degrees to the power −1/2, map the node features linearly, gather the
  mapped rows at the edges' sources, accumulate them at the destinations, add the residual and scale; twice; then
  normalise each column by its mean and variance over all nodes.  They differ in two arrangements.  The kernel scales
  a node's mapped row by its source normalisation BEFORE the gather, the reference multiplies AFTER gathering the rows
  and the normalisations separately: equal entry by entry, since both gathers read the same clamped row.  And the kernel
  forms the variance as the mean of the squares minus the squared mean, the reference as the mean of the squared
  deviations: equal when every entry is a real number, which the precondition (every float input finite) gives, because
  sums, products, real powers, maxima, gathers and accumulations of reals are reals; with an infinite entry the two
  would differ.  Every other step is the same operation on equal operands; a sum's grouping — by blocks of 5000 rows
  in the kernel, over all rows at once in the reference — needs only commutativity and associativity.

  The kernel program's value is read off its run: five regions, each leaving a closed form of its input arrays, among
  stretches of host operations; the reference's value is its operations composed.  The idealisation rewrote nothing,
  so `preserves` is trivial.
-/
import proofs.«141286_j57346403336483_2_alg».proof.Defs
import proofs.«141286_j57346403336483_2_alg».proof.Proof.Gen.Kernel
import proofs.«141286_j57346403336483_2_alg».proof.Proof.Gen.Kernel.Skeleton
import proofs.«141286_j57346403336483_2_alg».proof.Proof.Gen.Kernel.Launch
import proofs.«141286_j57346403336483_2_alg».proof.Proof.Gen.Kernel.Points
import proofs.«141286_j57346403336483_2_alg».proof.Proof.Gen.Kernel.Frame
import proofs.«141286_j57346403336483_2_alg».proof.Proof.Gen.KernelIdeal
import proofs.«141286_j57346403336483_2_alg».proof.Proof.Gen.KernelIdeal.Skeleton
import proofs.«141286_j57346403336483_2_alg».proof.Proof.Gen.KernelIdeal.Launch
import proofs.«141286_j57346403336483_2_alg».proof.Proof.Gen.KernelIdeal.Points
import proofs.«141286_j57346403336483_2_alg».proof.Proof.Gen.KernelIdeal.Frame
import proofs.«141286_j57346403336483_2_alg».proof.Proof.Gen.ReferenceIdeal
import proofs.«141286_j57346403336483_2_alg».proof.Proof.Gen.ReferenceIdeal.Run
import proofs.«141286_j57346403336483_2_alg».proof.Proof.Gen.ReferenceIdeal.Read
import proofs.«141286_j57346403336483_2_alg».proof.Proof.Gen.Pre_finite_inputs
import proofs.«141286_j57346403336483_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
